-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v7_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x768 : Shape := ⟨3, ![4, 128, 768]⟩
abbrev S768x2048 : Shape := ⟨2, ![768, 2048]⟩
abbrev S2048 : Shape := ⟨1, ![2048]⟩
abbrev S2048x12 : Shape := ⟨2, ![2048, 12]⟩
abbrev S12 : Shape := ⟨1, ![12]⟩
abbrev S_ : Shape := ⟨0, ![]⟩

class Facts : Prop where
  bcast_S_S4x128x768 : S_.BroadcastsInDim S4x128x768 (![] : Fin 0 → Fin S4x128x768.rank)
  reducesTo_S4x128x768_S_d0_1_2 : S4x128x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_
  bcast_S_S2048x12 : S_.BroadcastsInDim S2048x12 (![] : Fin 0 → Fin S2048x12.rank)
  reducesTo_S2048x12_S_d0_1 : S2048x12.ReducesTo [0, 1] S_
  bcast_S_S12 : S_.BroadcastsInDim S12 (![] : Fin 0 → Fin S12.rank)
  reducesTo_S12_S_d0 : S12.ReducesTo [0] S_

variable [Facts]

def fn_part1 {F : FTy → Type} [FloatOps F] (main_arg4 : FVec F S2048 .f32) (main_arg5 : FVec F S2048x12 .f32) (main_arg6 : FVec F S12 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x12 .f32 := Host.absf main_arg5
  let main_cst_8 : FVec F S_ .f32 := constant S_ .f32 0x7F800000#32
  let main_v25 : FVec F S2048x12 .f32 := broadcastInDim S2048x12 ![] bcast_S_S2048x12 main_cst_8
  let main_v26 : IVec S2048x12 1 := cmpf .olt main_v24 main_v25
  let main_c_9 : IVec S_ 1 := constantI S_ 1 1#1
  let main_v27 : IVec S_ 1 := (fun x v => Host.reduce IntOp.andi x v reducesTo_S2048x12_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  main_v33

def fn {F : FTy → Type} [FloatOps F] (main_arg0 : FVec F S4x128x768 .f32) (main_arg1 : FVec F S768x2048 .f32) (main_arg2 : FVec F S768x2048 .f32) (main_arg3 : FVec F S2048 .f32) (main_arg4 : FVec F S2048 .f32) (main_arg5 : FVec F S2048x12 .f32) (main_arg6 : FVec F S12 .f32) : IVec S_ 1 :=
  let main_v0 : FVec F S4x128x768 .f32 := Host.absf main_arg0
  let main_cst : FVec F S_ .f32 := constant S_ .f32 0x7F800000#32
  let main_v1 : FVec F S4x128x768 .f32 := broadcastInDim S4x128x768 ![] bcast_S_S4x128x768 main_cst
  let main_v2 : IVec S4x128x768 1 := cmpf .olt main_v0 main_v1
  let main_c : IVec S_ 1 := constantI S_ 1 1#1
  let main_v3 : IVec S_ 1 := (fun x v => Host.reduce IntOp.andi x v reducesTo_S4x128x768_S_d0_1_2 h_S_) main_v2 main_c
  let main_v4 : FVec F S768x2048 .f32 := Host.absf main_arg1
  let main_cst_0 : FVec F S_ .f32 := constant S_ .f32 0x7F800000#32
  let main_v5 : FVec F S768x2048 .f32 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S768x2048 .f32 := Host.absf main_arg2
  let main_cst_2 : FVec F S_ .f32 := constant S_ .f32 0x7F800000#32
  let main_v10 : FVec F S768x2048 .f32 := broadcastInDim S768x2048 ![] bcast_S_S768x2048 main_cst_2
  let main_v11 : IVec S768x2048 1 := cmpf .olt main_v9 main_v10
  let main_c_3 : IVec S_ 1 := constantI S_ 1 1#1
  let main_v12 : IVec S_ 1 := (fun x v => Host.reduce IntOp.andi x v reducesTo_S768x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4x128x768 : Shape := ⟨3, ![4, 128, 768]⟩
abbrev S768x2048 : Shape := ⟨2, ![768, 2048]⟩
abbrev S2048 : Shape := ⟨1, ![2048]⟩
abbrev S2048x12 : Shape := ⟨2, ![2048, 12]⟩
abbrev S12 : Shape := ⟨1, ![12]⟩
abbrev S512x768 : Shape := ⟨2, ![512, 768]⟩
abbrev S1x2048 : Shape := ⟨2, ![1, 2048]⟩
abbrev S512x2048 : Shape := ⟨2, ![512, 2048]⟩
abbrev S128x768 : Shape := ⟨2, ![128, 768]⟩
abbrev S768x512 : Shape := ⟨2, ![768, 512]⟩
abbrev S1x512 : Shape := ⟨2, ![1, 512]⟩
abbrev S128x512 : Shape := ⟨2, ![128, 512]⟩
abbrev S4x128x2048 : Shape := ⟨3, ![4, 128, 2048]⟩
abbrev S1x12 : Shape := ⟨2, ![1, 12]⟩
abbrev S4x128x128x2048 : Shape := ⟨4, ![4, 128, 128, 2048]⟩
abbrev S4x128x128x12 : Shape := ⟨4, ![4, 128, 128, 12]⟩
abbrev S4x4x8x128 : Shape := ⟨4, ![4, 4, 8, 128]⟩
abbrev S1x32x128 : Shape := ⟨3, ![1, 32, 128]⟩
abbrev S1x128x128 : Shape := ⟨3, ![1, 128, 128]⟩
abbrev S128x12 : Shape := ⟨2, ![128, 12]⟩
abbrev S1x32x128x128 : Shape := ⟨4, ![1, 32, 128, 128]⟩
abbrev S1x32x128x12 : Shape := ⟨4, ![1, 32, 128, 12]⟩
abbrev S1x1x8x128 : Shape := ⟨4, ![1, 1, 8, 128]⟩
abbrev S32x128x12 : Shape := ⟨3, ![32, 128, 12]⟩
abbrev S8x128 : Shape := ⟨2, ![8, 128]⟩
abbrev S32x128 : Shape := ⟨2, ![32, 128]⟩
abbrev S128x128 : Shape := ⟨2, ![128, 128]⟩
abbrev S32x1x128 : Shape := ⟨3, ![32, 1, 128]⟩
abbrev S32x128x128 : Shape := ⟨3, ![32, 128, 128]⟩
abbrev S32 : Shape := ⟨1, ![32]⟩
abbrev S32x1 : Shape := ⟨2, ![32, 1]⟩
abbrev S1 : Shape := ⟨1, ![1]⟩
abbrev S1x1 : Shape := ⟨2, ![1, 1]⟩
abbrev S4096x128 : Shape := ⟨2, ![4096, 128]⟩
abbrev S4096x12 : Shape := ⟨2, ![4096, 12]⟩
abbrev S1x1x12 : Shape := ⟨3, ![1, 1, 12]⟩
abbrev S4x4x1x1 : Shape := ⟨4, ![4, 4, 1, 1]⟩
abbrev S4x4 : Shape := ⟨2, ![4, 4]⟩
abbrev S_ : Shape := ⟨0, ![]⟩
abbrev S4x12x128x128 : Shape := ⟨4, ![4, 12, 128, 128]⟩

abbrev nBuf : Space → Nat
  | .hbm => 25
  | .vmem => 29
  | .smem => 0
  | _ => 0

abbrev bufTy : (tb : Table) → Fin (tcTables nBuf tb) → BufTy
  | .hbm, ⟨0, _⟩ => ⟨S4x128x768, .f32⟩
  | .hbm, ⟨1, _⟩ => ⟨S768x2048, .f32⟩
  | .hbm, ⟨2, _⟩ => ⟨S768x2048, .f32⟩
  | .hbm, ⟨3, _⟩ => ⟨S2048, .f32⟩
  | .hbm, ⟨4, _⟩ => ⟨S2048, .f32⟩
  | .hbm, ⟨5, _⟩ => ⟨S2048x12, .f32⟩
  | .hbm, ⟨6, _⟩ => ⟨S12, .f32⟩
  | .hbm, ⟨7, _⟩ => ⟨S512x768, .f32⟩
  | .hbm, ⟨8, _⟩ => ⟨S1x2048, .f32⟩
  | .hbm, ⟨9, _⟩ => ⟨S1x2048, .f32⟩
  | .hbm, ⟨10, _⟩ => ⟨S512x2048, .f32⟩
  | .hbm, ⟨11, _⟩ => ⟨S512x2048, .f32⟩
  | .hbm, ⟨12, _⟩ => ⟨S4x128x2048, .f32⟩
  | .hbm, ⟨13, _⟩ => ⟨S4x128x2048, .f32⟩
  | .hbm, ⟨14, _⟩ => ⟨S1x12, .f32⟩
  | .hbm, ⟨15, _⟩ => ⟨S4x128x128x2048, .i32⟩
  | .hbm, ⟨16, _⟩ => ⟨S4x128x128x12, .f32⟩
  | .hbm, ⟨17, _⟩ => ⟨S4x4x8x128, .f32⟩
  | .hbm, ⟨18, _⟩ => ⟨S4x4x1x1, .f32⟩
  | .hbm, ⟨19, _⟩ => ⟨S4x4, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x12x128x128, .f32⟩
  | .local _ .vmem, ⟨0, _⟩ => ⟨S128x768, .f32⟩
  | .local _ .vmem, ⟨1, _⟩ => ⟨S128x768, .f32⟩
  | .local _ .vmem, ⟨2, _⟩ => ⟨S768x512, .f32⟩
  | .local _ .vmem, ⟨3, _⟩ => ⟨S768x512, .f32⟩
  | .local _ .vmem, ⟨4, _⟩ => ⟨S768x512, .f32⟩
  | .local _ .vmem, ⟨5, _⟩ => ⟨S768x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S1x32x128, .f32⟩
  | .local _ .vmem, ⟨15, _⟩ => ⟨S1x32x128, .f32⟩
  | .local _ .vmem, ⟨16, _⟩ => ⟨S1x128x128, .f32⟩
  | .local _ .vmem, ⟨17, _⟩ => ⟨S1x128x128, .f32⟩
  | .local _ .vmem, ⟨18, _⟩ => ⟨S128x12, .f32⟩
  | .local _ .vmem, ⟨19, _⟩ => ⟨S128x12, .f32⟩
  | .local _ .vmem, ⟨20, _⟩ => ⟨S1x12, .f32⟩
  | .local _ .vmem, ⟨21, _⟩ => ⟨S1x32x128x128, .i32⟩
  | .local _ .vmem, ⟨22, _⟩ => ⟨S1x32x128x128, .i32⟩
  | .local _ .vmem, ⟨23, _⟩ => ⟨S1x32x128x12, .f32⟩
  | .local _ .vmem, ⟨24, _⟩ => ⟨S1x32x128x12, .f32⟩
  | .local _ .vmem, ⟨25, _⟩ => ⟨S1x1x8x128, .f32⟩
  | .local _ .vmem, ⟨26, _⟩ => ⟨S1x1x8x128, .f32⟩
  | .local _ .vmem, ⟨27, _⟩ => ⟨S32x128x12, .f32⟩
  | .local _ .vmem, ⟨28, _⟩ => ⟨S8x128, .f32⟩
  | _, _ => ⟨S4x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 16], ![false, false, false]⟩

def k1_cond2 (i : grid1.Coords) : BitVec 1 :=
  let arg2 : BitVec 32 := BitVec.ofNat 32 (i 2).val
  let c15_i32 : BitVec 32 := 15#32
  let v45 : BitVec 1 := Scalar.cmpi .eq arg2 c15_i32
  let v46 : BitVec 32 := Scalar.extui v45
  let c0_i32_27 : BitVec 32 := 0#32
  let v47 : BitVec 1 := Scalar.cmpi .ne v46 c0_i32_27
  v47

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc1_transform_5 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S128x12 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 1 → Memref sig .tc .vmem S1x12 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 2 → Memref sig .tc .vmem S1x32x128x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x32x128x12 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1x1x8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x128x768_S512x768 : S4x128x768.ShapeCasts S512x768
  shapeCasts_S2048_S1x2048 : S2048.ShapeCasts S1x2048
  inb_S128x768_S128x768_0_0 : ∀ a, (![0, 0] : Fin 2 → Nat) a + S128x768.size a ≤ S128x768.size a
  h_S128x768 : 0 < S128x768.numel
  shapeCasts_S128x768_S128x768 : S128x768.ShapeCasts S128x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S512x2048_S4x128x2048 : S512x2048.ShapeCasts S4x128x2048
  shapeCasts_S12_S1x12 : S12.ShapeCasts S1x12
  inb_S32x128x12_S32x128x12_0_0_0 : ∀ a, (![0, 0, 0] : Fin 3 → Nat) a + S32x128x12.size a ≤ S32x128x12.size a
  h_S32x128x12 : 0 < S32x128x12.numel
  shapeCasts_S32x128x12_S32x128x12 : S32x128x12.ShapeCasts S32x128x12
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S32x128_S32x1x128 : S32x128.ShapeCasts S32x1x128
  shapeCasts_S128x128_S1x128x128 : S128x128.ShapeCasts S1x128x128
  broadcasts_S32x1x128_S32x128x128 : S32x1x128.Broadcasts S32x128x128
  broadcasts_S1x128x128_S32x128x128 : S1x128x128.Broadcasts S32x128x128
  reduces_S32x128x128_S32x128 : S32x128x128.Reduces [2] S32x128
  reduces_S32x128_S32 : S32x128.Reduces [1] S32
  shapeCasts_S32_S32x1 : S32.ShapeCasts S32x1
  reduces_S32x1_S1 : S32x1.Reduces [0] S1
  shapeCasts_S1_S1x1 : S1.ShapeCasts S1x1
  shapeCasts_S1x1_S1x1 : S1x1.ShapeCasts S1x1
  broadcasts_S1x1_S8x128 : S1x1.Broadcasts S8x128
  natLt_1_32 : 1 < 32
  inb_S1x32x128x128_S1x32x128x128_0_0_0_0 : ∀ a, (![0, 0, 0, 0] : Fin 4 → Nat) a + S1x32x128x128.size a ≤ S1x32x128x128.size a
  h_S1x32x128x128 : 0 < S1x32x128x128.numel
  shapeCasts_S1x32x128x128_S32x128x128 : S1x32x128x128.ShapeCasts S32x128x128
  shapeCasts_S32x128x128_S1x32x128x128 : S32x128x128.ShapeCasts S1x32x128x128
  shapeCasts_S32x128x128_S4096x128 : S32x128x128.ShapeCasts S4096x128
  inb_S128x12_S128x12_0_0 : ∀ a, (![0, 0] : Fin 2 → Nat) a + S128x12.size a ≤ S128x12.size a
  h_S128x12 : 0 < S128x12.numel
  shapeCasts_S4096x12_S32x128x12 : S4096x12.ShapeCasts S32x128x12
  inb_S1x12_S1x12_0_0 : ∀ a, (![0, 0] : Fin 2 → Nat) a + S1x12.size a ≤ S1x12.size a
  h_S1x12 : 0 < S1x12.numel
  shapeCasts_S1x12_S1x12 : S1x12.ShapeCasts S1x12
  shapeCasts_S1x12_S1x1x12 : S1x12.ShapeCasts S1x1x12
  broadcasts_S1x1x12_S32x128x12 : S1x1x12.Broadcasts S32x128x12
  inb_S1x32x128x12_S1x32x128x12_0_0_0_0 : ∀ a, (![0, 0, 0, 0] : Fin 4 → Nat) a + S1x32x128x12.size a ≤ S1x32x128x12.size a
  h_S1x32x128x12 : 0 < S1x32x128x12.numel
  shapeCasts_S1x32x128x12_S32x128x12 : S1x32x128x12.ShapeCasts S32x128x12
  shapeCasts_S32x128x12_S1x32x128x12 : S32x128x12.ShapeCasts S1x32x128x12
  inb_S1x1x8x128_S1x1x8x128_0_0_0_0 : ∀ a, (![0, 0, 0, 0] : Fin 4 → Nat) a + S1x1x8x128.size a ≤ S1x1x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  slices_S4x4x8x128_S4x4x1x1_0_0_0_0 : S4x4x8x128.Slices ![0, 0, 0, 0] S4x4x1x1
  shapeCasts_S4x4x1x1_S4x4 : S4x4x1x1.ShapeCasts S4x4
  reducesTo_S4x4_S_d0_1 : S4x4.ReducesTo [0, 1] S_
  h_S_ : 0 < S_.numel
  transposes_S4x128x128x12_S4x12x128x128_0_3_1_2 : S4x128x128x12.Transposes [0, 3, 1, 2] S4x12x128x128
  dot_S128x768_S768x512_S128x512_1_0_0_1_n_n_wf : DotDims.WF S128x768 S768x512 S128x512 [1] [0] [0] [1] [] []
  dot_S4096x128_S128x12_S4096x12_1_0_0_1_n_n_wf : DotDims.WF S4096x128 S128x12 S4096x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S512x768.size a
  hwx0_0 : ∀ i : grid0.Coords, EltTy.bits .f32 = 32 ∨ (Rect.block (s := S512x768) S128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S768x512.size a ≤ S768x2048.size a
  hwx0_1 : ∀ i : grid0.Coords, EltTy.bits .f32 = 32 ∨ (Rect.block (s := S768x2048) S768x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x2048.size a
  hwx0_2 : ∀ i : grid0.Coords, EltTy.bits .f32 = 32 ∨ (Rect.block (s := S768x2048) S768x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S512x2048.size a
  hwx0_5 : ∀ i : grid0.Coords, EltTy.bits .f32 = 32 ∨ (Rect.block (s := S512x2048) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x512.size a ≤ S512x2048.size a
  hwx0_6 : ∀ i : grid0.Coords, EltTy.bits .f32 = 32 ∨ (Rect.block (s := S512x2048) S128x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x128.size a ≤ S4x128x2048.size a
  hwx1_0 : ∀ i : grid1.Coords, EltTy.bits .f32 = 32 ∨ (Rect.block (s := S4x128x2048) S1x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S4x128x2048.size a
  hwx1_1 : ∀ i : grid1.Coords, EltTy.bits .f32 = 32 ∨ (Rect.block (s := S4x128x2048) S1x128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x12.size a ≤ S2048x12.size a
  hwx1_2 : ∀ i : grid1.Coords, EltTy.bits .f32 = 32 ∨ (Rect.block (s := S2048x12) S128x12.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x12.size a ≤ S1x12.size a
  hwx1_3 : ∀ i : grid1.Coords, EltTy.bits .f32 = 32 ∨ (Rect.block (s := S1x12) S1x12.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x32x128x128.size a ≤ S4x128x128x2048.size a
  hwx1_4 : ∀ i : grid1.Coords, EltTy.bits .i32 = 32 ∨ (Rect.block (s := S4x128x128x2048) S1x32x128x128.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x128x12.size a ≤ S4x128x128x12.size a
  hwx1_5 : ∀ i : grid1.Coords, EltTy.bits .f32 = 32 ∨ (Rect.block (s := S4x128x128x12) S1x32x128x12.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x8x128.size a ≤ S4x4x8x128.size a
  hwx1_6 : ∀ i : grid1.Coords, EltTy.bits .f32 = 32 ∨ (Rect.block (s := S4x4x8x128) S1x1x8x128.size (cc1_transform_6 i) (hinb1_6 i)).WholeWords (EltTy.packing .f32)

variable [Facts₀]

def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf
def dot_S4096x128_S128x12_S4096x12_1_0_0_1_n_n : DotDims S4096x128 S128x12 S4096x12 where
  lhsContracting := [1]
  rhsContracting := [0]
  lhsNonContracting := [0]
  rhsNonContracting := [1]
  lhsBatch := []
  rhsBatch := []
  wf := dot_S4096x128_S128x12_S4096x12_1_0_0_1_n_n_wf

abbrev win0_0 : Pipeline.Window sig grid0 :=
  Pipeline.Window.ofSpec (Memref.whole main_v0) S128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S128x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S1x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x12.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x12.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x32x128x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x32x128x12.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v7_2) S1x1x8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x128x768 : Shape := ⟨3, ![4, 128, 768]⟩
abbrev S768x2048 : Shape := ⟨2, ![768, 2048]⟩
abbrev S2048 : Shape := ⟨1, ![2048]⟩
abbrev S2048x12 : Shape := ⟨2, ![2048, 12]⟩
abbrev S12 : Shape := ⟨1, ![12]⟩
abbrev S4x128x2048 : Shape := ⟨3, ![4, 128, 2048]⟩
abbrev S1x1x2048 : Shape := ⟨3, ![1, 1, 2048]⟩
abbrev S_ : Shape := ⟨0, ![]⟩
abbrev S4x128x1x2048 : Shape := ⟨4, ![4, 128, 1, 2048]⟩
abbrev S4x1x128x2048 : Shape := ⟨4, ![4, 1, 128, 2048]⟩
abbrev S4x128x128x2048 : Shape := ⟨4, ![4, 128, 128, 2048]⟩
abbrev S4x128x128x12 : Shape := ⟨4, ![4, 128, 128, 12]⟩
abbrev S1x1x1x12 : Shape := ⟨4, ![1, 1, 1, 12]⟩
abbrev S4x12x128x128 : Shape := ⟨4, ![4, 12, 128, 128]⟩

abbrev nBuf : Space → Nat
  | .hbm => 47
  | .vmem => 0
  | .smem => 0
  | _ => 0

abbrev bufTy : (tb : Table) → Fin (tcTables nBuf tb) → BufTy
  | .hbm, ⟨0, _⟩ => ⟨S4x128x768, .f32⟩
  | .hbm, ⟨1, _⟩ => ⟨S768x2048, .f32⟩
  | .hbm, ⟨2, _⟩ => ⟨S768x2048, .f32⟩
  | .hbm, ⟨3, _⟩ => ⟨S2048, .f32⟩
  | .hbm, ⟨4, _⟩ => ⟨S2048, .f32⟩
  | .hbm, ⟨5, _⟩ => ⟨S2048x12, .f32⟩
  | .hbm, ⟨6, _⟩ => ⟨S12, .f32⟩
  | .hbm, ⟨7, _⟩ => ⟨S4x128x2048, .f32⟩
  | .hbm, ⟨8, _⟩ => ⟨S1x1x2048, .f32⟩
  | .hbm, ⟨9, _⟩ => ⟨S4x128x2048, .f32⟩
  | .hbm, ⟨10, _⟩ => ⟨S4x128x2048, .f32⟩
  | .hbm, ⟨11, _⟩ => ⟨S_, .f32⟩
  | .hbm, ⟨12, _⟩ => ⟨S4x128x2048, .f32⟩
  | .hbm, ⟨13, _⟩ => ⟨S4x128x2048, .f32⟩
  | .hbm, ⟨14, _⟩ => ⟨S4x128x2048, .f32⟩
  | .hbm, ⟨15, _⟩ => ⟨S1x1x2048, .f32⟩
  | .hbm, ⟨16, _⟩ => ⟨S4x128x2048, .f32⟩
  | .hbm, ⟨17, _⟩ => ⟨S4x128x2048, .f32⟩
  | .hbm, ⟨18, _⟩ => ⟨S_, .f32⟩
  | .hbm, ⟨19, _⟩ => ⟨S4x128x2048, .f32⟩
  | .hbm, ⟨20, _⟩ => ⟨S4x128x2048, .f32⟩
  | .hbm, ⟨21, _⟩ => ⟨S4x128x1x2048, .f32⟩
  | .hbm, ⟨22, _⟩ => ⟨S4x1x128x2048, .f32⟩
  | .hbm, ⟨23, _⟩ => ⟨S4x128x128x2048, .f32⟩
  | .hbm, ⟨24, _⟩ => ⟨S4x128x128x2048, .f32⟩
  | .hbm, ⟨25, _⟩ => ⟨S4x128x128x2048, .f32⟩
  | .hbm, ⟨26, _⟩ => ⟨S4x128x128x2048, .f32⟩
  | .hbm, ⟨27, _⟩ => ⟨S_, .f32⟩
  | .hbm, ⟨28, _⟩ => ⟨S4x128x128x2048, .f32⟩
  | .hbm, ⟨29, _⟩ => ⟨S4x128x128x2048, .f32⟩
  | .hbm, ⟨30, _⟩ => ⟨S4x128x128x2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x128x128x2048, .f32⟩
  | .hbm, ⟨37, _⟩ => ⟨S4x128x128x2048, .i1⟩
  | .hbm, ⟨38, _⟩ => ⟨S4x128x128x2048, .i32⟩
  | .hbm, ⟨39, _⟩ => ⟨S4x128x128x12, .f32⟩
  | .hbm, ⟨40, _⟩ => ⟨S_, .f32⟩
  | .hbm, ⟨41, _⟩ => ⟨S4x128x128x12, .f32⟩
  | .hbm, ⟨42, _⟩ => ⟨S4x128x128x12, .f32⟩
  | .hbm, ⟨43, _⟩ => ⟨S1x1x1x12, .f32⟩
  | .hbm, ⟨44, _⟩ => ⟨S4x128x128x12, .f32⟩
  | .hbm, ⟨45, _⟩ => ⟨S4x128x128x12, .f32⟩
  | .hbm, ⟨46, _⟩ => ⟨S4x12x128x128, .f32⟩
  | _, _ => ⟨S4x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x128x2048_0_1_2 : S1x1x2048.BroadcastsInDim S4x128x2048 (![0, 1, 2] : Fin 3 → Fin S4x128x2048.rank)
  bcast_S_S4x128x2048 : S_.BroadcastsInDim S4x128x2048 (![] : Fin 0 → Fin S4x128x2048.rank)
  bcast_S4x128x2048_S4x128x1x2048_0_1_3 : S4x128x2048.BroadcastsInDim S4x128x1x2048 (![0, 1, 3] : Fin 3 → Fin S4x128x1x2048.rank)
  bcast_S4x128x2048_S4x1x128x2048_0_2_3 : S4x128x2048.BroadcastsInDim S4x1x128x2048 (![0, 2, 3] : Fin 3 → Fin S4x1x128x2048.rank)
  bcast_S4x128x1x2048_S4x128x128x2048_0_1_2_3 : S4x128x1x2048.BroadcastsInDim S4x128x128x2048 (![0, 1, 2, 3] : Fin 4 → Fin S4x128x128x2048.rank)
  bcast_S4x1x128x2048_S4x128x128x2048_0_1_2_3 : S4x1x128x2048.BroadcastsInDim S4x128x128x2048 (![0, 1, 2, 3] : Fin 4 → Fin S4x128x128x2048.rank)
  bcast_S_S4x128x128x2048 : S_.BroadcastsInDim S4x128x128x2048 (![] : Fin 0 → Fin S4x128x128x2048.rank)
  reducesTo_S4x128x128x2048_S_d0_1_2_3 : S4x128x128x2048.ReducesTo [0, 1, 2, 3] S_
  h_S_ : 0 < S_.numel
  natLt_1_32 : 1 < 32
  bcast_S_S4x128x128x12 : S_.BroadcastsInDim S4x128x128x12 (![] : Fin 0 → Fin S4x128x128x12.rank)
  bcast_S12_S1x1x1x12_3 : S12.BroadcastsInDim S1x1x1x12 (![3] : Fin 1 → Fin S1x1x1x12.rank)
  bcast_S1x1x1x12_S4x128x128x12_0_1_2_3 : S1x1x1x12.BroadcastsInDim S4x128x128x12 (![0, 1, 2, 3] : Fin 4 → Fin S4x128x128x12.rank)
  transposes_S4x128x128x12_S4x12x128x128_0_3_1_2 : S4x128x128x12.Transposes [0, 3, 1, 2] S4x12x128x128
  dot_S4x128x768_S768x2048_S4x128x2048_2_0_01_1_n_n_wf : DotDims.WF S4x128x768 S768x2048 S4x128x2048 [2] [0] [0, 1] [1] [] []
  dot_S4x128x128x2048_S2048x12_S4x128x128x12_3_0_012_1_n_n_wf : DotDims.WF S4x128x128x2048 S2048x12 S4x128x128x12 [3] [0] [0, 1, 2] [1] [] []

variable [Facts₀]

def dot_S4x128x768_S768x2048_S4x128x2048_2_0_01_1_n_n : DotDims S4x128x768 S768x2048 S4x128x2048 where
  lhsContracting := [2]
  rhsContracting := [0]
  lhsNonContracting := [0, 1]
  rhsNonContracting := [1]
  lhsBatch := []
  rhsBatch := []
  wf := dot_S4x128x768_S768x2048_S4x128x2048_2_0_01_1_n_n_wf
def dot_S4x128x128x2048_S2048x12_S4x128x128x12_3_0_012_1_n_n : DotDims S4x128x128x2048 S2048x12 S4x128x128x12 where
  lhsContracting := [3]
  rhsContracting := [0]
  lhsNonContracting := [0, 1, 2]
  rhsNonContracting := [1]
  lhsBatch := []
  rhsBatch := []
  wf := dot_S4x128x128x2048_S2048x12_S4x128x128x12_3_0_012_1_n_n_wf

class Facts : Prop extends Facts₀ where

variable [Facts]
-- ==== Proof.KRegion0.lean ====
/-
  The dense-layer kernel (the first of the program's two pipelined kernels) at one grid point, and its proof data over
  the buffer contents `V` the region is entered with.  A grid point (i, j) holds a 128-row block of the input rows, a
  512-column block of each weight matrix and of each bias row, and writes the 128×512 block (i, j) of the queries and of
  the keys: each output block is one store of a pure function of the five input blocks (`encQ`, `encK`).  Nothing is
  kept between points.
-/
import proofs.«168794_j67723044324148_2_alg».proof.Proof.Gen.Kernel.Launch
import proofs.«168794_j67723044324148_2_alg».proof.Proof.Gen.Kernel.Skeleton
import proofs.«168794_j67723044324148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S128x768 := Rect.unit (s := S128x768) ![0, 0] S128x768.size inb_S128x768_S128x768_0_0
abbrev rW0 : Rect S768x512 := Rect.unit (s := S768x512) ![0, 0] S768x512.size inb_S768x512_S768x512_0_0
abbrev rB0 : Rect S1x512 := Rect.unit (s := S1x512) ![0, 0] S1x512.size inb_S1x512_S1x512_0_0
abbrev rO0 : Rect S128x512 := Rect.unit (s := S128x512) ![0, 0] S128x512.size inb_S128x512_S128x512_0_0

/-- The query block after the body: its one store, of the dense layer of the row block, the weight block and the bias block. -/
def encQ (x0 : Vec F S128x768 .f32) (x1 : Vec F S768x512 .f32) (x3 : Vec F S1x512 .f32) : Vec F S128x512 .f32 :=
  View.canon [⟨rO0, k0_pay2 (View.ld x0 rX0) (View.ld x1 rW0) (View.ld x3 rB0)⟩]
/-- The key block after the body, likewise from the second weight and bias blocks. -/
def encK (x0 : Vec F S128x768 .f32) (x2 : Vec F S768x512 .f32) (x4 : Vec F S1x512 .f32) : Vec F S128x512 .f32 :=
  View.canon [⟨rO0, k0_pay3 (View.ld x0 rX0) (View.ld x2 rW0) (View.ld x4 rB0)⟩]

/-- One whole-buffer store covers the buffer. -/
theorem coverO0 (p0 : Vec F S128x512 .f32) (y : S128x512.Idx) :
    ∃ pc ∈ ([⟨rO0, p0⟩] : List (View.Piece (Elt F) S128x512 .f32)), y ∈ pc.1.set :=
  View.cover_of_tiled [⟨rO0, p0⟩] S128x512.size (by rfl) y

/-! ## The body's triple -/

set_option maxHeartbeats 4000000 in
/-- On whole staging buffers — the five inputs' at contents `x0 … x4`, the two outputs' at anything — the body runs to the
    continuation holding the inputs' as they were and the outputs' at `encQ`, `encK` of them. -/
theorem sound_kernel0 (c : Dev nD) (E : Set ℕ) (i : grid0.Coords)
    (arg2 : Memref sig .tc .vmem S128x768 .f32) (harg2 : arg2.IsWhole) (arg3 : Memref sig .tc .vmem S768x512 .f32) (harg3 : arg3.IsWhole)
    (arg4 : Memref sig .tc .vmem S768x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S128x512 .f32) (harg7 : arg7.IsWhole)
    (arg8 : Memref sig .tc .vmem S128x512 .f32) (harg8 : arg8.IsWhole)
    (x0 : Vec F S128x768 .f32) (x1 x2 : Vec F S768x512 .f32) (x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (encQ x0 x1 x3) ∗ owns (c : Thread nD τ) arg8 fullShare (encK x0 x2 x4)) -∗ K ⟨⟩))
      ⊢ wp frame (wpE (defs₀ (F := F)) Variants.none c none) E (cc0__encode_kernel i arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO0 _)
  iexists _; isplitr
  swap; · iexact H6
  ipureintro
  exact View.read_writes_eq_canon _ _ _ (coverO0 _)

/-! ## The proof data -/

/-- The proof data of the first pipeline on core `c`: the arrays as the region finds them; after the body at point `t` each
    input's buffer at its block and the outputs' at `encQ`, `encK` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => encQ (iblk0 V c 0 t) (iblk0 V c 1 t) (iblk0 V c 3 t)
    | ⟨6, _⟩ => encK (iblk0 V c 0 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = encQ (iblk0 V c 0 t) (iblk0 V c 1 t) (iblk0 V c 3 t) := by dsimp only [dat0]
theorem after0_6 (c : Dev nD) (t : Fin cfg0.N) : (dat0 V c).after 6 t = encK (iblk0 V c 0 t) (iblk0 V c 2 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRuns1.lean ====
/-
  What the runs of the second pipelined kernel (the pairwise-product kernel) share.  Its grid is (batch, query block,
  feature tile) = 4 × 4 × 16, the feature tile innermost; two scratch buffers carry, across the 16 feature tiles of one
  (batch, query block), the partial decoded scores and the partial sum of roots.  The body zeroes both at tile 0, adds
  the tile's contribution at every tile, and at tile 15 stores the scaled, biased scores and the sum into two output
  blocks, which are idle (neither stored nor written back) at the other tiles; the indicator block is stored at every
  tile.  Here: the two branch conditions in closed form over the grid, where the two late outputs are idle, the staging
  and scratch buffers at a point, and the region invariant with the two scratch buffers split off.
-/
import proofs.«168794_j67723044324148_2_alg».proof.Proof.Gen.Kernel.Launch
import proofs.«168794_j67723044324148_2_alg».proof.Proof.Gen.Kernel.Skeleton
import proofs.«168794_j67723044324148_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is feature tile 0": the condition under which the body zeroes the two scratch buffers. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is feature tile 15": the condition under which the body stores the two late outputs. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch buffers at a point -/

abbrev ms1_0 (t : Fin cfg1.N) : Memref sig .tc .vmem S1x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x12 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x12 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x128x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32x128x12 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x8x128 .f32 := win1_6.stage (cfg1.slots t 6)
abbrev hs1_6 (t : Fin cfg1.N) : (ms1_6 t).IsWhole := hstage1_6 ((cfg1.slots t 6).cast nbuf1_6)
/-- The two scratch buffers: the partial scores and the partial sum of roots. -/
abbrev scM1_0 : Memref sig .tc .vmem S32x128x12 .f32 := Memref.whole cc1_scratch0
abbrev scM1_1 : Memref sig .tc .vmem S8x128 .f32 := Memref.whole cc1_scratch1
/-- Views through which the outputs' and the scratch buffers' contents are stated. -/
abbrev VO1_4 : View sig .tc .vmem S1x32x128x128 .i32 := (Memref.whole cc1_stg4_0 : Memref sig .tc .vmem S1x32x128x128 .i32).view
abbrev VO1_5 : View sig .tc .vmem S1x32x128x12 .f32 := (Memref.whole cc1_stg5_0 : Memref sig .tc .vmem S1x32x128x12 .f32).view
abbrev VO1_6 : View sig .tc .vmem S1x1x8x128 .f32 := (Memref.whole cc1_stg6_0 : Memref sig .tc .vmem S1x1x8x128 .f32).view
abbrev VS1_0 : View sig .tc .vmem S32x128x12 .f32 := scM1_0.view
abbrev VS1_1 : View sig .tc .vmem S8x128 .f32 := scM1_1.view

/-- Every other scoped buffer of the core (the first kernel's staging buffers), at some contents each. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region invariant with the two scratch buffers split off, each owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ restBut1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.Kernel.Hand

end
-- ==== Proof.KRun1A.lean ====
/-
  The whole-body run of the pairwise-product kernel at feature tile 0 (the scratch buffers are zeroed first; the two late outputs are idle):
  what each buffer the body stores into ends with, as the list of its stores, with the body's triple.
-/
import proofs.«168794_j67723044324148_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the two idle outputs' at `xi5`, `xi6` handed back untouched, the indicator output's at anything, the scratch buffers' at anything — the body runs
    to the continuation holding the inputs' as they were and each written buffer with its stores applied. -/
noncomputable def kernelRun1_A (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) :
    Σ' (L4 : List (View.Piece (Elt F) S1x32x128x128 .i32)) (LS0 : List (View.Piece (Elt F) S32x128x12 .f32)), { LS1 : List (View.Piece (Elt F) S8x128 .f32) //
      ∀ (xi5 : Vec F S1x32x128x12 .f32) (xi6 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xi5 ∗ owns (c : Thread nD τ) arg9 fullShare xi6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, fun xi5 xi6 E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.KRun1B.lean ====
/-
  The whole-body run of the pairwise-product kernel at a feature tile strictly between 0 and 15 (the scratch buffers are added to; the two late outputs are idle):
  what each buffer the body stores into ends with, as the list of its stores, with the body's triple.
-/
import proofs.«168794_j67723044324148_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the two idle outputs' at `xi5`, `xi6` handed back untouched, the indicator output's at anything, the scratch buffers' at `xs0`, `xs1` — the body runs
    to the continuation holding the inputs' as they were and each written buffer with its stores applied. -/
noncomputable def kernelRun1_B (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) :
    Σ' (L4 : List (View.Piece (Elt F) S1x32x128x128 .i32)) (LS0 : List (View.Piece (Elt F) S32x128x12 .f32)), { LS1 : List (View.Piece (Elt F) S8x128 .f32) //
      ∀ (xi5 : Vec F S1x32x128x12 .f32) (xi6 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xi5 ∗ owns (c : Thread nD τ) arg9 fullShare xi6
            ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, fun xi5 xi6 E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.Kernel.Hand

end
-- ==== Proof.KRun1C.lean ====
/-
  The whole-body run of the pairwise-product kernel at feature tile 15 (the scratch buffers are added to, then the two late outputs are stored from them):
  what each buffer the body stores into ends with, as the list of its stores, with the body's triple.
-/
import proofs.«168794_j67723044324148_2_alg».proof.Proof.KRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the indicator output's at anything, the scratch buffers' at `xs0`, `xs1` — the body runs
    to the continuation holding the inputs' as they were and each written buffer with its stores applied. -/
noncomputable def kernelRun1_C (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) :
    Σ' (L4 : List (View.Piece (Elt F) S1x32x128x128 .i32)) (L5 : List (View.Piece (Elt F) S1x32x128x12 .f32)) (L6 : List (View.Piece (Elt F) S1x1x8x128 .f32)) (LS0 : List (View.Piece (Elt F) S32x128x12 .f32)), { LS1 : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    iexists _; iexact HS1

end Cert.Kernel.Hand

end
-- ==== Proof.KRegion1.lean ====
/-
  The proof data and the body obligation of the pairwise-product kernel over the buffer contents `V` its region is entered
  with: what each written buffer holds after each of the three kinds of point, what the outputs and the two scratch
  buffers hold after every point by recursion on the point (the scratch contents of a point feed the next), the region
  invariant point by point, and the body at any point.
-/
import proofs.«168794_j67723044324148_2_alg».proof.Proof.KRun1A
import proofs.«168794_j67723044324148_2_alg».proof.Proof.KRun1B
import proofs.«168794_j67723044324148_2_alg».proof.Proof.KRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves in each buffer it stores into: its stores read back -/

theorem cover1_A_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S1x32x128x128.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1x32x128x128.size (by sl_kernel_rfl) y
def out1_A_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S1x32x128x128 .i32 :=
  VO1_4.read (Elt F) (VO1_4.writes (Elt F) VO1_4.junk (kernelRun1_A c i arg3 harg3 arg4 harg4 arg5 harg5 arg6 harg6 arg7 harg7 arg8 harg8 arg9 harg9 arg10 harg10 arg11 harg11 hc0 hc1 x0 x1 x2 x3).1)

theorem scover1_A_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S32x128x12.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S32x128x12.size (by sl_kernel_rfl) y
def sout1_A_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S32x128x12 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).2.1)

theorem scover1_A_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S8x128.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S8x128.size (by sl_kernel_rfl) y
def sout1_A_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S8x128 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.2.1)

theorem cover1_B_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x128.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).1 S1x32x128x128.size (by sl_kernel_rfl) y
def out1_B_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x128 .i32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1).1)

theorem scover1_B_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S32x128x12.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).2.1 S32x128x12.size (by sl_kernel_rfl) y
def sout1_B_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S32x128x12 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1).2.1)

theorem scover1_B_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S8x128.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).2.2.1 S8x128.size (by sl_kernel_rfl) y
def sout1_B_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S8x128 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1).2.2.1)

theorem cover1_C_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).1 S1x32x128x128.size (by sl_kernel_rfl) y
def out1_C_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x128 .i32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1).1)

theorem cover1_C_5 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x12.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.1 S1x32x128x12.size (by sl_kernel_rfl) y
def out1_C_5 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x12 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 xs0 xs1).2.1)

theorem cover1_C_6 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x1x8x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.1 S1x1x8x128.size (by sl_kernel_rfl) y
def out1_C_6 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x1x8x128 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 hc0 hc1 x0 x1 x2 x3 xs0 xs1).2.2.1)

theorem scover1_C_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S32x128x12.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.2.1 S32x128x12.size (by sl_kernel_rfl) y
def sout1_C_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S32x128x12 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1).2.2.2.1)

theorem scover1_C_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S8x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.2.2.1 S8x128.size (by sl_kernel_rfl) y
def sout1_C_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S8x128 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1).2.2.2.2.1)

/-! ## What the outputs and the scratch buffers hold after each point -/

/-- The three outputs' staging contents and the two scratch buffers' contents after a point. -/
abbrev Outs1 (F : FTy → Type) [FloatOps F] : Type :=
  Vec F S1x32x128x128 .i32 × Vec F S1x32x128x12 .f32 × Vec F S1x1x8x128 .f32 × Vec F S32x128x12 .f32 × Vec F S8x128 .f32

/-- A placeholder for an idle output: nothing reads it. -/
def idle5 : Vec F S1x32x128x12 .f32 := VO1_5.read (Elt F) (VO1_5.writes (Elt F) VO1_5.junk [])
def idle6 : Vec F S1x1x8x128 .f32 := VO1_6.read (Elt F) (VO1_6.writes (Elt F) VO1_6.junk [])

/-- After a point at feature tile 0. -/
def afterA (c : Dev nD) (t : Fin cfg1.N) (hc0 : cond1_0 (grid1.coords t)) (hc1 : ¬cond1_1 (grid1.coords t)) : Outs1 F :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t), idle5, idle6,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t))
/-- After a point at a middle feature tile, from the scratch contents the point before left. -/
def afterB (c : Dev nD) (t : Fin cfg1.N) (hc0 : ¬cond1_0 (grid1.coords t)) (hc1 : ¬cond1_1 (grid1.coords t)) (xs0 : Vec F S32x128x12 .f32) (xs1 : Vec F S8x128 .f32) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1, idle5, idle6,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1)
/-- After a point at feature tile 15, from the scratch contents the point before left. -/
def afterC (c : Dev nD) (t : Fin cfg1.N) (hc0 : ¬cond1_0 (grid1.coords t)) (hc1 : cond1_1 (grid1.coords t)) (xs0 : Vec F S32x128x12 .f32) (xs1 : Vec F S8x128 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1)

/-- THE ACCUMULATION: what the outputs and the scratch buffers hold after the body at position `n`, by recursion on the
    position — the kind of point the closed forms select, run on the point's blocks and on the scratch contents of the
    position before. -/
def outsAt1 (c : Dev nD) : (n : ℕ) → n < cfg1.N → Outs1 F
  | 0, hn => afterA V c ⟨0, hn⟩ ((hcond1_0 ⟨0, hn⟩).mpr (Nat.zero_mod _)) (fun h => absurd ((hcond1_1 ⟨0, hn⟩).mp h) (by (try dsimp only); omega))
  | n + 1, hn =>
    if h0 : (n + 1) % 16 = 0 then
      afterA V c ⟨n + 1, hn⟩ ((hcond1_0 ⟨n + 1, hn⟩).mpr h0) (fun h => absurd ((hcond1_1 ⟨n + 1, hn⟩).mp h) (by (try dsimp only); omega))
    else if h1 : (n + 1) % 16 = 15 then
      afterC V c ⟨n + 1, hn⟩ (fun h => h0 ((hcond1_0 ⟨n + 1, hn⟩).mp h)) ((hcond1_1 ⟨n + 1, hn⟩).mpr h1)
        (outsAt1 c n (Nat.lt_of_succ_lt hn)).2.2.2.1 (outsAt1 c n (Nat.lt_of_succ_lt hn)).2.2.2.2
    else
      afterB V c ⟨n + 1, hn⟩ (fun h => h0 ((hcond1_0 ⟨n + 1, hn⟩).mp h)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (h0 : t.val % 16 = 0) :
    outsAt1 V c t.val t.isLt = afterA V c t ((hcond1_0 t).mpr h0) (fun h => absurd ((hcond1_1 t).mp h) (by omega)) := by
  obtain ⟨n, hn⟩ := t
  cases n with
  | zero => rfl
  | succ n => exact (dif_pos h0).trans rfl

theorem outsAt1_B (c : Dev nD) (t : Fin cfg1.N) (h0 : ¬t.val % 16 = 0) (h1 : ¬t.val % 16 = 15) :
    outsAt1 V c t.val t.isLt = afterB V c t (fun h => h0 ((hcond1_0 t).mp h)) (fun h => h1 ((hcond1_1 t).mp h))
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = afterC V c t (fun h => h0 ((hcond1_0 t).mp h)) ((hcond1_1 t).mpr h1)
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The region invariant, point by point -/

/-- Before position `n`: before the first point every scoped buffer that is no staging buffer of this kernel at anything and
    the generator register at some state; afterwards the same with the two scratch buffers at what the position before left. -/
def PhiS1 (c : Dev nD) : (n : ℕ) → n ≤ cfg1.N → sProp 𝕄
  | 0, _ => Pipeline.ΦA spec1 c
  | n + 1, hn => iprop((((owns (c : Thread nD τ) scM1_0 fullShare (outsAt1 V c n hn).2.2.2.1) ∗ (owns (c : Thread nD τ) scM1_1 fullShare (outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((((owns (c : Thread nD τ) scM1_0 fullShare (outsAt1 V c n hn).2.2.2.1) ∗ (owns (c : Thread nD τ) scM1_1 fullShare (outsAt1 V c n hn).2.2.2.2)) ∗ restBut1 c) ∗ (∃ r, prngReg c r)) := rfl
theorem PhiS1_pos (c : Dev nD) (n : ℕ) (h : n ≤ cfg1.N) (hz : n ≠ 0) :
    PhiS1 V c n h = iprop((((owns (c : Thread nD τ) scM1_0 fullShare (outsAt1 V c (n - 1) (by omega)).2.2.2.1) ∗ (owns (c : Thread nD τ) scM1_1 fullShare (outsAt1 V c (n - 1) (by omega)).2.2.2.2)) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => absurd ((hcond1_1 t).mp h) (by omega))) (noFlush1_5 t (fun h => absurd ((hcond1_1 t).mp h) (by omega))),
    Dat.leavesExact_idle (dat1 V c) 6 t (idleAt1_6 t (fun h => absurd ((hcond1_1 t).mp h) (by omega))) (noFlush1_6 t (fun h => absurd ((hcond1_1 t).mp h) (by omega)))]
  rw [outsAt1_A V c t h0]
  unfold afterA; (try dsimp only)
  by_cases hz : t.val = 0
  ·
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  ·
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6

set_option maxHeartbeats 4000000 in
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h))),
    Dat.leavesExact_idle (dat1 V c) 6 t (idleAt1_6 t (fun h => h1 ((hcond1_1 t).mp h))) (noFlush1_6 t (fun h => h1 ((hcond1_1 t).mp h)))]
  rw [outsAt1_B V c t h0 h1]
  unfold afterB; (try dsimp only)
  have hz : t.val ≠ 0 := by intro h; rw [h] at h0; exact h0 (Nat.zero_mod _)
  rw [PhiS1_castSucc V c t, PhiS1_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 HR Hg]
  · isplitl [HS0 HS1 HR]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _ _ _ _ _ _)
      · iexact HR
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 c _ _ _ _ _ _ _ _ _ _ _ _ _ _ _ _ _ _ _ _ _ _ _ _ _ _ _)
  isplitl [H5]; · iexists _; iexact H5
  iexists _; iexact H6

set_option maxHeartbeats 4000000 in
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t ((hcond1_1 t).mpr h1)], after1_5,
    show (dat1 V c).leavesExact 6 t = owns (c : Thread nD τ) (ms1_6 t) fullShare ((dat1 V c).after 6 t) from by
      unfold Dat.leavesExact; rw [liveAt1_6 t ((hcond1_1 t).mpr h1)], after1_6]
  rw [outsAt1_C V c t h0 h1]
  unfold afterC; (try dsimp only)
  have hz : t.val ≠ 0 := by intro h; rw [h] at h0; exact h0 (Nat.zero_mod _)
  rw [PhiS1_castSucc V c t, PhiS1_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  isplitl [HS0 HS1 HR Hg]
  · isplitl [HS0 HS1 HR]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _ _ _ _ _)
      · iexact HR
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 c _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover1_C_5 c _ _ _ _ _ _ _ _ _ _ _ _ _ _ _ _ _ _ _ _ _ _ _ _ _ _ _)
  unfold owns; iexists _; isplitr
  swap; · iexact H6
  ipureintro; exact View.read_writes_of_cover _ _ _ _ _ (cover1_C_6 c _ _ _ _ _ _ _ _ _ _ _ _ _ _ _ _ _ _ _ _ _ _ _ _ _ _ _)

/-- The body at any point, by the kind of point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.KRun.lean ====
/-
  The run of the whole program: host reshapes, the dense-layer kernel, host reshapes, the pairwise-product kernel, and
  the host's slice / sum / scale / transpose — as a list of segments.  The buffer contents at each segment boundary are a
  fold from the launch memory (`W0 … W5`): a host stretch applies its operations, a kernel region leaves its arrays at what
  its write-backs leave and every other buffer as entered.  Every weakly fair execution terminates with every unscoped
  buffer at `W5`; the argument arrays read back through the fold to their launch contents.
-/
import proofs.«168794_j67723044324148_2_alg».proof.Proof.KRegion0
import proofs.«168794_j67723044324148_2_alg».proof.Proof.KRegion1
import proofs.«168794_j67723044324148_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## A buffer no host stretch writes passes through it -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`.  Its arrays are split
    out of the unscoped buffers and put back at the exit contents; the generator register goes into the region invariant
    and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split
    out of the unscoped buffers and put back at the exit contents; the generator register goes into the region invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V3 m) c); unfold Pipeline.ΦA
    iintro ⟨Hp, -, Hr⟩
    isplitl [Hr]; · iexact Hr
    iexact Hp
  hout c := by
    rw [Pipeline.ownSems0_none]
    refine .trans (show (pdats m 1 c).Φ (Fin.last _) ⊢ Pipeline.ΦA spec1 c from hout1 (V3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show (iprop(StableHlo.held (c : Thread nD τ) (Pipeline.ucRefs τ sig) (W5 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The argument arrays end as launched -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: the program runs to the end, nothing faulting, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.Kernel.Hand

end
-- ==== Proof.KIRegion0.lean ====
/-
  The dense-layer kernel (the first of the program's two pipelined kernels) at one grid point, and its proof data over
  the buffer contents `V` the region is entered with.  A grid point (i, j) holds a 128-row block of the input rows, a
  512-column block of each weight matrix and of each bias row, and writes the 128×512 block (i, j) of the queries and of
  the keys: each output block is one store of a pure function of the five input blocks (`encQ`, `encK`).  Nothing is
  kept between points.
-/
import proofs.«168794_j67723044324148_2_alg».proof.Proof.Gen.KernelIdeal.Launch
import proofs.«168794_j67723044324148_2_alg».proof.Proof.Gen.KernelIdeal.Skeleton
import proofs.«168794_j67723044324148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole buffer -/

abbrev rX0 : Rect S128x768 := Rect.unit (s := S128x768) ![0, 0] S128x768.size inb_S128x768_S128x768_0_0
abbrev rW0 : Rect S768x512 := Rect.unit (s := S768x512) ![0, 0] S768x512.size inb_S768x512_S768x512_0_0
abbrev rB0 : Rect S1x512 := Rect.unit (s := S1x512) ![0, 0] S1x512.size inb_S1x512_S1x512_0_0
abbrev rO0 : Rect S128x512 := Rect.unit (s := S128x512) ![0, 0] S128x512.size inb_S128x512_S128x512_0_0

/-- The query block after the body: its one store, of the dense layer of the row block, the weight block and the bias block. -/
def encQ (x0 : Vec F S128x768 .f32) (x1 : Vec F S768x512 .f32) (x3 : Vec F S1x512 .f32) : Vec F S128x512 .f32 :=
  View.canon [⟨rO0, k0_pay2 (View.ld x0 rX0) (View.ld x1 rW0) (View.ld x3 rB0)⟩]
/-- The key block after the body, likewise from the second weight and bias blocks. -/
def encK (x0 : Vec F S128x768 .f32) (x2 : Vec F S768x512 .f32) (x4 : Vec F S1x512 .f32) : Vec F S128x512 .f32 :=
  View.canon [⟨rO0, k0_pay3 (View.ld x0 rX0) (View.ld x2 rW0) (View.ld x4 rB0)⟩]

/-- One whole-buffer store covers the buffer. -/
theorem coverO0 (p0 : Vec F S128x512 .f32) (y : S128x512.Idx) :
    ∃ pc ∈ ([⟨rO0, p0⟩] : List (View.Piece (Elt F) S128x512 .f32)), y ∈ pc.1.set :=
  View.cover_of_tiled [⟨rO0, p0⟩] S128x512.size (by rfl) y

/-! ## The body's triple -/

set_option maxHeartbeats 4000000 in
/-- On whole staging buffers — the five inputs' at contents `x0 … x4`, the two outputs' at anything — the body runs to the
    continuation holding the inputs' as they were and the outputs' at `encQ`, `encK` of them. -/
theorem sound_kernel0 (c : Dev nD) (E : Set ℕ) (i : grid0.Coords)
    (arg2 : Memref sig .tc .vmem S128x768 .f32) (harg2 : arg2.IsWhole) (arg3 : Memref sig .tc .vmem S768x512 .f32) (harg3 : arg3.IsWhole)
    (arg4 : Memref sig .tc .vmem S768x512 .f32) (harg4 : arg4.IsWhole) (arg5 : Memref sig .tc .vmem S1x512 .f32) (harg5 : arg5.IsWhole)
    (arg6 : Memref sig .tc .vmem S1x512 .f32) (harg6 : arg6.IsWhole) (arg7 : Memref sig .tc .vmem S128x512 .f32) (harg7 : arg7.IsWhole)
    (arg8 : Memref sig .tc .vmem S128x512 .f32) (harg8 : arg8.IsWhole)
    (x0 : Vec F S128x768 .f32) (x1 x2 : Vec F S768x512 .f32) (x3 x4 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (encQ x0 x1 x3) ∗ owns (c : Thread nD τ) arg8 fullShare (encK x0 x2 x4)) -∗ K ⟨⟩))
      ⊢ wp frame (wpE (defs₀ (F := F)) Variants.none c none) E (cc0__encode_kernel i arg2 harg2 arg3 harg3 arg4 harg4 arg5 harg5 arg6 harg6 arg7 harg7 arg8 harg8) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO0 _)
  iexists _; isplitr
  swap; · iexact H6
  ipureintro
  exact View.read_writes_eq_canon _ _ _ (coverO0 _)

/-! ## The proof data -/

/-- The proof data of the first pipeline on core `c`: the arrays as the region finds them; after the body at point `t` each
    input's buffer at its block and the outputs' at `encQ`, `encK` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => encQ (iblk0 V c 0 t) (iblk0 V c 1 t) (iblk0 V c 3 t)
    | ⟨6, _⟩ => encK (iblk0 V c 0 t) (iblk0 V c 2 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = encQ (iblk0 V c 0 t) (iblk0 V c 1 t) (iblk0 V c 3 t) := by dsimp only [dat0]
theorem after0_6 (c : Dev nD) (t : Fin cfg0.N) : (dat0 V c).after 6 t = encK (iblk0 V c 0 t) (iblk0 V c 2 t) (iblk0 V c 4 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point: the inputs' buffers hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRuns1.lean ====
/-
  What the runs of the second pipelined kernel (the pairwise-product kernel) share.  Its grid is (batch, query block,
  feature tile) = 4 × 4 × 16, the feature tile innermost; two scratch buffers carry, across the 16 feature tiles of one
  (batch, query block), the partial decoded scores and the partial sum of roots.  The body zeroes both at tile 0, adds
  the tile's contribution at every tile, and at tile 15 stores the scaled, biased scores and the sum into two output
  blocks, which are idle (neither stored nor written back) at the other tiles; the indicator block is stored at every
  tile.  Here: the two branch conditions in closed form over the grid, where the two late outputs are idle, the staging
  and scratch buffers at a point, and the region invariant with the two scratch buffers split off.
-/
import proofs.«168794_j67723044324148_2_alg».proof.Proof.Gen.KernelIdeal.Launch
import proofs.«168794_j67723044324148_2_alg».proof.Proof.Gen.KernelIdeal.Skeleton
import proofs.«168794_j67723044324148_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- "This is feature tile 0": the condition under which the body zeroes the two scratch buffers. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is feature tile 15": the condition under which the body stores the two late outputs. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch buffers at a point -/

abbrev ms1_0 (t : Fin cfg1.N) : Memref sig .tc .vmem S1x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x12 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x12 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x32x128x128 .i32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x32x128x12 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x8x128 .f32 := win1_6.stage (cfg1.slots t 6)
abbrev hs1_6 (t : Fin cfg1.N) : (ms1_6 t).IsWhole := hstage1_6 ((cfg1.slots t 6).cast nbuf1_6)
/-- The two scratch buffers: the partial scores and the partial sum of roots. -/
abbrev scM1_0 : Memref sig .tc .vmem S32x128x12 .f32 := Memref.whole cc1_scratch0
abbrev scM1_1 : Memref sig .tc .vmem S8x128 .f32 := Memref.whole cc1_scratch1
/-- Views through which the outputs' and the scratch buffers' contents are stated. -/
abbrev VO1_4 : View sig .tc .vmem S1x32x128x128 .i32 := (Memref.whole cc1_stg4_0 : Memref sig .tc .vmem S1x32x128x128 .i32).view
abbrev VO1_5 : View sig .tc .vmem S1x32x128x12 .f32 := (Memref.whole cc1_stg5_0 : Memref sig .tc .vmem S1x32x128x12 .f32).view
abbrev VO1_6 : View sig .tc .vmem S1x1x8x128 .f32 := (Memref.whole cc1_stg6_0 : Memref sig .tc .vmem S1x1x8x128 .f32).view
abbrev VS1_0 : View sig .tc .vmem S32x128x12 .f32 := scM1_0.view
abbrev VS1_1 : View sig .tc .vmem S8x128 .f32 := scM1_1.view

/-- Every other scoped buffer of the core (the first kernel's staging buffers), at some contents each. -/
abbrev restBut1 (c : Dev nD) : sProp 𝕄 :=
  Pipeline.scopedRestBut (Ix := Unit) (Name := ℕ) (U := UR sig nD τ) (Lvl := ℕ) (Val := Elt F) spec1 c [cc1_scratch0, cc1_scratch1]

/-- The region invariant with the two scratch buffers split off, each owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ restBut1 c) ∗ (∃ r, prngReg c r)) := by
  unfold Pipeline.ΦA
  rw [Pipeline.scopedRest_split_of_list spec1 c [cc1_scratch0, cc1_scratch1] (by decide) (by decide)]
  simp only [scM1_0, scM1_1, owns_whole]; try rfl

end Cert.KernelIdeal.Hand

end
-- ==== Proof.KIRun1A.lean ====
/-
  The whole-body run of the pairwise-product kernel at feature tile 0 (the scratch buffers are zeroed first; the two late outputs are idle):
  what each buffer the body stores into ends with, as the list of its stores, with the body's triple.
-/
import proofs.«168794_j67723044324148_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the two idle outputs' at `xi5`, `xi6` handed back untouched, the indicator output's at anything, the scratch buffers' at anything — the body runs
    to the continuation holding the inputs' as they were and each written buffer with its stores applied. -/
noncomputable def kernelRun1_A (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) :
    Σ' (L4 : List (View.Piece (Elt F) S1x32x128x128 .i32)) (LS0 : List (View.Piece (Elt F) S32x128x12 .f32)), { LS1 : List (View.Piece (Elt F) S8x128 .f32) //
      ∀ (xi5 : Vec F S1x32x128x12 .f32) (xi6 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xi5 ∗ owns (c : Thread nD τ) arg9 fullShare xi6
            ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, fun xi5 xi6 E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.KIRun1B.lean ====
/-
  The whole-body run of the pairwise-product kernel at a feature tile strictly between 0 and 15 (the scratch buffers are added to; the two late outputs are idle):
  what each buffer the body stores into ends with, as the list of its stores, with the body's triple.
-/
import proofs.«168794_j67723044324148_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the two idle outputs' at `xi5`, `xi6` handed back untouched, the indicator output's at anything, the scratch buffers' at `xs0`, `xs1` — the body runs
    to the continuation holding the inputs' as they were and each written buffer with its stores applied. -/
noncomputable def kernelRun1_B (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) :
    Σ' (L4 : List (View.Piece (Elt F) S1x32x128x128 .i32)) (LS0 : List (View.Piece (Elt F) S32x128x12 .f32)), { LS1 : List (View.Piece (Elt F) S8x128 .f32) //
      ∀ (xi5 : Vec F S1x32x128x12 .f32) (xi6 : Vec F S1x1x8x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xi5 ∗ owns (c : Thread nD τ) arg9 fullShare xi6
            ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ owns (c : Thread nD τ) arg8 fullShare xi5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, fun xi5 xi6 E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hf6; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    iexists _; iexact HS1

end Cert.KernelIdeal.Hand

end
-- ==== Proof.KIRun1C.lean ====
/-
  The whole-body run of the pairwise-product kernel at feature tile 15 (the scratch buffers are added to, then the two late outputs are stored from them):
  what each buffer the body stores into ends with, as the list of its stores, with the body's triple.
-/
import proofs.«168794_j67723044324148_2_alg».proof.Proof.KIRuns1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The stores the body leaves in each buffer it writes (last first), with the triple: on whole buffers — the inputs' at
    `x0 … x3`, the indicator output's at anything, the scratch buffers' at `xs0`, `xs1` — the body runs
    to the continuation holding the inputs' as they were and each written buffer with its stores applied. -/
noncomputable def kernelRun1_C (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) :
    Σ' (L4 : List (View.Piece (Elt F) S1x32x128x128 .i32)) (L5 : List (View.Piece (Elt F) S1x32x128x12 .f32)) (L6 : List (View.Piece (Elt F) S1x1x8x128 .f32)) (LS0 : List (View.Piece (Elt F) S32x128x12 .f32)), { LS1 : List (View.Piece (Elt F) S8x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ (∃ d, owns (c : Thread nD τ) arg8 fullShare d) ∗ (∃ d, owns (c : Thread nD τ) arg9 fullShare d)
            ∗ owns (c : Thread nD τ) arg10 fullShare xs0 ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc1__sparse_qk_kernel i arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc1__sparse_qk_kernel_eq_skeleton]; unfold cc1__sparse_qk_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg10.eq_unread hfs0; obtain rfl := harg11.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [H6]; · iexists _; iexact H6
    isplitl [HS0]; · iexists _; iexact HS0
    iexists _; iexact HS1

end Cert.KernelIdeal.Hand

end
-- ==== Proof.KIRegion1.lean ====
/-
  The proof data and the body obligation of the pairwise-product kernel over the buffer contents `V` its region is entered
  with: what each written buffer holds after each of the three kinds of point, what the outputs and the two scratch
  buffers hold after every point by recursion on the point (the scratch contents of a point feed the next), the region
  invariant point by point, and the body at any point.
-/
import proofs.«168794_j67723044324148_2_alg».proof.Proof.KIRun1A
import proofs.«168794_j67723044324148_2_alg».proof.Proof.KIRun1B
import proofs.«168794_j67723044324148_2_alg».proof.Proof.KIRun1C
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves in each buffer it stores into: its stores read back -/

theorem cover1_A_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S1x32x128x128.Idx) :
    ∃ pc ∈ (kernelRun1_A c i arg3 harg3 arg4 harg4 arg5 harg5 arg6 harg6 arg7 harg7 arg8 harg8 arg9 harg9 arg10 harg10 arg11 harg11 hc0 hc1 x0 x1 x2 x3).1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).1 S1x32x128x128.size (by sl_kernel_rfl) y
def out1_A_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S1x32x128x128 .i32 :=
  VO1_4.read (Elt F) (VO1_4.writes (Elt F) VO1_4.junk (kernelRun1_A c i arg3 harg3 arg4 harg4 arg5 harg5 arg6 harg6 arg7 harg7 arg8 harg8 arg9 harg9 arg10 harg10 arg11 harg11 hc0 hc1 x0 x1 x2 x3).1)

theorem scover1_A_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S32x128x12.Idx) :
    ∃ pc ∈ (kernelRun1_A c i arg3 harg3 arg4 harg4 arg5 harg5 arg6 harg6 arg7 harg7 arg8 harg8 arg9 harg9 arg10 harg10 arg11 harg11 hc0 hc1 x0 x1 x2 x3).2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.1 S32x128x12.size (by sl_kernel_rfl) y
def sout1_A_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S32x128x12 .f32 :=
  VS1_0.read (Elt F) (VS1_0.writes (Elt F) VS1_0.junk (kernelRun1_A c i arg3 harg3 arg4 harg4 arg5 harg5 arg6 harg6 arg7 harg7 arg8 harg8 arg9 harg9 arg10 harg10 arg11 harg11 hc0 hc1 x0 x1 x2 x3).2.1)

theorem scover1_A_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) (y : S8x128.Idx) :
    ∃ pc ∈ (kernelRun1_A c i arg3 harg3 arg4 harg4 arg5 harg5 arg6 harg6 arg7 harg7 arg8 harg8 arg9 harg9 arg10 harg10 arg11 harg11 hc0 hc1 x0 x1 x2 x3).2.2.1, y ∈ pc.1.set :=
  View.cover_of_tiledL (kernelRun1_A c i arg3 harg3 arg4 harg4 arg5 harg5 arg6 harg6 arg7 harg7 arg8 harg8 arg9 harg9 arg10 harg10 arg11 harg11 hc0 hc1 x0 x1 x2 x3).2.2.1 S8x128.size (by sl_kernel_rfl) y
def sout1_A_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : Vec F S8x128 .f32 :=
  VS1_1.read (Elt F) (VS1_1.writes (Elt F) VS1_1.junk (kernelRun1_A c i arg3 harg3 arg4 harg4 arg5 harg5 arg6 harg6 arg7 harg7 arg8 harg8 arg9 harg9 arg10 harg10 arg11 harg11 hc0 hc1 x0 x1 x2 x3).2.2.1)

theorem cover1_B_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x128.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).1 S1x32x128x128.size (by sl_kernel_rfl) y
def out1_B_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x128 .i32 :=
  VO1_4.read (Elt F) (VO1_4.writes (Elt F) VO1_4.junk (kernelRun1_B c i arg3 harg3 arg4 harg4 arg5 harg5 arg6 harg6 arg7 harg7 arg8 harg8 arg9 harg9 arg10 harg10 arg11 harg11 hc0 hc1 x0 x1 x2 x3 xs0 xs1).1)

theorem scover1_B_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S32x128x12.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).2.1 S32x128x12.size (by sl_kernel_rfl) y
def sout1_B_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S32x128x12 .f32 :=
  VS1_0.read (Elt F) (VS1_0.writes (Elt F) VS1_0.junk (kernelRun1_B c i arg3 harg3 arg4 harg4 arg5 harg5 arg6 harg6 arg7 harg7 arg8 harg8 arg9 harg9 arg10 harg10 arg11 harg11 hc0 hc1 x0 x1 x2 x3 xs0 xs1).2.1)

theorem scover1_B_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S8x128.Idx) :
    ∃ pc ∈ (kernelRun1_B c i arg3 harg3 arg4 harg4 arg5 harg5 arg6 harg6 arg7 harg7 arg8 harg8 arg9 harg9 arg10 harg10 arg11 harg11 hc0 hc1 x0 x1 x2 x3 xs0 xs1).2.2.1, y ∈ pc.1.set :=
  View.cover_of_tiledL (kernelRun1_B c i arg3 harg3 arg4 harg4 arg5 harg5 arg6 harg6 arg7 harg7 arg8 harg8 arg9 harg9 arg10 harg10 arg11 harg11 hc0 hc1 x0 x1 x2 x3 xs0 xs1).2.2.1 S8x128.size (by sl_kernel_rfl) y
def sout1_B_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S8x128 .f32 :=
  VS1_1.read (Elt F) (VS1_1.writes (Elt F) VS1_1.junk (kernelRun1_B c i arg3 harg3 arg4 harg4 arg5 harg5 arg6 harg6 arg7 harg7 arg8 harg8 arg9 harg9 arg10 harg10 arg11 harg11 hc0 hc1 x0 x1 x2 x3 xs0 xs1).2.2.1)

theorem cover1_C_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).1 S1x32x128x128.size (by sl_kernel_rfl) y
def out1_C_4 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x128 .i32 :=
  VO1_4.read (Elt F) (VO1_4.writes (Elt F) VO1_4.junk (kernelRun1_C c i arg3 harg3 arg4 harg4 arg5 harg5 arg6 harg6 arg7 harg7 arg8 harg8 arg9 harg9 arg10 harg10 arg11 harg11 hc0 hc1 x0 x1 x2 x3 xs0 xs1).1)

theorem cover1_C_5 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x32x128x12.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.1 S1x32x128x12.size (by sl_kernel_rfl) y
def out1_C_5 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x32x128x12 .f32 :=
  VO1_5.read (Elt F) (VO1_5.writes (Elt F) VO1_5.junk (kernelRun1_C c i arg3 harg3 arg4 harg4 arg5 harg5 arg6 harg6 arg7 harg7 arg8 harg8 arg9 harg9 arg10 harg10 arg11 harg11 hc0 hc1 x0 x1 x2 x3 xs0 xs1).2.1)

theorem cover1_C_6 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S1x1x8x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.1 S1x1x8x128.size (by sl_kernel_rfl) y
def out1_C_6 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S1x1x8x128 .f32 :=
  VO1_6.read (Elt F) (VO1_6.writes (Elt F) VO1_6.junk (kernelRun1_C c i arg3 harg3 arg4 harg4 arg5 harg5 arg6 harg6 arg7 harg7 arg8 harg8 arg9 harg9 arg10 harg10 arg11 harg11 hc0 hc1 x0 x1 x2 x3 xs0 xs1).2.2.1)

theorem scover1_C_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S32x128x12.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.2.1 S32x128x12.size (by sl_kernel_rfl) y
def sout1_C_0 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S32x128x12 .f32 :=
  VS1_0.read (Elt F) (VS1_0.writes (Elt F) VS1_0.junk (kernelRun1_C c i arg3 harg3 arg4 harg4 arg5 harg5 arg6 harg6 arg7 harg7 arg8 harg8 arg9 harg9 arg10 harg10 arg11 harg11 hc0 hc1 x0 x1 x2 x3 xs0 xs1).2.2.2.1)

theorem scover1_C_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) (y : S8x128.Idx) :
    ∃ pc ∈ (kernelRun1_C c i arg3 harg3 arg4 harg4 arg5 harg5 arg6 harg6 arg7 harg7 arg8 harg8 arg9 harg9 arg10 harg10 arg11 harg11 hc0 hc1 x0 x1 x2 x3 xs0 xs1).2.2.2.2.1, y ∈ pc.1.set :=
  View.cover_of_tiledL (kernelRun1_C c i arg3 harg3 arg4 harg4 arg5 harg5 arg6 harg6 arg7 harg7 arg8 harg8 arg9 harg9 arg10 harg10 arg11 harg11 hc0 hc1 x0 x1 x2 x3 xs0 xs1).2.2.2.2.1 S8x128.size (by sl_kernel_rfl) y
def sout1_C_1 (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : Vec F S8x128 .f32 :=
  VS1_1.read (Elt F) (VS1_1.writes (Elt F) VS1_1.junk (kernelRun1_C c i arg3 harg3 arg4 harg4 arg5 harg5 arg6 harg6 arg7 harg7 arg8 harg8 arg9 harg9 arg10 harg10 arg11 harg11 hc0 hc1 x0 x1 x2 x3 xs0 xs1).2.2.2.2.1)

/-! ## What the outputs and the scratch buffers hold after each point -/

/-- The three outputs' staging contents and the two scratch buffers' contents after a point. -/
abbrev Outs1 (F : FTy → Type) [FloatOps F] : Type :=
  Vec F S1x32x128x128 .i32 × Vec F S1x32x128x12 .f32 × Vec F S1x1x8x128 .f32 × Vec F S32x128x12 .f32 × Vec F S8x128 .f32

/-- A placeholder for an idle output: nothing reads it. -/
def idle5 : Vec F S1x32x128x12 .f32 := VO1_5.read (Elt F) (VO1_5.writes (Elt F) VO1_5.junk [])
def idle6 : Vec F S1x1x8x128 .f32 := VO1_6.read (Elt F) (VO1_6.writes (Elt F) VO1_6.junk [])

/-- After a point at feature tile 0. -/
def afterA (c : Dev nD) (t : Fin cfg1.N) (hc0 : cond1_0 (grid1.coords t)) (hc1 : ¬cond1_1 (grid1.coords t)) : Outs1 F :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t), idle5, idle6,
   sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t),
   sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t))
/-- After a point at a middle feature tile, from the scratch contents the point before left. -/
def afterB (c : Dev nD) (t : Fin cfg1.N) (hc0 : ¬cond1_0 (grid1.coords t)) (hc1 : ¬cond1_1 (grid1.coords t)) (xs0 : Vec F S32x128x12 .f32) (xs1 : Vec F S8x128 .f32) : Outs1 F :=
  (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1, idle5, idle6,
   sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1)
/-- After a point at feature tile 15, from the scratch contents the point before left. -/
def afterC (c : Dev nD) (t : Fin cfg1.N) (hc0 : ¬cond1_0 (grid1.coords t)) (hc1 : cond1_1 (grid1.coords t)) (xs0 : Vec F S32x128x12 .f32) (xs1 : Vec F S8x128 .f32) : Outs1 F :=
  (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1,
   sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1)

/-- THE ACCUMULATION: what the outputs and the scratch buffers hold after the body at position `n`, by recursion on the
    position — the kind of point the closed forms select, run on the point's blocks and on the scratch contents of the
    position before. -/
def outsAt1 (c : Dev nD) : (n : ℕ) → n < cfg1.N → Outs1 F
  | 0, hn => afterA V c ⟨0, hn⟩ ((hcond1_0 ⟨0, hn⟩).mpr (Nat.zero_mod _)) (fun h => absurd ((hcond1_1 ⟨0, hn⟩).mp h) (by (try dsimp only); omega))
  | n + 1, hn =>
    if h0 : (n + 1) % 16 = 0 then
      afterA V c ⟨n + 1, hn⟩ ((hcond1_0 ⟨n + 1, hn⟩).mpr h0) (fun h => absurd ((hcond1_1 ⟨n + 1, hn⟩).mp h) (by (try dsimp only); omega))
    else if h1 : (n + 1) % 16 = 15 then
      afterC V c ⟨n + 1, hn⟩ (fun h => h0 ((hcond1_0 ⟨n + 1, hn⟩).mp h)) ((hcond1_1 ⟨n + 1, hn⟩).mpr h1)
        (outsAt1 c n (Nat.lt_of_succ_lt hn)).2.2.2.1 (outsAt1 c n (Nat.lt_of_succ_lt hn)).2.2.2.2
    else
      afterB V c ⟨n + 1, hn⟩ (fun h => h0 ((hcond1_0 ⟨n + 1, hn⟩).mp h)) (fun h => h1 ((hcond1_1 ⟨n + 1, hn⟩).mp h))
        (outsAt1 c n (Nat.lt_of_succ_lt hn)).2.2.2.1 (outsAt1 c n (Nat.lt_of_succ_lt hn)).2.2.2.2

theorem outsAt1_A (c : Dev nD) (t : Fin cfg1.N) (h0 : t.val % 16 = 0) :
    outsAt1 V c t.val t.isLt = afterA V c t ((hcond1_0 t).mpr h0) (fun h => absurd ((hcond1_1 t).mp h) (by omega)) := by
  obtain ⟨n, hn⟩ := t
  cases n with
  | zero => rfl
  | succ n => exact (dif_pos h0).trans rfl

theorem outsAt1_B (c : Dev nD) (t : Fin cfg1.N) (h0 : ¬t.val % 16 = 0) (h1 : ¬t.val % 16 = 15) :
    outsAt1 V c t.val t.isLt = afterB V c t (fun h => h0 ((hcond1_0 t).mp h)) (fun h => h1 ((hcond1_1 t).mp h))
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 16 = 0) (h1 : t.val % 16 = 15) :
    outsAt1 V c t.val t.isLt = afterC V c t (fun h => h0 ((hcond1_0 t).mp h)) ((hcond1_1 t).mpr h1)
      (outsAt1 V c (t.val - 1) (Nat.lt_of_le_of_lt (Nat.sub_le _ _) t.isLt)).2.2.2.1 (outsAt1 V c (t.val - 1) (Nat.lt_of_le_of_lt (Nat.sub_le _ _) t.isLt)).2.2.2.2 := by
  obtain ⟨n, hn⟩ := t
  cases n with
  | zero => exact absurd (Nat.zero_mod _) h0
  | succ n => exact (dif_neg h0).trans ((dif_pos h1).trans rfl)

/-! ## The region invariant, point by point -/

/-- Before position `n`: before the first point every scoped buffer that is no staging buffer of this kernel at anything and
    the generator register at some state; afterwards the same with the two scratch buffers at what the position before left. -/
def PhiS1 (c : Dev nD) : (n : ℕ) → n ≤ cfg1.N → sProp 𝕄
  | 0, _ => Pipeline.ΦA spec1 c
  | n + 1, hn => iprop((((owns (c : Thread nD τ) scM1_0 fullShare (outsAt1 V c n hn).2.2.2.1) ∗ (owns (c : Thread nD τ) scM1_1 fullShare (outsAt1 V c n hn).2.2.2.2)) ∗ restBut1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((((owns (c : Thread nD τ) scM1_0 fullShare (outsAt1 V c n hn).2.2.2.1) ∗ (owns (c : Thread nD τ) scM1_1 fullShare (outsAt1 V c n hn).2.2.2.2)) ∗ restBut1 c) ∗ (∃ r, prngReg c r)) := rfl
theorem PhiS1_pos (c : Dev nD) (n : ℕ) (h : n ≤ cfg1.N) (hz : n ≠ 0) :
    PhiS1 V c n h = iprop((((owns (c : Thread nD τ) scM1_0 fullShare (outsAt1 V c (n - 1) (by omega)).2.2.2.1) ∗ (owns (c : Thread nD τ) scM1_1 fullShare (outsAt1 V c (n - 1) (by omega)).2.2.2.2)) ∗ restBut1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
theorem sound_body1_A (c : Dev nD) (t : Fin cfg1.N) (h0 : t.val % 16 = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => absurd ((hcond1_1 t).mp h) (by omega))) (noFlush1_5 t (fun h => absurd ((hcond1_1 t).mp h) (by omega))),
    Dat.leavesExact_idle (dat1 V c) 6 t (idleAt1_6 t (fun h => absurd ((hcond1_1 t).mp h) (by omega))) (noFlush1_6 t (fun h => absurd ((hcond1_1 t).mp h) (by omega)))]
  rw [outsAt1_A V c t h0]
  unfold afterA; (try dsimp only)
  by_cases hz : t.val = 0
  ·
    rw [PhiS1_castSucc V c t, PhiS1_zero V c _ _ hz, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  ·
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => absurd ((hcond1_1 t).mp h) (by omega)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexists _; iexact HS0
    isplitl [HS1]; · iexists _; iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _ _ _ _ _ _ _ _ _)
        · iexact HR
      · iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6

set_option maxHeartbeats 4000000 in
theorem sound_body1_B (c : Dev nD) (t : Fin cfg1.N) (h0 : ¬t.val % 16 = 0) (h1 : ¬t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [Dat.leavesExact_idle (dat1 V c) 5 t (idleAt1_5 t (fun h => h1 ((hcond1_1 t).mp h))) (noFlush1_5 t (fun h => h1 ((hcond1_1 t).mp h))),
    Dat.leavesExact_idle (dat1 V c) 6 t (idleAt1_6 t (fun h => h1 ((hcond1_1 t).mp h))) (noFlush1_6 t (fun h => h1 ((hcond1_1 t).mp h)))]
  rw [outsAt1_B V c t h0 h1]
  unfold afterB; (try dsimp only)
  have hz : t.val ≠ 0 := by intro h; rw [h] at h0; exact h0 (Nat.zero_mod _)
  rw [PhiS1_castSucc V c t, PhiS1_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, ⟨%es0, HS0⟩, ⟨%es1, HS1⟩⟩
  isplitl [HS0 HS1 HR Hg]
  · isplitl [HS0 HS1 HR]
    · isplitl [HS0 HS1]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        · unfold owns; iexists _; isplitr
          swap; · iexact HS1
          ipureintro; exact View.read_writes_of_cover _ _ _ _ _ (scover1_B_1 c _ _ _ _ _ _ _ _ _ _ _ _ _ _ _ _ _ _ _ _ _ _ _ _ _ _ _)
      · iexact HR
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_B_4 c _ _ _ _ _ _ _ _ _ _ _ _ _ _ _ _ _ _ _ _ _ _ _ _ _ _ _)
  isplitl [H5]; · iexists _; iexact H5
  iexists _; iexact H6

set_option maxHeartbeats 4000000 in
theorem sound_body1_C (c : Dev nD) (t : Fin cfg1.N) (h0 : ¬t.val % 16 = 0) (h1 : t.val % 16 = 15) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3,
    show (dat1 V c).leavesExact 4 t = owns (c : Thread nD τ) (ms1_4 t) fullShare ((dat1 V c).after 4 t) from by
      unfold Dat.leavesExact; rw [liveAt1_4 t], after1_4]
  rw [show (dat1 V c).leavesExact 5 t = owns (c : Thread nD τ) (ms1_5 t) fullShare ((dat1 V c).after 5 t) from by
      unfold Dat.leavesExact; rw [liveAt1_5 t ((hcond1_1 t).mpr h1)], after1_5,
    show (dat1 V c).leavesExact 6 t = owns (c : Thread nD τ) (ms1_6 t) fullShare ((dat1 V c).after 6 t) from by
      unfold Dat.leavesExact; rw [liveAt1_6 t ((hcond1_1 t).mpr h1)], after1_6]
  rw [outsAt1_C V c t h0 h1]
  unfold afterC; (try dsimp only)
  have hz : t.val ≠ 0 := by intro h; rw [h] at h0; exact h0 (Nat.zero_mod _)
  rw [PhiS1_castSucc V c t, PhiS1_pos V c _ _ hz]
  iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%es0, HS0⟩, ⟨%es1, HS1⟩⟩
  isplitl [HS0 HS1 HR Hg]
  · isplitl [HS0 HS1 HR]
    · isplitl [HS0 HS1]
      · isplitl [HS0]
        · unfold owns; iexists _; isplitr
          swap; · iexact HS0
          ipureintro; exact View.read_writes_of_cover _ _ _ _ _ (scover1_C_0 c _ _ _ _ _ _ _ _ _ _ _ _ _ _ _ _ _ _ _ _ _ _ _ _ _ _ _)
        · unfold owns; iexists _; isplitr
          swap; · iexact HS1
          ipureintro; exact View.read_writes_of_cover _ _ _ _ _ (scover1_C_1 c _ _ _ _ _ _ _ _ _ _ _ _ _ _ _ _ _ _ _ _ _ _ _ _ _ _ _)
      · iexact HR
    · iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_C_4 c _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover1_C_5 c _ _ _ _ _ _ _ _ _ _ _ _ _ _ _ _ _ _ _ _ _ _ _ _ _ _ _)
  unfold owns; iexists _; isplitr
  swap; · iexact H6
  ipureintro; exact View.read_writes_of_cover _ _ _ _ _ (cover1_C_6 c _ _ _ _ _ _ _ _ _ _ _ _ _ _ _ _ _ _ _ _ _ _ _ _ _ _ _)

/-- The body at any point, by the kind of point. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 16 = 0
  · exact sound_body1_A V c t h0
  · by_cases h1 : t.val % 16 = 15
    · exact sound_body1_C V c t h0 h1
    · exact sound_body1_B V c t h0 h1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry form back: the scratch contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KIRun.lean ====
/-
  The run of the whole program: host reshapes, the dense-layer kernel, host reshapes, the pairwise-product kernel, and
  the host's slice / sum / scale / transpose — as a list of segments.  The buffer contents at each segment boundary are a
  fold from the launch memory (`W0 … W5`): a host stretch applies its operations, a kernel region leaves its arrays at what
  its write-backs leave and every other buffer as entered.  Every weakly fair execution terminates with every unscoped
  buffer at `W5`; the argument arrays read back through the fold to their launch contents.
-/
import proofs.«168794_j67723044324148_2_alg».proof.Proof.KIRegion0
import proofs.«168794_j67723044324148_2_alg».proof.Proof.KIRegion1
import proofs.«168794_j67723044324148_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => m (c, b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

abbrev W5 : Dev nD → Valuation τ sig (Elt F) := fun c => StableHlo.after hostOps2 (W4 m c)

/-! ## A buffer no host stretch writes passes through it -/

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W5_of (c : Dev nD) (r : Ref sig .tc) (h : r ∉ hostOps2_W) : W5 m c (Proc.devRef .tc r) = W4 m c (Proc.devRef .tc r) :=
  StableHlo.after_of_writes_sub hostOps2 _ hostOps2_writes h

/-! ## The proof data family and the thread state -/

def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`.  Its arrays are split
    out of the unscoped buffers and put back at the exit contents; the generator register goes into the region invariant
    and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`.  Its arrays are split
    out of the unscoped buffers and put back at the exit contents; the generator register goes into the region invariant
    and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (show Pipeline.ΦA spec1 c ⊢ (pdats m 1 c).Φ 0 from hin1 (V3 m) c); unfold Pipeline.ΦA
    iintro ⟨Hp, -, Hr⟩
    isplitl [Hr]; · iexact Hr
    iexact Hp
  hout c := by
    rw [Pipeline.ownSems0_none]
    refine .trans (show (pdats m 1 c).Φ (Fin.last _) ⊢ Pipeline.ΦA spec1 c from hout1 (V3 m) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- THE RUN: from any memory with zero counters every weakly fair execution of the program terminates, nothing faulting,
    and every final state holds every unscoped buffer at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      (show (iprop(StableHlo.held (c : Thread nD τ) (Pipeline.ucRefs τ sig) (W5 m c) ∗ R c) : sProp 𝕄)
          ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The argument arrays end as launched -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of m c main_arg0 (by decide)
    _ = W3 m c (Proc.devRef .tc main_arg0) := W4_of_ne m c main_arg0 (by decide)
    _ = W2 m c (Proc.devRef .tc main_arg0) := W3_of m c main_arg0 (by decide)
    _ = W1 m c (Proc.devRef .tc main_arg0) := W2_of_ne m c main_arg0 (by decide)
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of m c main_arg1 (by decide)
    _ = W3 m c (Proc.devRef .tc main_arg1) := W4_of_ne m c main_arg1 (by decide)
    _ = W2 m c (Proc.devRef .tc main_arg1) := W3_of m c main_arg1 (by decide)
    _ = W1 m c (Proc.devRef .tc main_arg1) := (W2_arr m c 1).trans (((dat0 (V1 m) c).arrAt_in 1 rfl _).trans (A_eq0 (V1 m) c 1))
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of m c main_arg2 (by decide)
    _ = W3 m c (Proc.devRef .tc main_arg2) := W4_of_ne m c main_arg2 (by decide)
    _ = W2 m c (Proc.devRef .tc main_arg2) := W3_of m c main_arg2 (by decide)
    _ = W1 m c (Proc.devRef .tc main_arg2) := (W2_arr m c 2).trans (((dat0 (V1 m) c).arrAt_in 2 rfl _).trans (A_eq0 (V1 m) c 2))
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of m c main_arg3 (by decide)
    _ = W3 m c (Proc.devRef .tc main_arg3) := W4_of_ne m c main_arg3 (by decide)
    _ = W2 m c (Proc.devRef .tc main_arg3) := W3_of m c main_arg3 (by decide)
    _ = W1 m c (Proc.devRef .tc main_arg3) := W2_of_ne m c main_arg3 (by decide)
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of m c main_arg4 (by decide)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of m c main_arg5 (by decide)
    _ = W3 m c (Proc.devRef .tc main_arg5) := (W4_arr m c 2).trans (((dat1 (V3 m) c).arrAt_in 2 rfl _).trans (A_eq1 (V3 m) c 2))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of m c main_arg6 (by decide)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- THE FRAME: the program runs to the end, nothing faulting, and its seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.KernelIdeal.Hand

end
-- ==== Proof.Spec.lean ====
/-
  The mathematics both programs compute, on the extended reals, entry by entry.

  Two dense layers with a ramp, `Q = max (x·Wq + bq) 0` and `K = max (x·Wk + bk) 0`, over a batch of 4 sequences of 128
  positions (768 → 2048 features); the pairwise feature products `A b q k h = Q b q h · K b k h`; from them three results:
  the decoded score `(Σ_h A b q k h · Wd h n) / 8 + bd n`, the sum over every entry of `√(|A| + ε)` scaled by a
  constant, and the indicator `A > 0` as a 32-bit word.  The constants stay as the words the programs print.
-/
import Idealize.ShloMosaic.PureOps.Ideal
import Idealize.ShloMosaic.PureOps.Ideal.Laws
import Idealize.ShloMosaic.Lib.ValueIdx

noncomputable section

namespace Cert.QKSpec

open Idealize.ShloMosaic Idealize.ShloMosaic.ValueIdx

/-- One entry of a dense layer followed by the ramp: `max (Σ_d x b s d · W d h + bias h) 0`. -/
def enc (x : Fin 4 → Fin 128 → Fin 768 → EReal) (W : Fin 768 → Fin 2048 → EReal) (bias : Fin 2048 → EReal)
    (b : Fin 4) (s : Fin 128) (h : Fin 2048) : EReal :=
  max ((∑ d : Fin 768, x b s d * W d h) + bias h) 0

/-- The pairwise feature product of a query position and a key position. -/
def act (Q K : Fin 4 → Fin 128 → Fin 2048 → EReal) (b : Fin 4) (q k : Fin 128) (h : Fin 2048) : EReal :=
  Q b q h * K b k h

/-- `√(|a| + ε)`, ε the printed word of 1e-6. -/
def root (a : EReal) : EReal := Ideal.sqrt (max a (-a) + Ideal.ofBits .f32 0x358637BD#32)

/-- The decoded score before the last transposition: the features contracted against `Wd`, divided by 8, plus the bias. -/
def scoreRaw (A : Fin 4 → Fin 128 → Fin 128 → Fin 2048 → EReal) (Wd : Fin 2048 → Fin 12 → EReal) (bd : Fin 12 → EReal)
    (b : Fin 4) (q k : Fin 128) (n : Fin 12) : EReal :=
  Ideal.div (∑ h : Fin 2048, A b q k h * Wd h n) (Ideal.ofBits .f32 0x41000000#32) + bd n

/-- The sum of `root` over every entry. -/
def rootSum (A : Fin 4 → Fin 128 → Fin 128 → Fin 2048 → EReal) : EReal :=
  ∑ b : Fin 4, ∑ q : Fin 128, ∑ k : Fin 128, ∑ h : Fin 2048, root (A b q k h)

/-- The indicator of a positive entry, as a 32-bit word. -/
def fire (a : EReal) : BitVec 32 := (Ideal.cmp .ogt a 0).setWidth 32

/-! ## The three results as arrays of the arguments (literal shapes, shared by both programs) -/

section Results

variable (x : (⟨3, ![4, 128, 768]⟩ : Shape).Idx → EReal) (Wq Wk : (⟨2, ![768, 2048]⟩ : Shape).Idx → EReal)
  (bq bk : (⟨1, ![2048]⟩ : Shape).Idx → EReal) (Wd : (⟨2, ![2048, 12]⟩ : Shape).Idx → EReal) (bd : (⟨1, ![12]⟩ : Shape).Idx → EReal)

/-- The queries (or keys) of the argument arrays. -/
def encArr (W : (⟨2, ![768, 2048]⟩ : Shape).Idx → EReal) (bias : (⟨1, ![2048]⟩ : Shape).Idx → EReal) :
    Fin 4 → Fin 128 → Fin 2048 → EReal :=
  enc (fun b s d => x (ix3 b s d)) (fun d h => W (ix2 d h)) (fun h => bias (ix1 h))

/-- The feature products of the argument arrays. -/
def actArr : Fin 4 → Fin 128 → Fin 128 → Fin 2048 → EReal := act (encArr x Wq bq) (encArr x Wk bk)

/-- The score before the last transposition, `[4, 128, 128, 12]`. -/
def scoreArr : (⟨4, ![4, 128, 128, 12]⟩ : Shape).Idx → EReal := fun j =>
  scoreRaw (actArr x Wq Wk bq bk) (fun h n => Wd (ix2 h n)) (fun n => bd (ix1 n)) (j 0) (j 1) (j 2) (j 3)

/-- The score as returned, `[4, 12, 128, 128]`: entry `(b, n, q, k)` is `scoreRaw … b q k n`. -/
def scoreT : (⟨4, ![4, 12, 128, 128]⟩ : Shape).Idx → EReal := fun j =>
  scoreRaw (actArr x Wq Wk bq bk) (fun h n => Wd (ix2 h n)) (fun n => bd (ix1 n)) (j 0) (j 2) (j 3) (j 1)

/-- The sum of roots before the last scaling. -/
def rootTotal : EReal := rootSum (actArr x Wq Wk bq bk)

/-- The indicators, `[4, 128, 128, 2048]`. -/
def fireArr : (⟨4, ![4, 128, 128, 2048]⟩ : Shape).Idx → BitVec 32 := fun j =>
  fire (actArr x Wq Wk bq bk (j 0) (j 1) (j 2) (j 3))

end Results

end Cert.QKSpec

end
-- ==== Proof.LibIdxSums.lean ====
/-
  A general lemma on sums over index sets: a sum over every index of a rank-4 array is the iterated sum over its four
  coordinates, outermost axis first.
-/
import Idealize.ShloMosaic.Lib.ValueIdx

noncomputable section

namespace Cert.IdxSums

open Idealize.ShloMosaic Idealize.ShloMosaic.ValueIdx

/-- The index set of a rank-4 array of extents `n0, n1, n2, n3` is in bijection with the product of its four
    coordinate ranges: an index goes to its four coordinates, and four coordinates come back as the index built from
    them. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- In any commutative additive monoid, the sum of a function over every index of a rank-4 array is the fourfold
    iterated sum of the function over the four coordinates, outermost axis first. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

end Cert.IdxSums

end
-- ==== Proof.RefSide.lean ====
/-
  The reference program's three results are the specification's arrays of its arguments.

  The program computes, array by array: the two dense layers with a ramp (a contraction over the 768 input
  features, a bias broadcast along the batch and position axes, a maximum with a zero array), their outer product
  along the two position axes (two broadcasts and a product), and from that product array the three results.
  Each lemma below reads one of these arrays at an index written with explicit coordinates.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run
import proofs.«168794_j67723044324148_2_alg».proof.Proof.Spec
import proofs.«168794_j67723044324148_2_alg».proof.Proof.LibIdxSums
import proofs.«168794_j67723044324148_2_alg».proof.Proof.Gen.ReferenceIdeal.Run
import proofs.«168794_j67723044324148_2_alg».proof.Proof.Gen.ReferenceIdeal.Read

noncomputable section

namespace Cert.RefSide

open Idealize.ShloMosaic Idealize.ShloMosaic.ValueIdx Idealize.SL.Sem Cert.ReferenceIdeal Cert.ReferenceIdeal.Read

/-- The query layer at an entry: the contraction over the input features plus the bias, ramped. -/
theorem queries_apply (x0 : (⟨S4x128x768, .f32⟩ : BufTy).Contents (Elt Ideal)) (x1 : (⟨S768x2048, .f32⟩ : BufTy).Contents (Elt Ideal))
    (x3 : (⟨S2048, .f32⟩ : BufTy).Contents (Elt Ideal)) (b : Fin 4) (s : Fin 128) (h : Fin 2048) :
    val_main_v4 (F := Ideal) x0 x1 x3 (ix3 b s h) = Cert.QKSpec.encArr x0 x1 x3 b s h := by
  have el : ∀ k : Fin 768, lidx_main_v0 (ix3 b s h) k = ix3 b s k := fun k => funext fun a => by
    match a with | ⟨0, _⟩ => rfl | ⟨1, _⟩ => rfl | ⟨2, _⟩ => rfl
  have er : ∀ k : Fin 768, ridx_main_v0 (ix3 b s h) k = ix2 k h := fun k => funext fun a => by
    match a with | ⟨0, _⟩ => rfl | ⟨1, _⟩ => rfl
  have eb : idx_main_v1 (idx_main_v2 (ix3 b s h)) = ix1 h := funext fun a => by
    match a with | ⟨0, _⟩ => rfl
  rw [val_main_v4_apply, val_main_v3_apply, val_main_v0_apply, val_main_v2_apply, val_main_v1_apply,
    val_main_call0_v0_apply, val_main_call0_cst_apply]
  simp only [el, er, eb, Ideal.maximumf_def, Ideal.addf_def, Ideal.ofBits_def, Ideal.ofBits_zero_f32]
  rfl

/-- The key layer at an entry: the same with the key weights and bias. -/
theorem keys_apply (x0 : (⟨S4x128x768, .f32⟩ : BufTy).Contents (Elt Ideal)) (x2 : (⟨S768x2048, .f32⟩ : BufTy).Contents (Elt Ideal))
    (x4 : (⟨S2048, .f32⟩ : BufTy).Contents (Elt Ideal)) (b : Fin 4) (s : Fin 128) (h : Fin 2048) :
    val_main_v9 (F := Ideal) x0 x2 x4 (ix3 b s h) = Cert.QKSpec.encArr x0 x2 x4 b s h := by
  have el : ∀ k : Fin 768, lidx_main_v5 (ix3 b s h) k = ix3 b s k := fun k => funext fun a => by
    match a with | ⟨0, _⟩ => rfl | ⟨1, _⟩ => rfl | ⟨2, _⟩ => rfl
  have er : ∀ k : Fin 768, ridx_main_v5 (ix3 b s h) k = ix2 k h := fun k => funext fun a => by
    match a with | ⟨0, _⟩ => rfl | ⟨1, _⟩ => rfl
  have eb : idx_main_v6 (idx_main_v7 (ix3 b s h)) = ix1 h := funext fun a => by
    match a with | ⟨0, _⟩ => rfl
  rw [val_main_v9_apply, val_main_v8_apply, val_main_v5_apply, val_main_v7_apply, val_main_v6_apply,
    val_main_call1_v0_apply, val_main_call1_cst_apply]
  simp only [el, er, eb, Ideal.maximumf_def, Ideal.addf_def, Ideal.ofBits_def, Ideal.ofBits_zero_f32]
  rfl

/-- The product array at an entry: the query at position `q` times the key at position `k`, feature by feature. -/
theorem products_apply (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) (b : Fin 4) (q k : Fin 128) (h : Fin 2048) :
    val_main_v14 (F := Ideal) x0 x1 x2 x3 x4 (ix4 b q k h) = Cert.QKSpec.actArr x0 x1 x2 x3 x4 b q k h := by
  have eq : idx_main_v10 (idx_main_v12 (ix4 b q k h)) = ix3 b q h := funext fun a => by
    match a with | ⟨0, _⟩ => rfl | ⟨1, _⟩ => rfl | ⟨2, _⟩ => rfl
  have ek : idx_main_v11 (idx_main_v13 (ix4 b q k h)) = ix3 b k h := funext fun a => by
    match a with | ⟨0, _⟩ => rfl | ⟨1, _⟩ => rfl | ⟨2, _⟩ => rfl
  rw [val_main_v14_apply, val_main_v12_apply, val_main_v10_apply, val_main_v13_apply, val_main_v11_apply, eq, ek,
    queries_apply, keys_apply]
  rfl

/-! ## The indicators -/

/-- The indicator array at an entry. -/
theorem fires_apply (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) (b : Fin 4) (q k : Fin 128) (h : Fin 2048) :
    val_main_v23 (F := Ideal) x0 x1 x2 x3 x4 (ix4 b q k h) = Cert.QKSpec.fire (Cert.QKSpec.actArr x0 x1 x2 x3 x4 b q k h) := by
  rw [val_main_v23_apply, val_main_v22_apply, val_main_v21_apply, val_main_cst_2_apply, products_apply]
  simp only [Ideal.cmpf_def, Ideal.ofBits_def, Ideal.ofBits_zero_f32]
  rfl

/-- The indicator array is the specification's. -/
theorem fires_eq (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) :
    val_main_v23 (F := Ideal) x0 x1 x2 x3 x4 = Cert.QKSpec.fireArr x0 x1 x2 x3 x4 := by
  funext j
  obtain ⟨b, q, k, h, rfl⟩ : ∃ (b : Fin 4) (q k : Fin 128) (h : Fin 2048), j = ix4 b q k h := ⟨j 0, j 1, j 2, j 3, eq_ix4 j⟩
  exact fires_apply x0 x1 x2 x3 x4 b q k h

/-! ## The sum of roots -/

/-- The root array at an entry. -/
theorem roots_apply (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) (b : Fin 4) (q k : Fin 128) (h : Fin 2048) :
    val_main_v18 (F := Ideal) x0 x1 x2 x3 x4 (ix4 b q k h) = Cert.QKSpec.root (Cert.QKSpec.actArr x0 x1 x2 x3 x4 b q k h) := by
  rw [val_main_v18_apply, val_main_v17_apply, val_main_v15_apply, val_main_v16_apply, val_main_cst_apply, products_apply]
  simp only [Ideal.hostUnary_sqrt_def, Ideal.addf_def, Ideal.hostAbsf_def, Ideal.absf_def, Ideal.ofBits_def]
  rfl

/-- The scaled sum of roots: the sum over every index of the root array, started from zero, is the fourfold sum over
    the coordinates. -/
theorem rootsum_eq (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) :
    val_main_v20 (F := Ideal) x0 x1 x2 x3 x4
      = fun _ => Ideal.ofBits .f32 0x3A83126F#32 * Cert.QKSpec.rootTotal x0 x1 x2 x3 x4 := by
  funext i
  rw [val_main_v20_apply, val_main_cst_1_apply, val_main_v19_apply, val_main_cst_0_apply, Cert.IdxSums.sum_idx4]
  simp only [roots_apply, Ideal.mulf_def, Ideal.ofBits_def, Ideal.ofBits_zero_f32, zero_add]
  rfl

/-! ## The score -/

/-- The score before the last transposition at an entry: the products contracted against the decoding weights,
    divided by the printed 8, plus the bias. -/
theorem scoreRaw_apply (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) (x5 : (⟨S2048x12, .f32⟩ : BufTy).Contents (Elt Ideal))
    (x6 : (⟨S12, .f32⟩ : BufTy).Contents (Elt Ideal)) (b : Fin 4) (q k : Fin 128) (n : Fin 12) :
    val_main_v29 (F := Ideal) x0 x1 x2 x3 x4 x5 x6 (ix4 b q k n)
      = Cert.QKSpec.scoreRaw (Cert.QKSpec.actArr x0 x1 x2 x3 x4) (fun h n => x5 (ix2 h n)) (fun n => x6 (ix1 n)) b q k n := by
  have el : ∀ h : Fin 2048, lidx_main_v24 (ix4 b q k n) h = ix4 b q k h := fun h => funext fun a => by
    match a with | ⟨0, _⟩ => rfl | ⟨1, _⟩ => rfl | ⟨2, _⟩ => rfl | ⟨3, _⟩ => rfl
  have er : ∀ h : Fin 2048, ridx_main_v24 (ix4 b q k n) h = ix2 h n := fun h => funext fun a => by
    match a with | ⟨0, _⟩ => rfl | ⟨1, _⟩ => rfl
  have eb : idx_main_v27 (idx_main_v28 (ix4 b q k n)) = ix1 n := funext fun a => by
    match a with | ⟨0, _⟩ => rfl
  rw [val_main_v29_apply, val_main_v26_apply, val_main_v24_apply, val_main_v25_apply, val_main_cst_3_apply,
    val_main_v28_apply, val_main_v27_apply]
  simp only [el, er, eb, products_apply, Ideal.addf_def, Ideal.hostDivf_def, Ideal.ofBits_def]
  rfl

/-- The returned score is the specification's: entry `(b, n, q, k)` of the result is entry `(b, q, k, n)` of the
    array before the transposition. -/
theorem score_eq (x0 : (⟨S4x128x768, .f32⟩ : BufTy).Contents (Elt Ideal)) (x1 x2 : (⟨S768x2048, .f32⟩ : BufTy).Contents (Elt Ideal))
    (x3 x4 : (⟨S2048, .f32⟩ : BufTy).Contents (Elt Ideal)) (x5 : (⟨S2048x12, .f32⟩ : BufTy).Contents (Elt Ideal))
    (x6 : (⟨S12, .f32⟩ : BufTy).Contents (Elt Ideal)) :
    val_main_v30 (F := Ideal) x0 x1 x2 x3 x4 x5 x6 = Cert.QKSpec.scoreT x0 x1 x2 x3 x4 x5 x6 := by
  funext j
  obtain ⟨b, n, q, k, rfl⟩ : ∃ (b : Fin 4) (n : Fin 12) (q k : Fin 128), j = ix4 b n q k := ⟨j 0, j 1, j 2, j 3, eq_ix4 j⟩
  have et : idx_main_v30 (ix4 b n q k) = ix4 b q k n := funext fun a => by
    match a with | ⟨0, _⟩ => rfl | ⟨1, _⟩ => rfl | ⟨2, _⟩ => rfl | ⟨3, _⟩ => rfl
  rw [val_main_v30_apply, et, scoreRaw_apply]
  rfl

/-! ## The run -/

/-- Every weakly fair execution of the reference program terminates with its three results at the specification's
    arrays of the arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread Cert.ReferenceIdeal.nD Cert.ReferenceIdeal.τ).loc Cert.ReferenceIdeal.main_v30) = Cert.QKSpec.scoreT (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v20) = (fun _ => Ideal.ofBits .f32 0x3A83126F#32 * Cert.QKSpec.rootTotal (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)))
      ∧ r.2.mem ((c.tc : Thread Cert.ReferenceIdeal.nD Cert.ReferenceIdeal.τ).loc Cert.ReferenceIdeal.main_v23) = Cert.QKSpec.fireArr (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  refine (θ_run (Cert.ReferenceIdeal.defs (F := Ideal)) _ _).mono (fun _ h c => ?_) (Cert.ReferenceIdeal.Value.run (F := Ideal) m ρ)
  obtain ⟨h30, h20, h23, hargs⟩ := h c
  exact ⟨h30.trans ((val_main_v30_eq _ _ _ _ _ _ _).trans (score_eq _ _ _ _ _ _ _)),
    h20.trans ((val_main_v20_eq _ _ _ _ _).trans (rootsum_eq _ _ _ _ _)),
    h23.trans ((val_main_v23_eq _ _ _ _ _).trans (fires_eq _ _ _ _ _)), hargs⟩

end Cert.RefSide

end
-- ==== Proof.Frames.lean ====
/-
  The three frame claims and the idealization claim.  Each of the two kernel programs (the program as printed, at the
  word-level instance, and its idealization, at the extended reals) runs to the end from any memory with zero counters,
  nothing faulting, and leaves its seven argument arrays as launched: the run of its five segments (host reshapes, the
  dense-layer kernel, host reshapes, the pairwise-product kernel, the host's slice / sum / scale / transpose), stated once
  for any float instance.  The reference is a host program: its run with the results dropped.  The idealization rewrote
  no operation, so nothing is to be shown of it.
-/
import proofs.«168794_j67723044324148_2_alg».proof.Defs
import proofs.«168794_j67723044324148_2_alg».proof.Proof.KRun
import proofs.«168794_j67723044324148_2_alg».proof.Proof.KIRun
import proofs.«168794_j67723044324148_2_alg».proof.Proof.RefSide
import proofs.«168794_j67723044324148_2_alg».proof.Proof.Gen.Pre_finite_inputs

noncomputable section

namespace Cert.Proof.Claims

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2.2.2) (Cert.RefSide.run m ρ)
theorem preserves : Cert.preserves_Kernel_KernelIdeal := trivial

end Cert.Proof.Claims

end
-- ==== Proof.Payloads.lean ====
/-
  The kernels' arithmetic read at an index, on the extended reals: each stored value of the two kernel bodies, as one
  function of the vectors it was computed from, at one entry.
-/
import Idealize.ShloMosaic.Lib.ValueIdx
import Idealize.ShloMosaic.Lib.ValueLayout
import Idealize.ShloMosaic.Lib.Pipeline.Value
import Idealize.ShloMosaic.PureOps.Ideal.Laws
import proofs.«168794_j67723044324148_2_alg».proof.Proof.Spec
import proofs.«168794_j67723044324148_2_alg».proof.Proof.Gen.KernelIdeal.Skeleton

noncomputable section

namespace Cert.KernelIdeal.PayloadValue

open Idealize.ShloMosaic Idealize.ShloMosaic.ValueIdx Cert.KernelIdeal Cert.KernelIdeal.Gen

/-! ## Layout operations at an index: a unit axis in the middle, and the two broadcasts of an outer product -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, k, j)`, the operand at `(i, 0, j)`. -/
theorem broadcastTo_a1b_acb_apply {a b c : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

end Layout

/-! ## The feature products and what is read off them -/

/-- The product block at `(a, k, h)`: query row `a` times key row `k`, feature `h`. -/
theorem act_entry (v3 : Vec Ideal S1x32x128 .f32) (v5 : Vec Ideal S1x128x128 .f32) (a : Fin 32) (k h : Fin 128) :
    k1_pay6 v3 v5 (ix3 a k h) = v3 (ix3 0 a h) * v5 (ix3 0 k h) := by
  unfold k1_pay6
  show mulf _ _ (ix3 a k h) = _
  rw [mulf_apply, broadcastTo_a1b_acb_apply, broadcastTo_1bc_abc_apply, shapeCast_ab_a1b_apply,
    shapeCast_1ab_ab_apply, shapeCast_ab_1ab_apply, shapeCast_1ab_ab_apply]

/-- The indicator block at `(0, a, k, h)`: is the product positive, as a 32-bit word. -/
theorem fire_entry (v3 : Vec Ideal S1x32x128 .f32) (v5 : Vec Ideal S1x128x128 .f32) (a : Fin 32) (k h : Fin 128) :
    k1_pay8 v3 v5 (ix4 0 a k h) = Cert.QKSpec.fire (v3 (ix3 0 a h) * v5 (ix3 0 k h)) := by
  unfold k1_pay8
  show shapeCast S1x32x128x128 _ _ (ix4 0 a k h) = _
  rw [shapeCast_abc_1abc_apply, extui_apply, cmpf_apply, broadcast_apply, act_entry, Ideal.cmpf_def]
  show (Ideal.cmp .ogt _ (Ideal.ofBits .f32 0x00000000#32)).setWidth 32 = _
  rw [Ideal.ofBits_zero_f32]
  rfl

/-! ## The accumulators: their start, and what leaves them at the last step -/

section Layout2
variable {α : Type}

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Layout2

/-- The sum-of-roots accumulator leaves as it is: the output block at `(0, 0, u, v)` is the accumulator at `(u, v)`. -/
theorem copy_entry (v59 : Vec Ideal S8x128 .f32) (u : Fin 8) (v : Fin 128) : k1_pay3 v59 (ix4 0 0 u v) = v59 (ix2 u v) := by
  unfold k1_pay3
  show shapeCast S1x1x8x128 v59 _ (ix4 0 0 u v) = _
  rw [shapeCast_ab_11ab_apply]

/-- The score accumulator starts at zero. -/
theorem zero_entry4 (a : Fin 32) (k : Fin 128) (n : Fin 12) : k1_pay4 (F := Ideal) (ix3 a k n) = 0 := by
  unfold k1_pay4
  show shapeCast S32x128x12 _ _ (ix3 a k n) = _
  rw [shapeCast_self, broadcast_apply]
  exact Ideal.ofBits_zero_f32

/-- The sum-of-roots accumulator starts at zero. -/
theorem zero_entry5 (u : Fin 8) (v : Fin 128) : k1_pay5 (F := Ideal) (ix2 u v) = 0 := by
  unfold k1_pay5
  show shapeCast S8x128 _ _ (ix2 u v) = _
  rw [shapeCast_self, broadcast_apply]
  exact Ideal.ofBits_zero_f32

/-- The score block at `(0, a, k, n)`: the accumulated contraction times the printed word of 1/8, plus the bias. -/
theorem final_entry (acc : Vec Ideal S32x128x12 .f32) (bd : Vec Ideal S1x12 .f32) (a : Fin 32) (k : Fin 128) (n : Fin 12) :
    k1_pay2 acc bd (ix4 0 a k n) = acc (ix3 a k n) * Ideal.ofBits .f32 0x3E000000#32 + bd (ix2 0 n) := by
  unfold k1_pay2
  show shapeCast S1x32x128x12 _ _ (ix4 0 a k n) = _
  rw [shapeCast_abc_1abc_apply, addf_apply, mulf_apply, broadcast_apply, broadcastTo_11c_abc_apply,
    shapeCast_ab_1ab_apply, shapeCast_self]
  rfl

/-! ## The two matrix products into a zero accumulator, read at an entry -/

/-- A block of 128 rows times a block of 512 weight columns, into zero: entry \`(p, q)\` is the sum over the 768 input features. -/
theorem dense_dot_apply {φ₁ φ₂ : FTy} (A : FVec Ideal S128x768 φ₁) (B : FVec Ideal S768x512 φ₂) (p : Fin 128) (q : Fin 512) :
    matmul dot_S128x768_S768x512_S128x512_1_0_0_1_n_n none A B (constant (F := Ideal) S128x512 .f32 0x00000000#32) (ix2 p q)
      = ∑ d : Fin 768, A (ix2 p d) * B (ix2 d q) := by
  show FloatOps.matmul dot_S128x768_S768x512_S128x512_1_0_0_1_n_n none A B (constant S128x512 .f32 0x00000000#32) (ix2 p q) = _
  rw [Ideal.matmul_constant_zero_apply, ← Equiv.sum_comp (contrEquiv1 dot_S128x768_S768x512_S128x512_1_0_0_1_n_n 768 rfl rfl).symm]
  refine Finset.sum_congr rfl fun d _ => ?_
  have hk := contrEquiv1_symm_val dot_S128x768_S768x512_S128x512_1_0_0_1_n_n 768 rfl rfl d
  have el : dot_S128x768_S768x512_S128x512_1_0_0_1_n_n.lhsIdx (ix2 p q) ((contrEquiv1 dot_S128x768_S768x512_S128x512_1_0_0_1_n_n 768 rfl rfl).symm d) = ix2 p d :=
    funext fun a => Fin.ext (by
      match a with
      | ⟨0, _⟩ =>
        show (dot_S128x768_S768x512_S128x512_1_0_0_1_n_n.lhsIdx (ix2 p q) _ 0).val = p.val
        unfold DotDims.lhsIdx
        rw [dif_neg (show ¬(0 : Fin S128x768.rank) ∈ dot_S128x768_S768x512_S128x512_1_0_0_1_n_n.lhsBatch by decide),
          dif_pos (show (0 : Fin S128x768.rank) ∈ dot_S128x768_S768x512_S128x512_1_0_0_1_n_n.lhsNonContracting by decide)]
        rfl
      | ⟨1, _⟩ => exact (dot_S128x768_S768x512_S128x512_1_0_0_1_n_n.lhsIdx_val_of_single rfl _ _).trans hk)
  have er : dot_S128x768_S768x512_S128x512_1_0_0_1_n_n.rhsIdx (ix2 p q) ((contrEquiv1 dot_S128x768_S768x512_S128x512_1_0_0_1_n_n 768 rfl rfl).symm d) = ix2 d q :=
    funext fun a => Fin.ext (by
      match a with
      | ⟨0, _⟩ => exact (dot_S128x768_S768x512_S128x512_1_0_0_1_n_n.rhsIdx_val_of_single rfl _ _).trans hk
      | ⟨1, _⟩ =>
        show (dot_S128x768_S768x512_S128x512_1_0_0_1_n_n.rhsIdx (ix2 p q) _ 1).val = q.val
        unfold DotDims.rhsIdx
        rw [dif_neg (show ¬(1 : Fin S768x512.rank) ∈ dot_S128x768_S768x512_S128x512_1_0_0_1_n_n.rhsBatch by decide),
          dif_pos (show (1 : Fin S768x512.rank) ∈ dot_S128x768_S768x512_S128x512_1_0_0_1_n_n.rhsNonContracting by decide)]
        rfl)
  rw [el, er]

/-- The flattened products times the decoder block, into zero: entry \`(p, q)\` is the sum over the block's 128 features. -/
theorem decode_dot_apply {φ₁ φ₂ : FTy} (A : FVec Ideal S4096x128 φ₁) (B : FVec Ideal S128x12 φ₂) (p : Fin 4096) (q : Fin 12) :
    matmul dot_S4096x128_S128x12_S4096x12_1_0_0_1_n_n none A B (constant (F := Ideal) S4096x12 .f32 0x00000000#32) (ix2 p q)
      = ∑ d : Fin 128, A (ix2 p d) * B (ix2 d q) := by
  show FloatOps.matmul dot_S4096x128_S128x12_S4096x12_1_0_0_1_n_n none A B (constant S4096x12 .f32 0x00000000#32) (ix2 p q) = _
  rw [Ideal.matmul_constant_zero_apply, ← Equiv.sum_comp (contrEquiv1 dot_S4096x128_S128x12_S4096x12_1_0_0_1_n_n 128 rfl rfl).symm]
  refine Finset.sum_congr rfl fun d _ => ?_
  have hk := contrEquiv1_symm_val dot_S4096x128_S128x12_S4096x12_1_0_0_1_n_n 128 rfl rfl d
  have el : dot_S4096x128_S128x12_S4096x12_1_0_0_1_n_n.lhsIdx (ix2 p q) ((contrEquiv1 dot_S4096x128_S128x12_S4096x12_1_0_0_1_n_n 128 rfl rfl).symm d) = ix2 p d :=
    funext fun a => Fin.ext (by
      match a with
      | ⟨0, _⟩ =>
        show (dot_S4096x128_S128x12_S4096x12_1_0_0_1_n_n.lhsIdx (ix2 p q) _ 0).val = p.val
        unfold DotDims.lhsIdx
        rw [dif_neg (show ¬(0 : Fin S4096x128.rank) ∈ dot_S4096x128_S128x12_S4096x12_1_0_0_1_n_n.lhsBatch by decide),
          dif_pos (show (0 : Fin S4096x128.rank) ∈ dot_S4096x128_S128x12_S4096x12_1_0_0_1_n_n.lhsNonContracting by decide)]
        rfl
      | ⟨1, _⟩ => exact (dot_S4096x128_S128x12_S4096x12_1_0_0_1_n_n.lhsIdx_val_of_single rfl _ _).trans hk)
  have er : dot_S4096x128_S128x12_S4096x12_1_0_0_1_n_n.rhsIdx (ix2 p q) ((contrEquiv1 dot_S4096x128_S128x12_S4096x12_1_0_0_1_n_n 128 rfl rfl).symm d) = ix2 d q :=
    funext fun a => Fin.ext (by
      match a with
      | ⟨0, _⟩ => exact (dot_S4096x128_S128x12_S4096x12_1_0_0_1_n_n.rhsIdx_val_of_single rfl _ _).trans hk
      | ⟨1, _⟩ =>
        show (dot_S4096x128_S128x12_S4096x12_1_0_0_1_n_n.rhsIdx (ix2 p q) _ 1).val = q.val
        unfold DotDims.rhsIdx
        rw [dif_neg (show ¬(1 : Fin S128x12.rank) ∈ dot_S4096x128_S128x12_S4096x12_1_0_0_1_n_n.rhsBatch by decide),
          dif_pos (show (1 : Fin S128x12.rank) ∈ dot_S4096x128_S128x12_S4096x12_1_0_0_1_n_n.rhsNonContracting by decide)]
        rfl)
  rw [el, er]

/-! ## The decoder step: the products flattened, contracted against the decoder block, added to the accumulator -/

/-- Row `a * 128 + k` of a flat `[4096, ·]` matrix: where entry `(a, k)` of a `[32, 128, ·]` array sits. -/
def flatRow (a : Fin 32) (k : Fin 128) : Fin 4096 := ⟨a.val * 128 + k.val, by omega⟩

section Flatten
variable {α : Type}

/-- A `[32, 128, c]` array flattened to `[4096, c]` reads, at row `a * 128 + k`, the operand at `(a, k, ·)`. -/
theorem shapeCast_flatten_apply {c : ℕ} (x : (⟨3, ![32, 128, c]⟩ : Shape).Idx → α)
    (h : (⟨3, ![32, 128, c]⟩ : Shape).ShapeCasts ⟨2, ![4096, c]⟩) (a : Fin 32) (k : Fin 128) (j : Fin c) :
    shapeCast ⟨2, ![4096, c]⟩ x h (ix2 (flatRow a k) j) = x (ix3 a k j) :=
  shapeCast_apply x h _ _ (by
    rw [Shape.rowMajor_val_three, Shape.rowMajor_val_two]
    rfl)

/-- A `[4096, c]` matrix split to `[32, 128, c]` reads, at `(a, k, ·)`, the operand's row `a * 128 + k`. -/
theorem shapeCast_split_apply {c : ℕ} (x : (⟨2, ![4096, c]⟩ : Shape).Idx → α)
    (h : (⟨2, ![4096, c]⟩ : Shape).ShapeCasts ⟨3, ![32, 128, c]⟩) (a : Fin 32) (k : Fin 128) (j : Fin c) :
    shapeCast ⟨3, ![32, 128, c]⟩ x h (ix3 a k j) = x (ix2 (flatRow a k) j) :=
  shapeCast_apply x h _ _ (by
    rw [Shape.rowMajor_val_three, Shape.rowMajor_val_two]
    rfl)

end Flatten

/-- One step of the score accumulator at `(a, k, n)`: what it held plus the products of this feature block contracted
    against the decoder block's column `n`. -/
theorem acc_entry (A : FVec Ideal S32x128x128 .f32) (w : Vec Ideal S128x12 .f32) (acc : Vec Ideal S32x128x12 .f32)
    (a : Fin 32) (k : Fin 128) (n : Fin 12) :
    k1_pay1 A w acc (ix3 a k n) = acc (ix3 a k n) + ∑ h : Fin 128, A (ix3 a k h) * w (ix2 h n) := by
  unfold k1_pay1
  show shapeCast S32x128x12 _ _ (ix3 a k n) = _
  rw [shapeCast_self, addf_apply, shapeCast_split_apply, decode_dot_apply]
  refine congrArg (acc (ix3 a k n) + ·) (Finset.sum_congr rfl fun h _ => ?_)
  rw [shapeCast_flatten_apply, truncf_apply, truncf_apply]

/-! ## The two dense layers with their ramp -/

/-- The block of inputs as the products read it: unchanged. -/
theorem input_entry (x : Vec Ideal S128x768 .f32) (p : Fin 128) (d : Fin 768) : k0_pay1 x (ix2 p d) = x (ix2 p d) := by
  unfold k0_pay1
  show truncf .bf16 _ _ (ix2 p d) = _
  rw [truncf_apply, shapeCast_self]

/-- The query block at `(p, q)`: the ramp of the inputs' row `p` against weight column `q`, plus the bias. -/
theorem dense_entry (x : Vec Ideal S128x768 .f32) (w : Vec Ideal S768x512 .f32) (b : Vec Ideal S1x512 .f32)
    (p : Fin 128) (q : Fin 512) :
    k0_pay2 x w b (ix2 p q) = max ((∑ d : Fin 768, x (ix2 p d) * w (ix2 d q)) + b (ix2 0 q)) 0 := by
  unfold k0_pay2
  show maximumf _ _ (ix2 p q) = _
  rw [maximumf_apply, addf_apply, broadcast_apply, dense_dot_apply, broadcastTo_1b_ab_apply, shapeCast_self]
  show max _ (Ideal.ofBits .f32 0x00000000#32) = _
  rw [Ideal.ofBits_zero_f32]
  refine congrArg (fun s => max (s + b (ix2 0 q)) 0) (Finset.sum_congr rfl fun d _ => ?_)
  rw [input_entry, truncf_apply]

/-- The key block at `(p, q)`: the same with the key weights and bias. -/
theorem dense_entry' (x : Vec Ideal S128x768 .f32) (w : Vec Ideal S768x512 .f32) (b : Vec Ideal S1x512 .f32)
    (p : Fin 128) (q : Fin 512) :
    k0_pay3 x w b (ix2 p q) = max ((∑ d : Fin 768, x (ix2 p d) * w (ix2 d q)) + b (ix2 0 q)) 0 := by
  unfold k0_pay3
  show maximumf _ _ (ix2 p q) = _
  rw [maximumf_apply, addf_apply, broadcast_apply, dense_dot_apply, broadcastTo_1b_ab_apply, shapeCast_self]
  show max _ (Ideal.ofBits .f32 0x00000000#32) = _
  rw [Ideal.ofBits_zero_f32]
  refine congrArg (fun s => max (s + b (ix2 0 q)) 0) (Finset.sum_congr rfl fun d _ => ?_)
  rw [input_entry, truncf_apply]

/-! ## The sum of roots: three nested sums, spread over the accumulator's block -/

section Sums
variable {α : Type}

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Sums

/-- The sum along the last axis of a `[32, 128, 128]` block, at `(a, k)`. -/
theorem laneSum_apply (src : FVec Ideal S32x128x128 .f32) (a : Fin 32) (k : Fin 128) :
    multiReduction (F := Ideal) .add [2] S32x128 src 0x00000000#32 reduces_S32x128x128_S32x128 (.inl rfl) rfl (ix2 a k)
      = ∑ h : Fin 128, src (ix3 a k h) :=
  (Ideal.multiReduction_add_single src 0x00000000#32 reduces_S32x128x128_S32x128 (.inl rfl) rfl (ix2 a k)).trans
    (Finset.sum_congr rfl fun h _ => congrArg src (funext fun ax => Fin.ext (by
      match ax with
      | ⟨0, _⟩ => rfl
      | ⟨1, _⟩ => rfl
      | ⟨2, _⟩ => rfl)))

/-- The sum along the rows of a `[32, 128]` block, at `a`. -/
theorem rowSum_apply (src : FVec Ideal S32x128 .f32) (a : Fin 32) :
    multiReduction (F := Ideal) .add [1] S32 src 0x00000000#32 reduces_S32x128_S32 (.inl rfl) rfl (ix1 a)
      = ∑ k : Fin 128, src (ix2 a k) :=
  (Ideal.multiReduction_add_single src 0x00000000#32 reduces_S32x128_S32 (.inl rfl) rfl (ix1 a)).trans
    (Finset.sum_congr rfl fun k _ => congrArg src (funext fun ax => Fin.ext (by
      match ax with
      | ⟨0, _⟩ => rfl
      | ⟨1, _⟩ => rfl)))

/-- The sum down the one column of a `[32, 1]` block. -/
theorem colSum_apply (src : FVec Ideal S32x1 .f32) (u : Fin 1) :
    multiReduction (F := Ideal) .add [0] S1 src 0x00000000#32 reduces_S32x1_S1 (.inl rfl) rfl (ix1 u)
      = ∑ a : Fin 32, src (ix2 a u) :=
  (Ideal.multiReduction_add_single src 0x00000000#32 reduces_S32x1_S1 (.inl rfl) rfl (ix1 u)).trans
    (Finset.sum_congr rfl fun a _ => congrArg src (funext fun ax => Fin.ext (by
      match ax with
      | ⟨0, _⟩ => rfl
      | ⟨1, _⟩ => rfl)))

/-- One step of the sum-of-roots accumulator: every entry of the `[8, 128]` block gains the sum, over this block's
    query rows, key rows and features, of the root of the product. -/
theorem root_entry (v3 : Vec Ideal S1x32x128 .f32) (v5 : Vec Ideal S1x128x128 .f32) (r : Vec Ideal S8x128 .f32)
    (u : Fin 8) (v : Fin 128) :
    k1_pay7 v3 v5 r (ix2 u v) = r (ix2 u v)
      + ∑ a : Fin 32, ∑ k : Fin 128, ∑ h : Fin 128, Cert.QKSpec.root (v3 (ix3 0 a h) * v5 (ix3 0 k h)) := by
  unfold k1_pay7
  show shapeCast S8x128 _ _ (ix2 u v) = _
  rw [shapeCast_self, shapeCast_self, addf_apply, broadcastTo_11_ab_apply, shapeCast_a_1a_apply, colSum_apply]
  refine congrArg (r (ix2 u v) + ·) (Finset.sum_congr rfl fun a _ => ?_)
  rw [shapeCast_a_a1_apply, rowSum_apply]
  refine Finset.sum_congr rfl fun k _ => ?_
  rw [laneSum_apply]
  refine Finset.sum_congr rfl fun h _ => ?_
  show Ideal.sqrt (max (k1_pay6 v3 v5 (ix3 a k h)) (-(k1_pay6 v3 v5 (ix3 a k h))) + Ideal.ofBits .f32 0x358637BD#32) = _
  rw [act_entry]
  rfl

end Cert.KernelIdeal.PayloadValue

end
-- ==== Proof.KIValue0.lean ====
/-
  The dense-layer kernel's two result arrays as whole-array functions of the arrays the region is entered with: every
  grid point (i, j) writes back the 128×512 block (i, j) of the ramp of the row matrix against a weight matrix plus its
  bias row, and the sixteen blocks tile the 512×2048 result.
-/
import Idealize.ShloMosaic.Lib.Pipeline.Value
import Idealize.ShloMosaic.Lib.ValueIdx
import proofs.«168794_j67723044324148_2_alg».proof.Proof.Spec
import proofs.«168794_j67723044324148_2_alg».proof.Proof.Payloads
import proofs.«168794_j67723044324148_2_alg».proof.Proof.KIRegion0

noncomputable section

namespace Cert.KernelIdeal.Value0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadValue

/-! ## The result as one function of the arrays -/

/-- One dense layer with its ramp over the flat row matrix: entry `(r, q)` is `max (Σ_d x2 r d · W d q + b2 0 q) 0`. -/
def denseFlat (x2 : Vec Ideal S512x768 .f32) (W : Vec Ideal S768x2048 .f32) (b2 : Vec Ideal S1x2048 .f32) :
    Vec Ideal S512x2048 .f32 := fun j =>
  max ((∑ d : Fin 768, x2 (ix2 (⟨(j 0).val, idx2_lt0 j⟩ : Fin 512) d) * W (ix2 d (⟨(j 1).val, idx2_lt1 j⟩ : Fin 2048)))
    + b2 (ix2 (0 : Fin 1) (⟨(j 1).val, idx2_lt1 j⟩ : Fin 2048))) 0

/-- The same at an index given by its coordinates. -/
theorem denseFlat_apply (x2 : Vec Ideal S512x768 .f32) (W : Vec Ideal S768x2048 .f32) (b2 : Vec Ideal S1x2048 .f32)
    (r : Fin 512) (q : Fin 2048) :
    denseFlat x2 W b2 (ix2 r q) = max ((∑ d : Fin 768, x2 (ix2 r d) * W (ix2 d q)) + b2 (ix2 0 q)) 0 := rfl

/-! ## One block: the body's result of the blocks at a point is the block of `denseFlat` -/

theorem hz : (![0, 0] : Fin 2 → Nat) = fun _ => 0 := funext fun a => by fin_cases a <;> rfl

section AnyInstance
variable {F : FTy → Type} [FloatOps F]

/-- The query block after the body is the dense layer of the three blocks it loads. -/
theorem encQ_eq (x0 : Vec F S128x768 .f32) (x1 : Vec F S768x512 .f32) (x3 : Vec F S1x512 .f32) :
    encQ x0 x1 x3 = k0_pay2 x0 x1 x3 := by
  unfold encQ
  rw [View.canon_unit_zero hz]
  simp only [View.ld_unit_zero (S := S128x768) hz, View.ld_unit_zero (S := S768x512) hz, View.ld_unit_zero (S := S1x512) hz]

/-- The key block likewise. -/
theorem encK_eq (x0 : Vec F S128x768 .f32) (x2 : Vec F S768x512 .f32) (x4 : Vec F S1x512 .f32) :
    encK x0 x2 x4 = k0_pay3 x0 x2 x4 := by
  unfold encK
  rw [View.canon_unit_zero hz]
  simp only [View.ld_unit_zero (S := S128x768) hz, View.ld_unit_zero (S := S768x512) hz, View.ld_unit_zero (S := S1x512) hz]

end AnyInstance

/-- If the three loaded blocks are the row block `bi` of the rows, the column block `bj` of the weights and of the bias, the
    query block at `j` is `denseFlat` at row `bi · 128 + j 0`, column `bj · 512 + j 1`. -/
theorem dense_block (x2 : Vec Ideal S512x768 .f32) (W : Vec Ideal S768x2048 .f32) (b2 : Vec Ideal S1x2048 .f32)
    (x0 : Vec Ideal S128x768 .f32) (x1 : Vec Ideal S768x512 .f32) (x3 : Vec Ideal S1x512 .f32) (bi bj : ℕ)
    (h0 : ∀ (p : Fin 128) (d : Fin 768) (r : Fin 512), r.val = bi * 128 + p.val → x0 (ix2 p d) = x2 (ix2 r d))
    (h1 : ∀ (d : Fin 768) (q : Fin 512) (s : Fin 2048), s.val = bj * 512 + q.val → x1 (ix2 d q) = W (ix2 d s))
    (h3 : ∀ (q : Fin 512) (s : Fin 2048), s.val = bj * 512 + q.val → x3 (ix2 0 q) = b2 (ix2 0 s))
    (j : S128x512.Idx) (k : S512x2048.Idx) (hk0 : (k 0).val = bi * 128 + (j 0).val) (hk1 : (k 1).val = bj * 512 + (j 1).val) :
    k0_pay2 x0 x1 x3 j = denseFlat x2 W b2 k := by
  obtain ⟨p, q, rfl⟩ : ∃ (p : Fin 128) (q : Fin 512), j = ix2 p q := ⟨j 0, j 1, eq_ix2 j⟩
  obtain ⟨r, s, rfl⟩ : ∃ (r : Fin 512) (s : Fin 2048), k = ix2 r s := ⟨k 0, k 1, eq_ix2 k⟩
  rw [dense_entry, denseFlat_apply, h3 q s hk1]
  refine congrArg (fun u => max (u + b2 (ix2 0 s)) 0) (Finset.sum_congr rfl fun d _ => ?_)
  rw [h0 p d r hk0, h1 d q s hk1]

/-- The same for the key block. -/
theorem dense_block' (x2 : Vec Ideal S512x768 .f32) (W : Vec Ideal S768x2048 .f32) (b2 : Vec Ideal S1x2048 .f32)
    (x0 : Vec Ideal S128x768 .f32) (x1 : Vec Ideal S768x512 .f32) (x3 : Vec Ideal S1x512 .f32) (bi bj : ℕ)
    (h0 : ∀ (p : Fin 128) (d : Fin 768) (r : Fin 512), r.val = bi * 128 + p.val → x0 (ix2 p d) = x2 (ix2 r d))
    (h1 : ∀ (d : Fin 768) (q : Fin 512) (s : Fin 2048), s.val = bj * 512 + q.val → x1 (ix2 d q) = W (ix2 d s))
    (h3 : ∀ (q : Fin 512) (s : Fin 2048), s.val = bj * 512 + q.val → x3 (ix2 0 q) = b2 (ix2 0 s))
    (j : S128x512.Idx) (k : S512x2048.Idx) (hk0 : (k 0).val = bi * 128 + (j 0).val) (hk1 : (k 1).val = bj * 512 + (j 1).val) :
    k0_pay3 x0 x1 x3 j = denseFlat x2 W b2 k := by
  obtain ⟨p, q, rfl⟩ : ∃ (p : Fin 128) (q : Fin 512), j = ix2 p q := ⟨j 0, j 1, eq_ix2 j⟩
  obtain ⟨r, s, rfl⟩ : ∃ (r : Fin 512) (s : Fin 2048), k = ix2 r s := ⟨k 0, k 1, eq_ix2 k⟩
  rw [dense_entry', denseFlat_apply, h3 q s hk1]
  refine congrArg (fun u => max (u + b2 (ix2 0 s)) 0) (Finset.sum_congr rfl fun d _ => ?_)
  rw [h0 p d r hk0, h1 d q s hk1]

/-! ## The index maps over the sixteen points -/

/-- The printed index maps, decided over the grid: the row block moves with the output's row block, the weight and bias
    blocks with its column block, the key output with the query output; block indices stay below 4. -/
theorem idx_facts : ∀ t : Fin cfg0.N,
      win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_6.index t (0 : Fin 2) = win0_5.index t (0 : Fin 2) ∧ win0_6.index t (1 : Fin 2) = win0_5.index t (1 : Fin 2)
    ∧ win0_5.index t (0 : Fin 2) ≤ 3 ∧ win0_5.index t (1 : Fin 2) ≤ 3 :=
  (by decide +kernel : ∀ t : Fin grid0.N, _)

/-- Every block of the result is some point's. -/
theorem idx_onto : ∀ (q0 q1 : Fin 4), ∃ t : Fin cfg0.N, win0_5.index t = ![q0.val, q1.val] :=
  (by decide +kernel : ∀ (q0 q1 : Fin 4), ∃ t : Fin grid0.N, win0_5.index t = ![q0.val, q1.val])

section Blocks
variable (V : (c : Dev nD) → (b : Ref sig .tc) → Buf (Elt Ideal) ((c : Thread nD τ).loc b))

/-! ## The input blocks at a point, read where the output block's rectangle says -/

/-- The row block at point `t` is rows `128 · (row block of t) …` of the row matrix. -/
theorem rows_block (c : Dev nD) (t : Fin cfg0.N) (p : Fin 128) (d : Fin 768) (r : Fin 512)
    (hr : r.val = win0_5.index t (0 : Fin 2) * 128 + p.val) :
    (iblk0 V c 0 t : Vec Ideal S128x768 .f32) (ix2 p d) = (V c main_v0 : Vec Ideal S512x768 .f32) (ix2 r d) := by
  obtain ⟨e00, e01, -⟩ := idx_facts t
  unfold iblk0
  rw [View.read_apply]
  show V c main_v0 (((cfg0.win 0).blk t).view.emb (ix2 p d)) = V c main_v0 (ix2 r d)
  refine congrArg _ (funext fun a => Fin.ext ?_)
  match a with
  | ⟨0, _⟩ => show win0_0.index t (0 : Fin 2) * 128 + 1 * p.val = r.val; omega
  | ⟨1, _⟩ => show win0_0.index t (1 : Fin 2) * 768 + 1 * d.val = d.val; omega

/-- The query weights' block at point \`t\` is columns \`512 · (column block of t) …\` of the query weights. -/
theorem queryCols_block (c : Dev nD) (t : Fin cfg0.N) (d : Fin 768) (q : Fin 512) (s : Fin 2048)
    (hs : s.val = win0_5.index t (1 : Fin 2) * 512 + q.val) :
    (iblk0 V c 1 t : Vec Ideal S768x512 .f32) (ix2 d q) = (V c main_arg1 : Vec Ideal S768x2048 .f32) (ix2 d s) := by
  obtain ⟨-, -, e10, e11, e20, e21, -⟩ := idx_facts t
  unfold iblk0
  rw [View.read_apply]
  show V c main_arg1 (((cfg0.win 1).blk t).view.emb (ix2 d q)) = V c main_arg1 (ix2 d s)
  refine congrArg _ (funext fun a => Fin.ext ?_)
  match a with
  | ⟨0, _⟩ => show win0_1.index t (0 : Fin 2) * 768 + 1 * d.val = d.val; omega
  | ⟨1, _⟩ => show win0_1.index t (1 : Fin 2) * 512 + 1 * q.val = s.val; omega

/-- The key weights' block likewise. -/
theorem keyCols_block (c : Dev nD) (t : Fin cfg0.N) (d : Fin 768) (q : Fin 512) (s : Fin 2048)
    (hs : s.val = win0_5.index t (1 : Fin 2) * 512 + q.val) :
    (iblk0 V c 2 t : Vec Ideal S768x512 .f32) (ix2 d q) = (V c main_arg2 : Vec Ideal S768x2048 .f32) (ix2 d s) := by
  obtain ⟨-, -, e10, e11, e20, e21, -⟩ := idx_facts t
  unfold iblk0
  rw [View.read_apply]
  show V c main_arg2 (((cfg0.win 2).blk t).view.emb (ix2 d q)) = V c main_arg2 (ix2 d s)
  refine congrArg _ (funext fun a => Fin.ext ?_)
  match a with
  | ⟨0, _⟩ => show win0_2.index t (0 : Fin 2) * 768 + 1 * d.val = d.val; omega
  | ⟨1, _⟩ => show win0_2.index t (1 : Fin 2) * 512 + 1 * q.val = s.val; omega

/-- The query bias block at point \`t\` is entries \`512 · (column block of t) …\` of the query bias row. -/
theorem queryBias_block (c : Dev nD) (t : Fin cfg0.N) (q : Fin 512) (s : Fin 2048)
    (hs : s.val = win0_5.index t (1 : Fin 2) * 512 + q.val) :
    (iblk0 V c 3 t : Vec Ideal S1x512 .f32) (ix2 0 q) = (V c main_v1 : Vec Ideal S1x2048 .f32) (ix2 0 s) := by
  obtain ⟨-, -, -, -, -, -, e30, e31, e40, e41, -⟩ := idx_facts t
  unfold iblk0
  rw [View.read_apply]
  show V c main_v1 (((cfg0.win 3).blk t).view.emb (ix2 0 q)) = V c main_v1 (ix2 0 s)
  refine congrArg _ (funext fun a => Fin.ext ?_)
  match a with
  | ⟨0, _⟩ => show win0_3.index t (0 : Fin 2) * 1 + 1 * 0 = 0; omega
  | ⟨1, _⟩ => show win0_3.index t (1 : Fin 2) * 512 + 1 * q.val = s.val; omega

/-- The key bias block likewise. -/
theorem keyBias_block (c : Dev nD) (t : Fin cfg0.N) (q : Fin 512) (s : Fin 2048)
    (hs : s.val = win0_5.index t (1 : Fin 2) * 512 + q.val) :
    (iblk0 V c 4 t : Vec Ideal S1x512 .f32) (ix2 0 q) = (V c main_v2 : Vec Ideal S1x2048 .f32) (ix2 0 s) := by
  obtain ⟨-, -, -, -, -, -, e30, e31, e40, e41, -⟩ := idx_facts t
  unfold iblk0
  rw [View.read_apply]
  show V c main_v2 (((cfg0.win 4).blk t).view.emb (ix2 0 q)) = V c main_v2 (ix2 0 s)
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = s.val; omega

/-! ## What a point writes back, the cover, and the arrays after the run -/

/-- What point \`t\` writes back to the queries is block \`t\` of \`denseFlat\` of the rows, the query weights and the query bias. -/
theorem flushedQ_eq (c : Dev nD) (t : Fin cfg0.N) :
    (dat0 (F := Ideal) V c).flushed 5 t
      = ((cfg0.win 5).blk t).view.read (Elt Ideal) (denseFlat (V c main_v0) (V c main_arg1) (V c main_v1)) := by
  show (cfg0.win 5).cut (grid0.coords t) ((dat0 V c).after 5 t) = _
  rw [after0_5, encQ_eq]
  obtain ⟨-, -, -, -, -, -, -, -, -, -, e60, e61, -⟩ := idx_facts t
  funext j
  rw [View.read_apply]
  refine dense_block (V c main_v0) (V c main_arg1) (V c main_v1) (iblk0 V c 0 t) (iblk0 V c 1 t) (iblk0 V c 3 t)
    (win0_5.index t (0 : Fin 2)) (win0_5.index t (1 : Fin 2))
    (fun p d r hr => rows_block V c t p d r hr) (fun d q s hs => queryCols_block V c t d q s hs) (fun q s hs => queryBias_block V c t q s hs)
    j (((cfg0.win 5).blk t).view.emb j) ?_ ?_
  · show win0_5.index t (0 : Fin 2) * 128 + 1 * (j 0).val = win0_5.index t (0 : Fin 2) * 128 + (j 0).val; omega
  · show win0_5.index t (1 : Fin 2) * 512 + 1 * (j 1).val = win0_5.index t (1 : Fin 2) * 512 + (j 1).val; omega

/-- What point \`t\` writes back to the keys is block \`t\` of \`denseFlat\` of the rows, the key weights and the key bias. -/
theorem flushedK_eq (c : Dev nD) (t : Fin cfg0.N) :
    (dat0 (F := Ideal) V c).flushed 6 t
      = ((cfg0.win 6).blk t).view.read (Elt Ideal) (denseFlat (V c main_v0) (V c main_arg2) (V c main_v2)) := by
  show (cfg0.win 6).cut (grid0.coords t) ((dat0 V c).after 6 t) = _
  rw [after0_6, encK_eq]
  obtain ⟨-, -, -, -, -, -, -, -, -, -, e60, e61, -⟩ := idx_facts t
  funext j
  rw [View.read_apply]
  refine dense_block' (V c main_v0) (V c main_arg2) (V c main_v2) (iblk0 V c 0 t) (iblk0 V c 2 t) (iblk0 V c 4 t)
    (win0_5.index t (0 : Fin 2)) (win0_5.index t (1 : Fin 2))
    (fun p d r hr => rows_block V c t p d r hr) (fun d q s hs => keyCols_block V c t d q s hs) (fun q s hs => keyBias_block V c t q s hs)
    j (((cfg0.win 6).blk t).view.emb j) ?_ ?_
  · show win0_6.index t (0 : Fin 2) * 128 + 1 * (j 0).val = win0_5.index t (0 : Fin 2) * 128 + (j 0).val; omega
  · show win0_6.index t (1 : Fin 2) * 512 + 1 * (j 1).val = win0_5.index t (1 : Fin 2) * 512 + (j 1).val; omega

/-- An index of the queries is in point \`t\`'s block iff each coordinate is in the block's range on its axis. -/
theorem mem_blkQ (t : Fin cfg0.N) (i : S512x2048.Idx) :
    i ∈ ((cfg0.win 5).blk t).view.set ↔ ∀ a : Fin 2, win0_5.index t a * S128x512.size a ≤ (i a).val
      ∧ (i a).val < win0_5.index t a * S128x512.size a + S128x512.size a := by
  show i ∈ ((View.whole main_v3_0).slice (win0_5.rect t)).set ↔ _
  rw [View.set_slice_whole, Rect.mem_set_unit]
  exact Iff.rfl

/-- The same for the keys. -/
theorem mem_blkK (t : Fin cfg0.N) (i : S512x2048.Idx) :
    i ∈ ((cfg0.win 6).blk t).view.set ↔ ∀ a : Fin 2, win0_6.index t a * S128x512.size a ≤ (i a).val
      ∧ (i a).val < win0_6.index t a * S128x512.size a + S128x512.size a := by
  show i ∈ ((View.whole main_v3_1).slice (win0_6.rect t)).set ↔ _
  rw [View.set_slice_whole, Rect.mem_set_unit]
  exact Iff.rfl

/-- Every entry of the queries is in some point's block: row \`r\` in row block \`r / 128\`, column \`q\` in column block \`q / 512\`. -/
theorem coverQ (i : S512x2048.Idx) : ∃ t : Fin cfg0.N, (cfg0.win 5).flush t = true ∧ i ∈ ((cfg0.win 5).blk t).view.set := by
  have hi0 : (i 0).val < 512 := (i 0).isLt
  have hi1 : (i 1).val < 2048 := (i 1).isLt
  obtain ⟨t, ht⟩ := idx_onto ⟨(i 0).val / 128, by omega⟩ ⟨(i 1).val / 512, by omega⟩
  have q0 : win0_5.index t (0 : Fin 2) = (i 0).val / 128 := congrFun ht 0
  have q1 : win0_5.index t (1 : Fin 2) = (i 1).val / 512 := congrFun ht 1
  obtain ⟨-, -, -, -, -, -, -, -, -, -, e60, e61, -⟩ := idx_facts t
  refine ⟨t, flush0_5 t, ?_⟩
  rw [mem_blkQ]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 512 ≤ (i 1).val ∧ (i 1).val < win0_5.index t (1 : Fin 2) * 512 + 512; omega

/-- The same for the keys. -/
theorem coverK (i : S512x2048.Idx) : ∃ t : Fin cfg0.N, (cfg0.win 6).flush t = true ∧ i ∈ ((cfg0.win 6).blk t).view.set := by
  have hi0 : (i 0).val < 512 := (i 0).isLt
  have hi1 : (i 1).val < 2048 := (i 1).isLt
  obtain ⟨t, ht⟩ := idx_onto ⟨(i 0).val / 128, by omega⟩ ⟨(i 1).val / 512, by omega⟩
  have q0 : win0_5.index t (0 : Fin 2) = (i 0).val / 128 := congrFun ht 0
  have q1 : win0_5.index t (1 : Fin 2) = (i 1).val / 512 := congrFun ht 1
  obtain ⟨-, -, -, -, -, -, -, -, -, -, e60, e61, -⟩ := idx_facts t
  refine ⟨t, flush0_6 t, ?_⟩
  rw [mem_blkK]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 512 ≤ (i 1).val ∧ (i 1).val < win0_6.index t (1 : Fin 2) * 512 + 512; omega

/-- The queries after the run: the dense layer of the flat rows with the query weights and bias. -/
theorem queries_flat (c : Dev nD) :
    (dat0 (F := Ideal) V c).arrAt 5 cfg0.N = denseFlat (V c main_v0) (V c main_arg1) (V c main_v1) :=
  (dat0 (F := Ideal) V c).arrAt_eq_of_cover 5 (denseFlat (V c main_v0) (V c main_arg1) (V c main_v1))
    (fun t _ => flushedQ_eq V c t) coverQ

/-- The keys after the run: the dense layer of the flat rows with the key weights and bias. -/
theorem keys_flat (c : Dev nD) :
    (dat0 (F := Ideal) V c).arrAt 6 cfg0.N = denseFlat (V c main_v0) (V c main_arg2) (V c main_v2) :=
  (dat0 (F := Ideal) V c).arrAt_eq_of_cover 6 (denseFlat (V c main_v0) (V c main_arg2) (V c main_v2))
    (fun t _ => flushedK_eq V c t) coverK

end Blocks

end Cert.KernelIdeal.Value0

end
-- ==== Proof.KIValueHost.lean ====
/-
  The host stretches of the program read at an index, on the extended reals: the reshapes before and between the two
  kernels, and the slice, sum, scaling and transposition after them.
-/
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«168794_j67723044324148_2_alg».proof.Proof.Spec
import proofs.«168794_j67723044324148_2_alg».proof.Proof.KIValue0
import proofs.«168794_j67723044324148_2_alg».proof.Proof.KIRun

noncomputable section

namespace Cert.KernelIdeal.ValueHost

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadValue Cert.KernelIdeal.Value0

/-! ## The batch and position axes merged into one row axis, and split again -/

/-- Row `b * 128 + s` of a flat `[512, ·]` matrix: where position `s` of sequence `b` sits. -/
def flatPos (b : Fin 4) (s : Fin 128) : Fin 512 := ⟨b.val * 128 + s.val, by omega⟩

section Merge
variable {α : Type}

/-- A `[4, 128, c]` array flattened to `[512, c]` reads, at row `b * 128 + s`, the operand at `(b, s, ·)`. -/
theorem shapeCast_rows_apply {c : ℕ} (x : (⟨3, ![4, 128, c]⟩ : Shape).Idx → α)
    (h : (⟨3, ![4, 128, c]⟩ : Shape).ShapeCasts ⟨2, ![512, c]⟩) (b : Fin 4) (s : Fin 128) (j : Fin c) :
    shapeCast ⟨2, ![512, c]⟩ x h (ix2 (flatPos b s) j) = x (ix3 b s j) :=
  shapeCast_apply x h _ _ (by
    rw [Shape.rowMajor_val_three, Shape.rowMajor_val_two]
    rfl)

/-- A `[512, c]` matrix split to `[4, 128, c]` reads, at `(b, s, ·)`, the operand's row `b * 128 + s`. -/
theorem shapeCast_unrows_apply {c : ℕ} (x : (⟨2, ![512, c]⟩ : Shape).Idx → α)
    (h : (⟨2, ![512, c]⟩ : Shape).ShapeCasts ⟨3, ![4, 128, c]⟩) (b : Fin 4) (s : Fin 128) (j : Fin c) :
    shapeCast ⟨3, ![4, 128, c]⟩ x h (ix3 b s j) = x (ix2 (flatPos b s) j) :=
  shapeCast_apply x h _ _ (by
    rw [Shape.rowMajor_val_three, Shape.rowMajor_val_two]
    rfl)

end Merge

variable (m : (ℓ : Loc nD τ sig) → Buf (Elt Ideal) ℓ) (c : Dev nD)

/-! ## Before the first kernel: the rows flattened, the two bias vectors as rows -/

/-- The flat rows are the input with its two leading axes merged. -/
theorem rows_flat : (W1 m c (Proc.devRef .tc main_v0) : S512x768.Idx → EReal)
    = shapeCast S512x768 (m ((c : Thread nD τ).loc main_arg0) : S4x128x768.Idx → EReal) shapeCasts_S4x128x768_S512x768 := by
  dsimp only [W1, hostOps0]; (after_results) <;> rfl

/-- The query bias row is the query bias vector with a unit axis in front. -/
theorem qbias_row : (W1 m c (Proc.devRef .tc main_v1) : S1x2048.Idx → EReal)
    = shapeCast S1x2048 (m ((c : Thread nD τ).loc main_arg3) : S2048.Idx → EReal) shapeCasts_S2048_S1x2048 := by
  dsimp only [W1, hostOps0]; (after_results) <;> rfl

/-- The key bias row likewise. -/
theorem kbias_row : (W1 m c (Proc.devRef .tc main_v2) : S1x2048.Idx → EReal)
    = shapeCast S1x2048 (m ((c : Thread nD τ).loc main_arg4) : S2048.Idx → EReal) shapeCasts_S2048_S1x2048 := by
  dsimp only [W1, hostOps0]; (after_results) <;> rfl

/-- A weight matrix passes the first stretch unchanged. -/
theorem qweights_kept : (W1 m c (Proc.devRef .tc main_arg1) : S768x2048.Idx → EReal) = m ((c : Thread nD τ).loc main_arg1) :=
  W1_of m c main_arg1 (by decide)
theorem kweights_kept : (W1 m c (Proc.devRef .tc main_arg2) : S768x2048.Idx → EReal) = m ((c : Thread nD τ).loc main_arg2) :=
  W1_of m c main_arg2 (by decide)

/-! ## Between the kernels: the queries and keys split back into sequences, the decoder bias as a row -/

/-- The queries by sequence are the flat queries with the row axis split. -/
theorem queries_split : (W3 m c (Proc.devRef .tc main_v4) : S4x128x2048.Idx → EReal)
    = shapeCast S4x128x2048 (W2 m c (Proc.devRef .tc main_v3_0) : S512x2048.Idx → EReal) shapeCasts_S512x2048_S4x128x2048 := by
  dsimp only [W3, hostOps1]; (after_results) <;> rfl

/-- The keys likewise. -/
theorem keys_split : (W3 m c (Proc.devRef .tc main_v5) : S4x128x2048.Idx → EReal)
    = shapeCast S4x128x2048 (W2 m c (Proc.devRef .tc main_v3_1) : S512x2048.Idx → EReal) shapeCasts_S512x2048_S4x128x2048 := by
  dsimp only [W3, hostOps1]; (after_results) <;> rfl

/-- The decoder bias row is the decoder bias vector with a unit axis in front. -/
theorem dbias_row : (W3 m c (Proc.devRef .tc main_v6) : S1x12.Idx → EReal)
    = shapeCast S1x12 (W2 m c (Proc.devRef .tc main_arg6) : S12.Idx → EReal) shapeCasts_S12_S1x12 := by
  dsimp only [W3, hostOps1]; (after_results) <;> rfl

/-- The flat queries after the first kernel: the dense layer of the flat rows. -/
theorem queries_W2 : (W2 m c (Proc.devRef .tc main_v3_0) : S512x2048.Idx → EReal)
    = denseFlat (W1 m c (Proc.devRef .tc main_v0)) (W1 m c (Proc.devRef .tc main_arg1)) (W1 m c (Proc.devRef .tc main_v1)) :=
  (W2_arr m c 5).trans (queries_flat (Hand.V1 m) c)

/-- The flat keys after the first kernel. -/
theorem keys_W2 : (W2 m c (Proc.devRef .tc main_v3_1) : S512x2048.Idx → EReal)
    = denseFlat (W1 m c (Proc.devRef .tc main_v0)) (W1 m c (Proc.devRef .tc main_arg2)) (W1 m c (Proc.devRef .tc main_v2)) :=
  (W2_arr m c 6).trans (keys_flat (Hand.V1 m) c)

/-- THE QUERIES the second kernel reads: the specification's dense layer with its ramp, of the arguments. -/
theorem queries_arr (b : Fin 4) (s : Fin 128) (h : Fin 2048) :
    (W3 m c (Proc.devRef .tc main_v4) : S4x128x2048.Idx → EReal) (ix3 b s h)
      = Cert.QKSpec.encArr (m ((c : Thread nD τ).loc main_arg0)) (m ((c : Thread nD τ).loc main_arg1))
          (m ((c : Thread nD τ).loc main_arg3)) b s h := by
  rw [queries_split, shapeCast_unrows_apply, queries_W2, denseFlat_apply, rows_flat, qbias_row, qweights_kept,
    shapeCast_a_1a_apply]
  refine congrArg (fun u : EReal => max (u + (m ((c : Thread nD τ).loc main_arg3) : S2048.Idx → EReal) (ix1 h)) 0)
    (Finset.sum_congr rfl fun d _ => ?_)
  rw [shapeCast_rows_apply]

/-- THE KEYS the second kernel reads. -/
theorem keys_arr (b : Fin 4) (s : Fin 128) (h : Fin 2048) :
    (W3 m c (Proc.devRef .tc main_v5) : S4x128x2048.Idx → EReal) (ix3 b s h)
      = Cert.QKSpec.encArr (m ((c : Thread nD τ).loc main_arg0)) (m ((c : Thread nD τ).loc main_arg2))
          (m ((c : Thread nD τ).loc main_arg4)) b s h := by
  rw [keys_split, shapeCast_unrows_apply, keys_W2, denseFlat_apply, rows_flat, kbias_row, kweights_kept,
    shapeCast_a_1a_apply]
  refine congrArg (fun u : EReal => max (u + (m ((c : Thread nD τ).loc main_arg4) : S2048.Idx → EReal) (ix1 h)) 0)
    (Finset.sum_congr rfl fun d _ => ?_)
  rw [shapeCast_rows_apply]

/-- The decoder weights reach the second kernel unchanged. -/
theorem wdec_arr : (W3 m c (Proc.devRef .tc main_arg5) : S2048x12.Idx → EReal) = m ((c : Thread nD τ).loc main_arg5) :=
  (W3_of m c main_arg5 (by decide)).trans ((W2_of_ne m c main_arg5 (by decide)).trans (W1_of m c main_arg5 (by decide)))

/-- The decoder bias row at `(0, n)` is the decoder bias at `n`. -/
theorem bias_row (n : Fin 12) :
    (W3 m c (Proc.devRef .tc main_v6) : S1x12.Idx → EReal) (ix2 0 n) = (m ((c : Thread nD τ).loc main_arg6) : S12.Idx → EReal) (ix1 n) := by
  rw [dbias_row, shapeCast_a_1a_apply,
    show (W2 m c (Proc.devRef .tc main_arg6) : S12.Idx → EReal) = m ((c : Thread nD τ).loc main_arg6) from
      (W2_of_ne m c main_arg6 (by decide)).trans (W1_of m c main_arg6 (by decide))]

/-! ## After the second kernel: the indicators as they are, the score transposed, the partial sums added and scaled -/

/-- The indicators pass the last stretch unchanged. -/
theorem fires_out : W5 m c (Proc.devRef .tc main_v7_0) = W4 m c (Proc.devRef .tc main_v7_0) :=
  W5_of m c main_v7_0 (by decide)

/-- The returned score is the kernel's score with the head axis moved second. -/
theorem score_term : (W5 m c (Proc.devRef .tc main_v12) : S4x12x128x128.Idx → EReal)
    = transpose S4x12x128x128 [0, 3, 1, 2] (W4 m c (Proc.devRef .tc main_v7_1) : S4x128x128x12.Idx → EReal)
        transposes_S4x128x128x12_S4x12x128x128_0_3_1_2 := by
  dsimp only [W5, hostOps2]; (after_results) <;> rfl

/-- The returned score at `(b, n, q, k)` is the kernel's score at `(b, q, k, n)`. -/
theorem score_out (b : Fin 4) (n : Fin 12) (q k : Fin 128) :
    (W5 m c (Proc.devRef .tc main_v12) : S4x12x128x128.Idx → EReal) (ix4 b n q k)
      = (W4 m c (Proc.devRef .tc main_v7_1) : S4x128x128x12.Idx → EReal) (ix4 b q k n) := by
  rw [score_term]
  exact transpose_apply _ _ _ (ix4 b n q k) (ix4 b q k n) fun a => match a with
    | ⟨0, _⟩ => rfl
    | ⟨1, _⟩ => rfl
    | ⟨2, _⟩ => rfl
    | ⟨3, _⟩ => rfl

/-- The returned sum of roots, as the host computes it from the kernel's `[4, 4, 8, 128]` partial sums. -/
theorem rootsum_term : (W5 m c (Proc.devRef .tc main_v11) : S_.Idx → EReal)
    = mulf (constant (F := Ideal) S_ .f32 0x3A83126F#32)
        (Host.reduceAdd (F := Ideal)
          (shapeCast S4x4 (extractStridedSlice S4x4x1x1 ![0, 0, 0, 0]
            (W4 m c (Proc.devRef .tc main_v7_2) : S4x4x8x128.Idx → EReal) slices_S4x4x8x128_S4x4x1x1_0_0_0_0)
            shapeCasts_S4x4x1x1_S4x4)
          (constant (F := Ideal) S_ .f32 0x00000000#32) reducesTo_S4x4_S_d0_1 h_S_) := by
  dsimp only [W5, hostOps2]; (after_results) <;> rfl

section Corner
variable {α : Type}

/-- A `[a, b, 1, 1]` array cast to `[a, b]` reads, at `(i, j)`, the operand at `(i, j, 0, 0)`. -/
theorem shapeCast_ab11_ab_apply {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    simp only [Nat.mul_one, Nat.add_zero])

/-- The corner slice `[0:a, 0:b, 0:1, 0:1]` of an `[a, b, c, e]` array reads, at `(i, j, 0, 0)`, the source there. -/
theorem cornerSlice_apply {a b c e : ℕ} (hc : 0 < c) (he : 0 < e) (X : (⟨4, ![a, b, c, e]⟩ : Shape).Idx → α)
    (h : (⟨4, ![a, b, c, e]⟩ : Shape).Slices ![0, 0, 0, 0] ⟨4, ![a, b, 1, 1]⟩) (i : Fin a) (j : Fin b) (u u' : Fin 1) :
    extractStridedSlice ⟨4, ![a, b, 1, 1]⟩ ![0, 0, 0, 0] X h (ix4 i j u u') = X (ix4 i j (⟨0, hc⟩ : Fin c) (⟨0, he⟩ : Fin e)) :=
  extractStridedSlice_apply _ _ _ _ _ (fun ax => by
    have hu : u.val = 0 := by omega
    have hu' : u'.val = 0 := by omega
    match ax with
    | ⟨0, _⟩ => exact (Nat.zero_add _).symm
    | ⟨1, _⟩ => exact (Nat.zero_add _).symm
    | ⟨2, _⟩ => show 0 = 0 + u.val; omega
    | ⟨3, _⟩ => show 0 = 0 + u'.val; omega)

end Corner

/-- The second kernel's `[4, 4, 8, 128]` partial sums of roots, as the last stretch finds them. -/
abbrev partials : S4x4x8x128.Idx → EReal := W4 m c (Proc.devRef .tc main_v7_2)

/-- THE RETURNED SUM OF ROOTS: the printed word of 1e-3 times the sum, over the sixteen (sequence, query block) pairs,
    of the kernel's partial sum read at the block's first entry. -/
theorem rootsum_out : (W5 m c (Proc.devRef .tc main_v11) : S_.Idx → EReal)
    = fun _ => Ideal.ofBits .f32 0x3A83126F#32
        * ∑ b : Fin 4, ∑ qi : Fin 4, partials m c (ix4 b qi 0 0) := by
  rw [rootsum_term]
  funext i
  rw [mulf_apply, constant_apply]
  show _ * Ideal.hostReduceAdd reducesTo_S4x4_S_d0_1 _ (Ideal.ofBits .f32 0x00000000#32) i = _
  rw [Ideal.hostReduceAdd_total _ (fun b => b.elim0), Ideal.ofBits_zero_f32, zero_add, sum_idx2]
  refine congrArg _ (Finset.sum_congr rfl fun b _ => Finset.sum_congr rfl fun qi _ => ?_)
  rw [shapeCast_ab11_ab_apply, cornerSlice_apply (by decide) (by decide)]
  rfl

end Cert.KernelIdeal.ValueHost

end
-- ==== Proof.KIPieces.lean ====
/-
  What each kind of point of the pairwise-product kernel leaves in each buffer, as the kernel's own arithmetic: every
  store is of a whole buffer, so a buffer's final contents are its last store's value — the indicator of the products,
  the running decoded scores (the previous scores, or zero at tile 0, plus this tile's contraction), the running sum of
  roots, and at tile 15 the scaled, biased scores and the copied sum.
-/
import proofs.«168794_j67723044324148_2_alg».proof.Proof.KIRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

set_option maxHeartbeats 1000000 in
theorem out1_A_4_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : out1_A_4 c i arg3 harg3 arg4 harg4 arg5 harg5 arg6 harg6 arg7 harg7 arg8 harg8 arg9 harg9 arg10 harg10 arg11 harg11 hc0 hc1 x0 x1 x2 x3 = k1_pay8 x0 x1 := by
  unfold out1_A_4
  rw [View.read_writes_eq_canon _ _ _ (cover1_A_4 c i arg3 harg3 arg4 harg4 arg5 harg5 arg6 harg6 arg7 harg7 arg8 harg8 arg9 harg9 arg10 harg10 arg11 harg11 hc0 hc1 x0 x1 x2 x3)]
  unfold kernelRun1_A
  dsimp only
  try sl_unfold_words
  first
    | rw [View.canon_cons_unit_zero (S := S1x32x128x128) hz4]
    | rw [View.canon_unit_zero (S := S1x32x128x128) hz4]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_A_0_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : sout1_A_0 c i arg3 harg3 arg4 harg4 arg5 harg5 arg6 harg6 arg7 harg7 arg8 harg8 arg9 harg9 arg10 harg10 arg11 harg11 hc0 hc1 x0 x1 x2 x3 = k1_pay1 (k1_pay6 x0 x1) x2 (k1_pay4 (F := F)) := by
  unfold sout1_A_0
  rw [View.read_writes_eq_canon _ _ _ (scover1_A_0 c i arg3 harg3 arg4 harg4 arg5 harg5 arg6 harg6 arg7 harg7 arg8 harg8 arg9 harg9 arg10 harg10 arg11 harg11 hc0 hc1 x0 x1 x2 x3)]
  unfold kernelRun1_A
  dsimp only
  try sl_unfold_words
  first
    | rw [View.canon_cons_unit_zero (S := S32x128x12) hz3]
    | rw [View.canon_unit_zero (S := S32x128x12) hz3]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_A_1_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : cond1_0 i) (hc1 : ¬cond1_1 i)
    (x0 : Vec F S1x32x128 .f32) (x1 : Vec F S1x128x128 .f32) (x2 : Vec F S128x12 .f32) (x3 : Vec F S1x12 .f32) : sout1_A_1 c i arg3 harg3 arg4 harg4 arg5 harg5 arg6 harg6 arg7 harg7 arg8 harg8 arg9 harg9 arg10 harg10 arg11 harg11 hc0 hc1 x0 x1 x2 x3 = k1_pay7 x0 x1 (k1_pay5 (F := F)) := by
  unfold sout1_A_1
  rw [View.read_writes_eq_canon _ _ _ (scover1_A_1 c i arg3 harg3 arg4 harg4 arg5 harg5 arg6 harg6 arg7 harg7 arg8 harg8 arg9 harg9 arg10 harg10 arg11 harg11 hc0 hc1 x0 x1 x2 x3)]
  unfold kernelRun1_A
  dsimp only
  try sl_unfold_words
  first
    | rw [View.canon_cons_unit_zero (S := S8x128) hz2]
    | rw [View.canon_unit_zero (S := S8x128) hz2]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem out1_B_4_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : out1_B_4 c i arg3 harg3 arg4 harg4 arg5 harg5 arg6 harg6 arg7 harg7 arg8 harg8 arg9 harg9 arg10 harg10 arg11 harg11 hc0 hc1 x0 x1 x2 x3 xs0 xs1 = k1_pay8 x0 x1 := by
  unfold out1_B_4
  rw [View.read_writes_eq_canon _ _ _ (cover1_B_4 c i arg3 harg3 arg4 harg4 arg5 harg5 arg6 harg6 arg7 harg7 arg8 harg8 arg9 harg9 arg10 harg10 arg11 harg11 hc0 hc1 x0 x1 x2 x3 xs0 xs1)]
  unfold kernelRun1_B
  dsimp only
  try sl_unfold_words
  first
    | rw [View.canon_cons_unit_zero (S := S1x32x128x128) hz4]
    | rw [View.canon_unit_zero (S := S1x32x128x128) hz4]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_B_0_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : sout1_B_0 c i arg3 harg3 arg4 harg4 arg5 harg5 arg6 harg6 arg7 harg7 arg8 harg8 arg9 harg9 arg10 harg10 arg11 harg11 hc0 hc1 x0 x1 x2 x3 xs0 xs1 = k1_pay1 (k1_pay6 x0 x1) x2 xs0 := by
  unfold sout1_B_0
  rw [View.read_writes_eq_canon _ _ _ (scover1_B_0 c i arg3 harg3 arg4 harg4 arg5 harg5 arg6 harg6 arg7 harg7 arg8 harg8 arg9 harg9 arg10 harg10 arg11 harg11 hc0 hc1 x0 x1 x2 x3 xs0 xs1)]
  unfold kernelRun1_B
  dsimp only
  try sl_unfold_words
  first
    | rw [View.canon_cons_unit_zero (S := S32x128x12) hz3]
    | rw [View.canon_unit_zero (S := S32x128x12) hz3]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_B_1_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : ¬cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : sout1_B_1 c i arg3 harg3 arg4 harg4 arg5 harg5 arg6 harg6 arg7 harg7 arg8 harg8 arg9 harg9 arg10 harg10 arg11 harg11 hc0 hc1 x0 x1 x2 x3 xs0 xs1 = k1_pay7 x0 x1 xs1 := by
  unfold sout1_B_1
  rw [View.read_writes_eq_canon _ _ _ (scover1_B_1 c i arg3 harg3 arg4 harg4 arg5 harg5 arg6 harg6 arg7 harg7 arg8 harg8 arg9 harg9 arg10 harg10 arg11 harg11 hc0 hc1 x0 x1 x2 x3 xs0 xs1)]
  unfold kernelRun1_B
  dsimp only
  try sl_unfold_words
  first
    | rw [View.canon_cons_unit_zero (S := S8x128) hz2]
    | rw [View.canon_unit_zero (S := S8x128) hz2]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem out1_C_4_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : out1_C_4 c i arg3 harg3 arg4 harg4 arg5 harg5 arg6 harg6 arg7 harg7 arg8 harg8 arg9 harg9 arg10 harg10 arg11 harg11 hc0 hc1 x0 x1 x2 x3 xs0 xs1 = k1_pay8 x0 x1 := by
  unfold out1_C_4
  rw [View.read_writes_eq_canon _ _ _ (cover1_C_4 c i arg3 harg3 arg4 harg4 arg5 harg5 arg6 harg6 arg7 harg7 arg8 harg8 arg9 harg9 arg10 harg10 arg11 harg11 hc0 hc1 x0 x1 x2 x3 xs0 xs1)]
  unfold kernelRun1_C
  dsimp only
  try sl_unfold_words
  first
    | rw [View.canon_cons_unit_zero (S := S1x32x128x128) hz4]
    | rw [View.canon_unit_zero (S := S1x32x128x128) hz4]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem out1_C_5_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : out1_C_5 c i arg3 harg3 arg4 harg4 arg5 harg5 arg6 harg6 arg7 harg7 arg8 harg8 arg9 harg9 arg10 harg10 arg11 harg11 hc0 hc1 x0 x1 x2 x3 xs0 xs1 = k1_pay2 (k1_pay1 (k1_pay6 x0 x1) x2 xs0) x3 := by
  unfold out1_C_5
  rw [View.read_writes_eq_canon _ _ _ (cover1_C_5 c i arg3 harg3 arg4 harg4 arg5 harg5 arg6 harg6 arg7 harg7 arg8 harg8 arg9 harg9 arg10 harg10 arg11 harg11 hc0 hc1 x0 x1 x2 x3 xs0 xs1)]
  unfold kernelRun1_C
  dsimp only
  try sl_unfold_words
  first
    | rw [View.canon_cons_unit_zero (S := S1x32x128x12) hz4]
    | rw [View.canon_unit_zero (S := S1x32x128x12) hz4]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem out1_C_6_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : out1_C_6 c i arg3 harg3 arg4 harg4 arg5 harg5 arg6 harg6 arg7 harg7 arg8 harg8 arg9 harg9 arg10 harg10 arg11 harg11 hc0 hc1 x0 x1 x2 x3 xs0 xs1 = k1_pay3 (k1_pay7 x0 x1 xs1) := by
  unfold out1_C_6
  rw [View.read_writes_eq_canon _ _ _ (cover1_C_6 c i arg3 harg3 arg4 harg4 arg5 harg5 arg6 harg6 arg7 harg7 arg8 harg8 arg9 harg9 arg10 harg10 arg11 harg11 hc0 hc1 x0 x1 x2 x3 xs0 xs1)]
  unfold kernelRun1_C
  dsimp only
  try sl_unfold_words
  first
    | rw [View.canon_cons_unit_zero (S := S1x1x8x128) hz4]
    | rw [View.canon_unit_zero (S := S1x1x8x128) hz4]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_C_0_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : sout1_C_0 c i arg3 harg3 arg4 harg4 arg5 harg5 arg6 harg6 arg7 harg7 arg8 harg8 arg9 harg9 arg10 harg10 arg11 harg11 hc0 hc1 x0 x1 x2 x3 xs0 xs1 = k1_pay1 (k1_pay6 x0 x1) x2 xs0 := by
  unfold sout1_C_0
  rw [View.read_writes_eq_canon _ _ _ (scover1_C_0 c i arg3 harg3 arg4 harg4 arg5 harg5 arg6 harg6 arg7 harg7 arg8 harg8 arg9 harg9 arg10 harg10 arg11 harg11 hc0 hc1 x0 x1 x2 x3 xs0 xs1)]
  unfold kernelRun1_C
  dsimp only
  try sl_unfold_words
  first
    | rw [View.canon_cons_unit_zero (S := S32x128x12) hz3]
    | rw [View.canon_unit_zero (S := S32x128x12) hz3]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

set_option maxHeartbeats 1000000 in
theorem sout1_C_1_eq (c : Dev nD) (i : grid1.Coords) (arg3 : Memref sig .tc .vmem S1x32x128 .f32) (harg3 : arg3.IsWhole) (arg4 : Memref sig .tc .vmem S1x128x128 .f32) (harg4 : arg4.IsWhole) (arg5 : Memref sig .tc .vmem S128x12 .f32) (harg5 : arg5.IsWhole) (arg6 : Memref sig .tc .vmem S1x12 .f32) (harg6 : arg6.IsWhole) (arg7 : Memref sig .tc .vmem S1x32x128x128 .i32) (harg7 : arg7.IsWhole) (arg8 : Memref sig .tc .vmem S1x32x128x12 .f32) (harg8 : arg8.IsWhole) (arg9 : Memref sig .tc .vmem S1x1x8x128 .f32) (harg9 : arg9.IsWhole) (arg10 : Memref sig .tc .vmem S32x128x12 .f32) (harg10 : arg10.IsWhole) (arg11 : Memref sig .tc .vmem S8x128 .f32) (harg11 : arg11.IsWhole) (hc0 : ¬cond1_0 i) (hc1 : cond1_1 i)
    (x0 : Vec F S1x32x128 .f32) (x1 : Vec F S1x128x128 .f32) (x2 : Vec F S128x12 .f32) (x3 : Vec F S1x12 .f32) (xs0 : Vec F S32x128x12 .f32) (xs1 : Vec F S8x128 .f32) : sout1_C_1 c i arg3 harg3 arg4 harg4 arg5 harg5 arg6 harg6 arg7 harg7 arg8 harg8 arg9 harg9 arg10 harg10 arg11 harg11 hc0 hc1 x0 x1 x2 x3 xs0 xs1 = k1_pay7 x0 x1 xs1 := by
  unfold sout1_C_1
  rw [View.read_writes_eq_canon _ _ _ (scover1_C_1 c i arg3 harg3 arg4 harg4 arg5 harg5 arg6 harg6 arg7 harg7 arg8 harg8 arg9 harg9 arg10 harg10 arg11 harg11 hc0 hc1 x0 x1 x2 x3 xs0 xs1)]
  unfold kernelRun1_C
  dsimp only
  try sl_unfold_words
  first
    | rw [View.canon_cons_unit_zero (S := S8x128) hz2]
    | rw [View.canon_unit_zero (S := S8x128) hz2]
  try sl_unfold_words
  simp only [View.readAt_eq_ld, harg3.read_unread, harg4.read_unread, harg5.read_unread, harg6.read_unread, harg10.read_unread, harg11.read_unread,
    View.ld_unit_zero (S := S1x32x128) hz3, View.ld_unit_zero (S := S1x128x128) hz3, View.ld_unit_zero (S := S128x12) hz2,
    View.ld_unit_zero (S := S1x12) hz2, View.ld_unit_zero (S := S32x128x12) hz3, View.ld_unit_zero (S := S8x128) hz2,
    View.readCov_unit_zero _ (S := S32x128x12) hz3, View.readCov_unit_zero _ (S := S8x128) hz2]
  try rfl

end Cert.KernelIdeal.Hand

end
-- ==== Proof.TileSums.lean ====
/-
  Sums cut into tiles, on the extended reals (only commutativity and associativity of the sum are used).

  The 2048 features are 16 tiles of 128 and the 128 query positions are 4 blocks of 32; a sum over the features is the
  sum over the tiles of the sums inside each tile, a running sum over the tiles started from zero is the sum over the
  tiles, and the sum of roots and the score of the specification are rewritten over tiles and blocks. The printed words
  of one eighth and of eight are read once, as the reals they denote: a product with the first is the quotient by the
  second on every extended real.
-/
import Mathlib.Algebra.BigOperators.Fin
import Mathlib.Logic.Equiv.Fin.Basic
import Idealize.ShloMosaic.PureOps.Ideal
import Idealize.ShloMosaic.PureOps.Ideal.Laws
import Idealize.ShloMosaic.Lib.ValueIdx
import proofs.«168794_j67723044324148_2_alg».proof.Proof.Spec

noncomputable section

namespace Cert.TileSums

open Idealize.ShloMosaic

/-! ## Tiles of features and blocks of query positions -/

/-- Feature `h'` of tile `t`: tiles of 128 consecutive features. -/
def feat (t : Fin 16) (h' : Fin 128) : Fin 2048 := ⟨t.val * 128 + h'.val, by have := t.isLt; have := h'.isLt; omega⟩

@[simp] theorem feat_val (t : Fin 16) (h' : Fin 128) : (feat t h').val = t.val * 128 + h'.val := rfl

/-- Query position `a` of block `qi`: blocks of 32 consecutive positions. -/
def qpos (qi : Fin 4) (a : Fin 32) : Fin 128 := ⟨qi.val * 32 + a.val, by have := qi.isLt; have := a.isLt; omega⟩

@[simp] theorem qpos_val (qi : Fin 4) (a : Fin 32) : (qpos qi a).val = qi.val * 32 + a.val := rfl

/-- A sum over the 2048 features is the sum over the 16 tiles of the sums over each tile's 128 features. -/
theorem sum_tiles (f : Fin 2048 → EReal) : ∑ h, f h = ∑ t : Fin 16, ∑ h' : Fin 128, f (feat t h') := by
  rw [← Fintype.sum_prod_type' (f := fun t h' => f (feat t h'))]
  refine (Fintype.sum_equiv (finProdFinEquiv (m := 16) (n := 128)) (fun x => f (feat x.1 x.2)) f (fun x => ?_)).symm
  refine congrArg f (Fin.ext ?_)
  show x.1.val * 128 + x.2.val = x.2.val + 128 * x.1.val
  omega

/-- A sum over the 128 query positions is the sum over the 4 blocks of the sums over each block's 32 positions. -/
theorem sum_qblocks (g : Fin 128 → EReal) : ∑ q, g q = ∑ qi : Fin 4, ∑ a : Fin 32, g (qpos qi a) := by
  rw [← Fintype.sum_prod_type' (f := fun qi a => g (qpos qi a))]
  refine (Fintype.sum_equiv (finProdFinEquiv (m := 4) (n := 32)) (fun x => g (qpos x.1 x.2)) g (fun x => ?_)).symm
  refine congrArg g (Fin.ext ?_)
  show x.1.val * 32 + x.2.val = x.2.val + 32 * x.1.val
  omega

/-! ## Running sums over the tiles -/

/-- The running sum of a sequence, started from zero: after step `j` it holds the terms `0 … j`. -/
def runSum (d : ℕ → EReal) : ℕ → EReal
  | 0 => 0 + d 0
  | j + 1 => runSum d j + d (j + 1)

theorem runSum_eq (d : ℕ → EReal) (j : ℕ) : runSum d j = ∑ i ∈ Finset.range (j + 1), d i := by
  induction j with
  | zero => rw [runSum, zero_add, Finset.sum_range_one]
  | succ j ih => rw [runSum, ih, Finset.sum_range_succ d (j + 1)]

/-- After the last of 16 steps the running sum is the sum over the 16 tiles. -/
theorem runSum_last (d : ℕ → EReal) : runSum d 15 = ∑ t : Fin 16, d t.val :=
  (runSum_eq d 15).trans (Finset.sum_range d)

/-! ## The sum of roots over blocks and tiles -/

/-- The specification's sum of roots, with the query positions cut into blocks, the features into tiles, and the
    tile sum moved outside the sums over the positions inside a block and over the key positions. -/
theorem rootSum_tiles (A : Fin 4 → Fin 128 → Fin 128 → Fin 2048 → EReal) :
    Cert.QKSpec.rootSum A = ∑ b : Fin 4, ∑ qi : Fin 4, ∑ t : Fin 16, ∑ a : Fin 32, ∑ k : Fin 128, ∑ h' : Fin 128,
      Cert.QKSpec.root (A b (qpos qi a) k (feat t h')) := by
  unfold Cert.QKSpec.rootSum
  refine Finset.sum_congr rfl fun b _ => ?_
  rw [sum_qblocks]
  refine Finset.sum_congr rfl fun qi _ => ?_
  have inner : ∀ a : Fin 32, (∑ k : Fin 128, ∑ h : Fin 2048, Cert.QKSpec.root (A b (qpos qi a) k h))
      = ∑ t : Fin 16, ∑ k : Fin 128, ∑ h' : Fin 128, Cert.QKSpec.root (A b (qpos qi a) k (feat t h')) := fun a =>
    (Finset.sum_congr rfl fun k _ => sum_tiles fun h => Cert.QKSpec.root (A b (qpos qi a) k h)).trans Finset.sum_comm
  exact (Finset.sum_congr rfl fun a _ => inner a).trans Finset.sum_comm

/-! ## One eighth and eight -/

/-- The printed word `0x3E000000` denotes the real `1/8`. -/
theorem ofBits_eighth : Ideal.ofBits .f32 0x3E000000#32 = ((1 / 8 : ℝ) : EReal) := by
  simp [Ideal.ofBits, Ideal.ieee, -EReal.coe_mul]; norm_num

/-- The printed word `0x41000000` denotes the real `8`. -/
theorem ofBits_eight : Ideal.ofBits .f32 0x41000000#32 = ((8 : ℝ) : EReal) := by
  simp [Ideal.ofBits, Ideal.ieee, -EReal.coe_mul]; norm_num

/-- The product with one eighth is the quotient by eight, on every extended real. -/
theorem eighth (s : EReal) : s * Ideal.ofBits .f32 0x3E000000#32 = Ideal.div s (Ideal.ofBits .f32 0x41000000#32) := by
  rw [ofBits_eighth, ofBits_eight, Ideal.div_coe (by norm_num : (8 : ℝ) ≠ 0)]

/-! ## The score over tiles -/

/-- The specification's score with the features cut into tiles and the division by eight written as the product
    with one eighth. -/
theorem score_tiles (A : Fin 4 → Fin 128 → Fin 128 → Fin 2048 → EReal) (Wd : Fin 2048 → Fin 12 → EReal) (bd : Fin 12 → EReal)
    (b : Fin 4) (q k : Fin 128) (n : Fin 12) :
    Cert.QKSpec.scoreRaw A Wd bd b q k n
      = (∑ t : Fin 16, ∑ h' : Fin 128, A b q k (feat t h') * Wd (feat t h') n) * Ideal.ofBits .f32 0x3E000000#32 + bd n := by
  unfold Cert.QKSpec.scoreRaw
  rw [eighth, sum_tiles]

end Cert.TileSums

end
-- ==== Proof.KIValue1Core.lean ====
/-
  The second kernel's arithmetic at one grid point, in terms of the whole arrays.

  At grid point `(b, qi, dh)` the kernel holds a block of 32 query rows, a block of 128 key rows and a block of 128
  decoder rows, each restricted to the 128 features of tile `dh`. One step adds to the score accumulator the
  products of this tile contracted against the decoder block, adds to the sum-of-roots accumulator the roots of
  this tile's products, and writes this tile's indicators. Over the 16 tiles the accumulators are running sums;
  at the last tile the score accumulator, scaled and shifted, is the specification's score, and the running sums
  of roots over every batch and query block add up to the specification's sum of roots.
-/
import Idealize.ShloMosaic.Lib.ValueIdx
import Idealize.ShloMosaic.PureOps.Ideal.Laws
import proofs.«168794_j67723044324148_2_alg».proof.Proof.Spec
import proofs.«168794_j67723044324148_2_alg».proof.Proof.TileSums
import proofs.«168794_j67723044324148_2_alg».proof.Proof.Payloads

noncomputable section

namespace Cert.KernelIdeal.Value1

open Idealize.ShloMosaic Idealize.ShloMosaic.ValueIdx Cert.KernelIdeal Cert.KernelIdeal.Gen Cert.TileSums Cert.QKSpec
open Cert.KernelIdeal.PayloadValue

/-! ## The products of the whole arrays, and one tile's share of the two sums -/

/-- The pairwise feature products of the whole query and key arrays. -/
def prodArr (Q K : Vec Ideal S4x128x2048 .f32) : Fin 4 → Fin 128 → Fin 128 → Fin 2048 → EReal :=
  Cert.QKSpec.act (fun b s h => Q (ix3 b s h)) (fun b s h => K (ix3 b s h))

/-- Tile `t`'s share of the contraction against column `n` of the decoder (zero past the last tile). -/
def tileDot (Q K : Vec Ideal S4x128x2048 .f32) (Wd : Vec Ideal S2048x12 .f32) (b : Fin 4) (q k : Fin 128) (n : Fin 12) (t : ℕ) : EReal :=
  if ht : t < 16 then ∑ h' : Fin 128, prodArr Q K b q k (feat ⟨t, ht⟩ h') * Wd (ix2 (feat ⟨t, ht⟩ h') n) else 0

/-- Tile `t`'s share of the sum of roots over query block `qi` of batch `b` (zero past the last tile). -/
def tileRoot (Q K : Vec Ideal S4x128x2048 .f32) (b qi : Fin 4) (t : ℕ) : EReal :=
  if ht : t < 16 then ∑ a : Fin 32, ∑ k : Fin 128, ∑ h' : Fin 128, root (prodArr Q K b (qpos qi a) k (feat ⟨t, ht⟩ h')) else 0

theorem tileDot_fin (Q K : Vec Ideal S4x128x2048 .f32) (Wd : Vec Ideal S2048x12 .f32) (b : Fin 4) (q k : Fin 128) (n : Fin 12) (t : Fin 16) :
    tileDot Q K Wd b q k n t.val = ∑ h' : Fin 128, prodArr Q K b q k (feat t h') * Wd (ix2 (feat t h') n) := by
  unfold tileDot
  rw [dif_pos t.isLt]

theorem tileRoot_fin (Q K : Vec Ideal S4x128x2048 .f32) (b qi : Fin 4) (t : Fin 16) :
    tileRoot Q K b qi t.val = ∑ a : Fin 32, ∑ k : Fin 128, ∑ h' : Fin 128, root (prodArr Q K b (qpos qi a) k (feat t h')) := by
  unfold tileRoot
  rw [dif_pos t.isLt]

theorem runSum_zero (d : ℕ → EReal) : runSum d 0 = 0 + d 0 := by rw [runSum]

theorem runSum_succ (d : ℕ → EReal) (j : ℕ) : runSum d (j + 1) = runSum d j + d (j + 1) := by rw [runSum]

/-- An entry of the product block is the whole arrays' product at the block's place. -/
theorem prod_block (Q K : Vec Ideal S4x128x2048 .f32) (b qi : Fin 4) (dh : Fin 16) (x0 : Vec Ideal S1x32x128 .f32) (x1 : Vec Ideal S1x128x128 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h'))) (a : Fin 32) (k h' : Fin 128) :
    x0 (ix3 0 a h') * x1 (ix3 0 k h') = prodArr Q K b (qpos qi a) k (feat dh h') := by
  rw [hx0, hx1]
  rfl

/-! ## One step at a grid point -/

/-- One step of the score accumulator adds this tile's share of the contraction. -/
theorem acc_step (Q K : Vec Ideal S4x128x2048 .f32) (Wd : Vec Ideal S2048x12 .f32) (b qi : Fin 4) (dh : Fin 16) (x0 : Vec Ideal S1x32x128 .f32) (x1 : Vec Ideal S1x128x128 .f32) (x2 : Vec Ideal S128x12 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (hx2 : ∀ (h' : Fin 128) (n : Fin 12), x2 (ix2 h' n) = Wd (ix2 (feat dh h') n))
    (acc : Vec Ideal S32x128x12 .f32) (a : Fin 32) (k : Fin 128) (n : Fin 12) :
    k1_pay1 (k1_pay6 x0 x1) x2 acc (ix3 a k n) = acc (ix3 a k n) + tileDot Q K Wd b (qpos qi a) k n dh.val := by
  rw [acc_entry, tileDot_fin]
  refine congrArg (acc (ix3 a k n) + ·) (Finset.sum_congr rfl fun h' _ => ?_)
  rw [act_entry, hx2, prod_block Q K b qi dh x0 x1 hx0 hx1]

/-- One step of the sum-of-roots accumulator adds this tile's share of the roots, at every entry of its block. -/
theorem root_step (Q K : Vec Ideal S4x128x2048 .f32) (b qi : Fin 4) (dh : Fin 16) (x0 : Vec Ideal S1x32x128 .f32) (x1 : Vec Ideal S1x128x128 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (r : Vec Ideal S8x128 .f32) (u : Fin 8) (v : Fin 128) :
    k1_pay7 x0 x1 r (ix2 u v) = r (ix2 u v) + tileRoot Q K b qi dh.val := by
  rw [root_entry, tileRoot_fin]
  refine congrArg (r (ix2 u v) + ·) (Finset.sum_congr rfl fun a _ => Finset.sum_congr rfl fun k _ =>
    Finset.sum_congr rfl fun h' _ => ?_)
  rw [prod_block Q K b qi dh x0 x1 hx0 hx1]

/-- The indicator block is the indicator of the whole arrays' products at the block's place. -/
theorem fire_block (Q K : Vec Ideal S4x128x2048 .f32) (b qi : Fin 4) (dh : Fin 16) (x0 : Vec Ideal S1x32x128 .f32) (x1 : Vec Ideal S1x128x128 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (a : Fin 32) (k h' : Fin 128) :
    k1_pay8 x0 x1 (ix4 0 a k h') = fire (prodArr Q K b (qpos qi a) k (feat dh h')) := by
  rw [fire_entry, prod_block Q K b qi dh x0 x1 hx0 hx1]

/-! ## The running sums: the first tile and the later ones -/

/-- At the first tile the score accumulator, started from zero, holds the running sum's first term. -/
theorem acc_start (Q K : Vec Ideal S4x128x2048 .f32) (Wd : Vec Ideal S2048x12 .f32) (b qi : Fin 4) (dh : Fin 16) (x0 : Vec Ideal S1x32x128 .f32) (x1 : Vec Ideal S1x128x128 .f32) (x2 : Vec Ideal S128x12 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (hx2 : ∀ (h' : Fin 128) (n : Fin 12), x2 (ix2 h' n) = Wd (ix2 (feat dh h') n))
    (hdh : dh.val = 0) (a : Fin 32) (k : Fin 128) (n : Fin 12) :
    k1_pay1 (k1_pay6 x0 x1) x2 (k1_pay4 (F := Ideal)) (ix3 a k n) = runSum (tileDot Q K Wd b (qpos qi a) k n) 0 := by
  rw [acc_step Q K Wd b qi dh x0 x1 x2 hx0 hx1 hx2, zero_entry4, hdh, runSum_zero]

/-- At a later tile the score accumulator goes from one running sum to the next. -/
theorem acc_succ (Q K : Vec Ideal S4x128x2048 .f32) (Wd : Vec Ideal S2048x12 .f32) (b qi : Fin 4) (dh : Fin 16) (x0 : Vec Ideal S1x32x128 .f32) (x1 : Vec Ideal S1x128x128 .f32) (x2 : Vec Ideal S128x12 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (hx2 : ∀ (h' : Fin 128) (n : Fin 12), x2 (ix2 h' n) = Wd (ix2 (feat dh h') n))
    (acc : Vec Ideal S32x128x12 .f32) (a : Fin 32) (k : Fin 128) (n : Fin 12) (j : ℕ)
    (hacc : acc (ix3 a k n) = runSum (tileDot Q K Wd b (qpos qi a) k n) j) (hdh : dh.val = j + 1) :
    k1_pay1 (k1_pay6 x0 x1) x2 acc (ix3 a k n) = runSum (tileDot Q K Wd b (qpos qi a) k n) (j + 1) := by
  rw [acc_step Q K Wd b qi dh x0 x1 x2 hx0 hx1 hx2, hacc, hdh, runSum_succ]

/-- At the first tile the sum-of-roots accumulator, started from zero, holds the running sum's first term. -/
theorem root_start (Q K : Vec Ideal S4x128x2048 .f32) (b qi : Fin 4) (dh : Fin 16) (x0 : Vec Ideal S1x32x128 .f32) (x1 : Vec Ideal S1x128x128 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (hdh : dh.val = 0) (u : Fin 8) (v : Fin 128) :
    k1_pay7 x0 x1 (k1_pay5 (F := Ideal)) (ix2 u v) = runSum (tileRoot Q K b qi) 0 := by
  rw [root_step Q K b qi dh x0 x1 hx0 hx1, zero_entry5, hdh, runSum_zero]

/-- At a later tile the sum-of-roots accumulator goes from one running sum to the next. -/
theorem root_succ (Q K : Vec Ideal S4x128x2048 .f32) (b qi : Fin 4) (dh : Fin 16) (x0 : Vec Ideal S1x32x128 .f32) (x1 : Vec Ideal S1x128x128 .f32)
    (hx0 : ∀ (a : Fin 32) (h' : Fin 128), x0 (ix3 0 a h') = Q (ix3 b (qpos qi a) (feat dh h')))
    (hx1 : ∀ (k h' : Fin 128), x1 (ix3 0 k h') = K (ix3 b k (feat dh h')))
    (r : Vec Ideal S8x128 .f32) (u : Fin 8) (v : Fin 128) (j : ℕ)
    (hr : r (ix2 u v) = runSum (tileRoot Q K b qi) j) (hdh : dh.val = j + 1) :
    k1_pay7 x0 x1 r (ix2 u v) = runSum (tileRoot Q K b qi) (j + 1) := by
  rw [root_step Q K b qi dh x0 x1 hx0 hx1, hr, hdh, runSum_succ]

/-! ## After the last tile -/

/-- The score block written at the last tile is the specification's score at the block's place. -/
theorem score_final (Q K : Vec Ideal S4x128x2048 .f32) (Wd : Vec Ideal S2048x12 .f32) (bd2 : Vec Ideal S1x12 .f32) (b qi : Fin 4)
    (acc : Vec Ideal S32x128x12 .f32) (x3 : Vec Ideal S1x12 .f32) (hx3 : ∀ n : Fin 12, x3 (ix2 0 n) = bd2 (ix2 0 n))
    (hacc : ∀ (a : Fin 32) (k : Fin 128) (n : Fin 12), acc (ix3 a k n) = runSum (tileDot Q K Wd b (qpos qi a) k n) 15)
    (a : Fin 32) (k : Fin 128) (n : Fin 12) :
    k1_pay2 acc x3 (ix4 0 a k n)
      = scoreRaw (prodArr Q K) (fun h n => Wd (ix2 h n)) (fun n => bd2 (ix2 0 n)) b (qpos qi a) k n := by
  rw [final_entry, hacc, hx3, runSum_last, score_tiles]
  refine congrArg (fun s => s * Ideal.ofBits .f32 0x3E000000#32 + bd2 (ix2 0 n)) (Finset.sum_congr rfl fun t _ => ?_)
  rw [tileDot_fin]

/-- The running sums of roots after the last tile, over every batch and query block, add up to the specification's
    sum of roots. -/
theorem root_total (Q K : Vec Ideal S4x128x2048 .f32) :
    ∑ b : Fin 4, ∑ qi : Fin 4, runSum (tileRoot Q K b qi) 15 = rootSum (prodArr Q K) := by
  rw [rootSum_tiles]
  refine Finset.sum_congr rfl fun b _ => Finset.sum_congr rfl fun qi _ => ?_
  rw [runSum_last]
  refine Finset.sum_congr rfl fun t _ => ?_
  rw [tileRoot_fin]

end Cert.KernelIdeal.Value1

end
-- ==== Proof.KIValue1Points.lean ====
/-
  The second kernel, point by point.

  Its 256 grid points run over (batch, query block, feature tile) = 4 × 4 × 16 with the feature tile innermost: point
  `t` is batch `t / 64`, query block `t / 16 mod 4`, feature tile `t mod 16`. At a point the four input blocks are the
  restrictions of the whole arrays to that batch, query block and feature tile. By induction over the points the two
  scratch buffers hold, after a point, the running sums over the feature tiles up to that point's of the decoded
  scores and of the roots; the indicator block is the indicator of the products at every point; and at the last
  feature tile the score block is the specification's score and the root-sum block the whole running sum.
-/
import Idealize.ShloMosaic.Lib.Pipeline.Value
import Idealize.ShloMosaic.Lib.ValueIdx
import proofs.«168794_j67723044324148_2_alg».proof.Proof.KIRegion1
import proofs.«168794_j67723044324148_2_alg».proof.Proof.KIPieces
import proofs.«168794_j67723044324148_2_alg».proof.Proof.KIValue1Core

noncomputable section

namespace Cert.KernelIdeal.Value1

open Idealize.ShloMosaic Idealize.ShloMosaic.TcCoe Idealize.ShloMosaic.ValueIdx Idealize.SL.Sem
open Cert.KernelIdeal Cert.KernelIdeal.Gen Cert.KernelIdeal.Hand Cert.KernelIdeal.PayloadValue Cert.TileSums Cert.QKSpec

/-! ## A point's batch, query block and feature tile -/

theorem pos_lt (t : Fin cfg1.N) : t.val < 256 := Nat.lt_of_lt_of_eq t.isLt N_1

/-- The batch of point `t`. -/
def bOf (t : Fin cfg1.N) : Fin 4 := ⟨t.val / 64, by have := pos_lt t; omega⟩
/-- The query block of point `t`. -/
def qiOf (t : Fin cfg1.N) : Fin 4 := ⟨t.val / 16 % 4, by omega⟩
/-- The feature tile of point `t`. -/
def dhOf (t : Fin cfg1.N) : Fin 16 := ⟨t.val % 16, by omega⟩

/-- The printed index maps of the four input windows, decided over the grid. -/
theorem idx_facts1 : ∀ t : Fin cfg1.N,
      win1_0.index t (0 : Fin 3) = t.val / 64 ∧ win1_0.index t (1 : Fin 3) = t.val / 16 % 4 ∧ win1_0.index t (2 : Fin 3) = t.val % 16
    ∧ win1_1.index t (0 : Fin 3) = t.val / 64 ∧ win1_1.index t (1 : Fin 3) = 0 ∧ win1_1.index t (2 : Fin 3) = t.val % 16
    ∧ win1_2.index t (0 : Fin 2) = t.val % 16 ∧ win1_2.index t (1 : Fin 2) = 0
    ∧ win1_3.index t (0 : Fin 2) = 0 ∧ win1_3.index t (1 : Fin 2) = 0 :=
  (by decide +kernel : ∀ t : Fin grid1.N, _)

section Points
variable (V : (c : Dev nD) → (b : Ref sig .tc) → Buf (Elt Ideal) ((c : Thread nD τ).loc b)) (c : Dev nD)

/-! ## The input blocks at a point -/

/-- The query block at point `t`: batch `bOf t`, the 32 positions of query block `qiOf t`, the 128 features of tile `dhOf t`. -/
theorem blockQ (t : Fin cfg1.N) (a : Fin 32) (h' : Fin 128) :
    (iblk1 V c 0 t : Vec Ideal S1x32x128 .f32) (ix3 0 a h')
      = (V c main_v4 : Vec Ideal S4x128x2048 .f32) (ix3 (bOf t) (qpos (qiOf t) a) (feat (dhOf t) h')) := by
  obtain ⟨e0, e1, e2, -⟩ := idx_facts1 t
  unfold iblk1
  rw [View.read_apply]
  show V c main_v4 (((cfg1.win 0).blk t).view.emb (ix3 0 a h')) = V c main_v4 (ix3 (bOf t) (qpos (qiOf t) a) (feat (dhOf t) h'))
  refine congrArg _ (funext fun ax => Fin.ext ?_)
  match ax with
  | ⟨0, _⟩ => show win1_0.index t (0 : Fin 3) * 1 + 1 * 0 = t.val / 64; omega
  | ⟨1, _⟩ => show win1_0.index t (1 : Fin 3) * 32 + 1 * a.val = t.val / 16 % 4 * 32 + a.val; omega
  | ⟨2, _⟩ => show win1_0.index t (2 : Fin 3) * 128 + 1 * h'.val = t.val % 16 * 128 + h'.val; omega

/-- The key block at point `t`: batch `bOf t`, every key position, the 128 features of tile `dhOf t`. -/
theorem blockK (t : Fin cfg1.N) (k h' : Fin 128) :
    (iblk1 V c 1 t : Vec Ideal S1x128x128 .f32) (ix3 0 k h')
      = (V c main_v5 : Vec Ideal S4x128x2048 .f32) (ix3 (bOf t) k (feat (dhOf t) h')) := by
  obtain ⟨-, -, -, e0, e1, e2, -⟩ := idx_facts1 t
  unfold iblk1
  rw [View.read_apply]
  show V c main_v5 (((cfg1.win 1).blk t).view.emb (ix3 0 k h')) = V c main_v5 (ix3 (bOf t) k (feat (dhOf t) h'))
  refine congrArg _ (funext fun ax => Fin.ext ?_)
  match ax with
  | ⟨0, _⟩ => show win1_1.index t (0 : Fin 3) * 1 + 1 * 0 = t.val / 64; omega
  | ⟨1, _⟩ => show win1_1.index t (1 : Fin 3) * 128 + 1 * k.val = k.val; omega
  | ⟨2, _⟩ => show win1_1.index t (2 : Fin 3) * 128 + 1 * h'.val = t.val % 16 * 128 + h'.val; omega

/-- The decoder block at point `t`: the 128 rows of tile `dhOf t`. -/
theorem blockW (t : Fin cfg1.N) (h' : Fin 128) (n : Fin 12) :
    (iblk1 V c 2 t : Vec Ideal S128x12 .f32) (ix2 h' n) = (V c main_arg5 : Vec Ideal S2048x12 .f32) (ix2 (feat (dhOf t) h') n) := by
  obtain ⟨-, -, -, -, -, -, e0, e1, -⟩ := idx_facts1 t
  unfold iblk1
  rw [View.read_apply]
  show V c main_arg5 (((cfg1.win 2).blk t).view.emb (ix2 h' n)) = V c main_arg5 (ix2 (feat (dhOf t) h') n)
  refine congrArg _ (funext fun ax => Fin.ext ?_)
  match ax with
  | ⟨0, _⟩ => show win1_2.index t (0 : Fin 2) * 128 + 1 * h'.val = t.val % 16 * 128 + h'.val; omega
  | ⟨1, _⟩ => show win1_2.index t (1 : Fin 2) * 12 + 1 * n.val = n.val; omega

/-- The bias block at every point: the whole bias row. -/
theorem blockB (t : Fin cfg1.N) (n : Fin 12) :
    (iblk1 V c 3 t : Vec Ideal S1x12 .f32) (ix2 0 n) = (V c main_v6 : Vec Ideal S1x12 .f32) (ix2 0 n) := by
  obtain ⟨-, -, -, -, -, -, -, -, e0, e1⟩ := idx_facts1 t
  unfold iblk1
  rw [View.read_apply]
  show V c main_v6 (((cfg1.win 3).blk t).view.emb (ix2 0 n)) = V c main_v6 (ix2 0 n)
  refine congrArg _ (funext fun ax => Fin.ext ?_)
  match ax with
  | ⟨0, _⟩ => show win1_3.index t (0 : Fin 2) * 1 + 1 * 0 = 0; omega
  | ⟨1, _⟩ => show win1_3.index t (1 : Fin 2) * 12 + 1 * n.val = n.val; omega

/-! ## What each kind of point leaves, as the kernel's arithmetic of the point's blocks -/

theorem afterA_fire (t : Fin cfg1.N) (hc0 : cond1_0 (grid1.coords t)) (hc1 : ¬cond1_1 (grid1.coords t)) : (afterA V c t hc0 hc1).1 = k1_pay8 (iblk1 V c 0 t) (iblk1 V c 1 t) := by
  unfold afterA
  dsimp only
  exact out1_A_4_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t)

theorem afterA_acc (t : Fin cfg1.N) (hc0 : cond1_0 (grid1.coords t)) (hc1 : ¬cond1_1 (grid1.coords t)) : (afterA V c t hc0 hc1).2.2.2.1 = k1_pay1 (k1_pay6 (iblk1 V c 0 t) (iblk1 V c 1 t)) (iblk1 V c 2 t) (k1_pay4 (F := Ideal)) := by
  unfold afterA
  dsimp only
  exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t)

theorem afterA_root (t : Fin cfg1.N) (hc0 : cond1_0 (grid1.coords t)) (hc1 : ¬cond1_1 (grid1.coords t)) : (afterA V c t hc0 hc1).2.2.2.2 = k1_pay7 (iblk1 V c 0 t) (iblk1 V c 1 t) (k1_pay5 (F := Ideal)) := by
  unfold afterA
  dsimp only
  exact sout1_A_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t)

theorem afterB_fire (t : Fin cfg1.N) (hc0 : ¬cond1_0 (grid1.coords t)) (hc1 : ¬cond1_1 (grid1.coords t)) (xs0 : Vec Ideal S32x128x12 .f32) (xs1 : Vec Ideal S8x128 .f32) : (afterB V c t hc0 hc1 xs0 xs1).1 = k1_pay8 (iblk1 V c 0 t) (iblk1 V c 1 t) := by
  unfold afterB
  dsimp only
  exact out1_B_4_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterB_acc (t : Fin cfg1.N) (hc0 : ¬cond1_0 (grid1.coords t)) (hc1 : ¬cond1_1 (grid1.coords t)) (xs0 : Vec Ideal S32x128x12 .f32) (xs1 : Vec Ideal S8x128 .f32) : (afterB V c t hc0 hc1 xs0 xs1).2.2.2.1 = k1_pay1 (k1_pay6 (iblk1 V c 0 t) (iblk1 V c 1 t)) (iblk1 V c 2 t) xs0 := by
  unfold afterB
  dsimp only
  exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterB_root (t : Fin cfg1.N) (hc0 : ¬cond1_0 (grid1.coords t)) (hc1 : ¬cond1_1 (grid1.coords t)) (xs0 : Vec Ideal S32x128x12 .f32) (xs1 : Vec Ideal S8x128 .f32) : (afterB V c t hc0 hc1 xs0 xs1).2.2.2.2 = k1_pay7 (iblk1 V c 0 t) (iblk1 V c 1 t) xs1 := by
  unfold afterB
  dsimp only
  exact sout1_B_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterC_fire (t : Fin cfg1.N) (hc0 : ¬cond1_0 (grid1.coords t)) (hc1 : cond1_1 (grid1.coords t)) (xs0 : Vec Ideal S32x128x12 .f32) (xs1 : Vec Ideal S8x128 .f32) : (afterC V c t hc0 hc1 xs0 xs1).1 = k1_pay8 (iblk1 V c 0 t) (iblk1 V c 1 t) := by
  unfold afterC
  dsimp only
  exact out1_C_4_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterC_score (t : Fin cfg1.N) (hc0 : ¬cond1_0 (grid1.coords t)) (hc1 : cond1_1 (grid1.coords t)) (xs0 : Vec Ideal S32x128x12 .f32) (xs1 : Vec Ideal S8x128 .f32) : (afterC V c t hc0 hc1 xs0 xs1).2.1 = k1_pay2 (k1_pay1 (k1_pay6 (iblk1 V c 0 t) (iblk1 V c 1 t)) (iblk1 V c 2 t) xs0) (iblk1 V c 3 t) := by
  unfold afterC
  dsimp only
  exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterC_rootsum (t : Fin cfg1.N) (hc0 : ¬cond1_0 (grid1.coords t)) (hc1 : cond1_1 (grid1.coords t)) (xs0 : Vec Ideal S32x128x12 .f32) (xs1 : Vec Ideal S8x128 .f32) : (afterC V c t hc0 hc1 xs0 xs1).2.2.1 = k1_pay3 (k1_pay7 (iblk1 V c 0 t) (iblk1 V c 1 t) xs1) := by
  unfold afterC
  dsimp only
  exact out1_C_6_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterC_acc (t : Fin cfg1.N) (hc0 : ¬cond1_0 (grid1.coords t)) (hc1 : cond1_1 (grid1.coords t)) (xs0 : Vec Ideal S32x128x12 .f32) (xs1 : Vec Ideal S8x128 .f32) : (afterC V c t hc0 hc1 xs0 xs1).2.2.2.1 = k1_pay1 (k1_pay6 (iblk1 V c 0 t) (iblk1 V c 1 t)) (iblk1 V c 2 t) xs0 := by
  unfold afterC
  dsimp only
  exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

theorem afterC_root (t : Fin cfg1.N) (hc0 : ¬cond1_0 (grid1.coords t)) (hc1 : cond1_1 (grid1.coords t)) (xs0 : Vec Ideal S32x128x12 .f32) (xs1 : Vec Ideal S8x128 .f32) : (afterC V c t hc0 hc1 xs0 xs1).2.2.2.2 = k1_pay7 (iblk1 V c 0 t) (iblk1 V c 1 t) xs1 := by
  unfold afterC
  dsimp only
  exact sout1_C_1_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) hc0 hc1 (iblk1 V c 0 t) (iblk1 V c 1 t) (iblk1 V c 2 t) (iblk1 V c 3 t) xs0 xs1

/-! ## The scratch buffers after every point: running sums over the feature tiles -/

/-- At the first feature tile of a (batch, query block) both scratch buffers, started from zero, hold the first term. -/
theorem scratch_first (t : Fin cfg1.N) (h0 : t.val % 16 = 0) :
    (∀ (a : Fin 32) (k : Fin 128) (n : Fin 12), (outsAt1 V c t.val t.isLt).2.2.2.1 (ix3 a k n) = runSum (tileDot (V c main_v4 : Vec Ideal S4x128x2048 .f32) (V c main_v5 : Vec Ideal S4x128x2048 .f32) (V c main_arg5 : Vec Ideal S2048x12 .f32) (bOf t) (qpos (qiOf t) a) k n) (dhOf t).val)
      ∧ (∀ (u : Fin 8) (v : Fin 128), (outsAt1 V c t.val t.isLt).2.2.2.2 (ix2 u v) = runSum (tileRoot (V c main_v4 : Vec Ideal S4x128x2048 .f32) (V c main_v5 : Vec Ideal S4x128x2048 .f32) (bOf t) (qiOf t)) (dhOf t).val) := by
  have hd : (dhOf t).val = 0 := h0
  rw [outsAt1_A V c t h0, afterA_acc, afterA_root]
  exact ⟨fun a k n => (acc_start (V c main_v4 : Vec Ideal S4x128x2048 .f32) (V c main_v5 : Vec Ideal S4x128x2048 .f32) (V c main_arg5 : Vec Ideal S2048x12 .f32) (bOf t) (qiOf t) (dhOf t) (iblk1 V c 0 t) (iblk1 V c 1 t) (iblk1 V c 2 t) (blockQ V c t) (blockK V c t) (blockW V c t) hd a k n).trans
      (congrArg (runSum _) hd.symm),
    fun u v => (root_start (V c main_v4 : Vec Ideal S4x128x2048 .f32) (V c main_v5 : Vec Ideal S4x128x2048 .f32) (bOf t) (qiOf t) (dhOf t) (iblk1 V c 0 t) (iblk1 V c 1 t) (blockQ V c t) (blockK V c t) hd u v).trans
      (congrArg (runSum _) hd.symm)⟩

/-- At a later feature tile both scratch buffers go from the running sums up to the tile before to those up to this tile. -/
theorem scratch_next (t : Fin cfg1.N) (h0 : ¬t.val % 16 = 0)
    (ih : (∀ (a : Fin 32) (k : Fin 128) (n : Fin 12), (outsAt1 V c (t.val - 1) (Nat.lt_of_le_of_lt (Nat.sub_le _ _) t.isLt)).2.2.2.1 (ix3 a k n) = runSum (tileDot (V c main_v4 : Vec Ideal S4x128x2048 .f32) (V c main_v5 : Vec Ideal S4x128x2048 .f32) (V c main_arg5 : Vec Ideal S2048x12 .f32) (bOf t) (qpos (qiOf t) a) k n) ((dhOf t).val - 1))
      ∧ (∀ (u : Fin 8) (v : Fin 128), (outsAt1 V c (t.val - 1) (Nat.lt_of_le_of_lt (Nat.sub_le _ _) t.isLt)).2.2.2.2 (ix2 u v) = runSum (tileRoot (V c main_v4 : Vec Ideal S4x128x2048 .f32) (V c main_v5 : Vec Ideal S4x128x2048 .f32) (bOf t) (qiOf t)) ((dhOf t).val - 1))) :
    (∀ (a : Fin 32) (k : Fin 128) (n : Fin 12), (outsAt1 V c t.val t.isLt).2.2.2.1 (ix3 a k n) = runSum (tileDot (V c main_v4 : Vec Ideal S4x128x2048 .f32) (V c main_v5 : Vec Ideal S4x128x2048 .f32) (V c main_arg5 : Vec Ideal S2048x12 .f32) (bOf t) (qpos (qiOf t) a) k n) (dhOf t).val)
      ∧ (∀ (u : Fin 8) (v : Fin 128), (outsAt1 V c t.val t.isLt).2.2.2.2 (ix2 u v) = runSum (tileRoot (V c main_v4 : Vec Ideal S4x128x2048 .f32) (V c main_v5 : Vec Ideal S4x128x2048 .f32) (bOf t) (qiOf t)) (dhOf t).val) := by
  have hd : (dhOf t).val = ((dhOf t).val - 1) + 1 := by
    have : (dhOf t).val = t.val % 16 := rfl
    omega
  by_cases h1 : t.val % 16 = 15
  · rw [outsAt1_C V c t h0 h1, afterC_acc, afterC_root]
    exact ⟨fun a k n => (acc_succ (V c main_v4 : Vec Ideal S4x128x2048 .f32) (V c main_v5 : Vec Ideal S4x128x2048 .f32) (V c main_arg5 : Vec Ideal S2048x12 .f32) (bOf t) (qiOf t) (dhOf t) (iblk1 V c 0 t) (iblk1 V c 1 t) (iblk1 V c 2 t) (blockQ V c t) (blockK V c t) (blockW V c t)
        (outsAt1 V c (t.val - 1) (Nat.lt_of_le_of_lt (Nat.sub_le _ _) t.isLt)).2.2.2.1 a k n ((dhOf t).val - 1) (ih.1 a k n) hd).trans (congrArg (runSum _) hd.symm),
      fun u v => (root_succ (V c main_v4 : Vec Ideal S4x128x2048 .f32) (V c main_v5 : Vec Ideal S4x128x2048 .f32) (bOf t) (qiOf t) (dhOf t) (iblk1 V c 0 t) (iblk1 V c 1 t) (blockQ V c t) (blockK V c t)
        (outsAt1 V c (t.val - 1) (Nat.lt_of_le_of_lt (Nat.sub_le _ _) t.isLt)).2.2.2.2 u v ((dhOf t).val - 1) (ih.2 u v) hd).trans (congrArg (runSum _) hd.symm)⟩
  · rw [outsAt1_B V c t h0 h1, afterB_acc, afterB_root]
    exact ⟨fun a k n => (acc_succ (V c main_v4 : Vec Ideal S4x128x2048 .f32) (V c main_v5 : Vec Ideal S4x128x2048 .f32) (V c main_arg5 : Vec Ideal S2048x12 .f32) (bOf t) (qiOf t) (dhOf t) (iblk1 V c 0 t) (iblk1 V c 1 t) (iblk1 V c 2 t) (blockQ V c t) (blockK V c t) (blockW V c t)
        (outsAt1 V c (t.val - 1) (Nat.lt_of_le_of_lt (Nat.sub_le _ _) t.isLt)).2.2.2.1 a k n ((dhOf t).val - 1) (ih.1 a k n) hd).trans (congrArg (runSum _) hd.symm),
      fun u v => (root_succ (V c main_v4 : Vec Ideal S4x128x2048 .f32) (V c main_v5 : Vec Ideal S4x128x2048 .f32) (bOf t) (qiOf t) (dhOf t) (iblk1 V c 0 t) (iblk1 V c 1 t) (blockQ V c t) (blockK V c t)
        (outsAt1 V c (t.val - 1) (Nat.lt_of_le_of_lt (Nat.sub_le _ _) t.isLt)).2.2.2.2 u v ((dhOf t).val - 1) (ih.2 u v) hd).trans (congrArg (runSum _) hd.symm)⟩

/-- After every point the two scratch buffers hold the running sums, over the feature tiles up to the point's, of
    the decoded scores and of the roots of the point's batch and query block. -/
theorem scratch_at (t : Fin cfg1.N) :
    (∀ (a : Fin 32) (k : Fin 128) (n : Fin 12), (outsAt1 V c t.val t.isLt).2.2.2.1 (ix3 a k n) = runSum (tileDot (V c main_v4 : Vec Ideal S4x128x2048 .f32) (V c main_v5 : Vec Ideal S4x128x2048 .f32) (V c main_arg5 : Vec Ideal S2048x12 .f32) (bOf t) (qpos (qiOf t) a) k n) (dhOf t).val)
      ∧ (∀ (u : Fin 8) (v : Fin 128), (outsAt1 V c t.val t.isLt).2.2.2.2 (ix2 u v) = runSum (tileRoot (V c main_v4 : Vec Ideal S4x128x2048 .f32) (V c main_v5 : Vec Ideal S4x128x2048 .f32) (bOf t) (qiOf t)) (dhOf t).val) := by
  obtain ⟨n, hn⟩ := t
  induction n with
  | zero => exact scratch_first V c ⟨0, hn⟩ (Nat.zero_mod 16)
  | succ m ih =>
    by_cases h0 : (m + 1) % 16 = 0
    · exact scratch_first V c ⟨m + 1, hn⟩ h0
    · have hm : m < cfg1.N := Nat.lt_of_succ_lt hn
      have ihm := ih hm
      have eb : bOf ⟨m, hm⟩ = bOf ⟨m + 1, hn⟩ := Fin.ext (by show m / 64 = (m + 1) / 64; omega)
      have eq : qiOf ⟨m, hm⟩ = qiOf ⟨m + 1, hn⟩ := Fin.ext (by show m / 16 % 4 = (m + 1) / 16 % 4; omega)
      have ed : (dhOf ⟨m, hm⟩).val = (dhOf ⟨m + 1, hn⟩).val - 1 := by show m % 16 = (m + 1) % 16 - 1; omega
      rw [eb, eq, ed] at ihm
      exact scratch_next V c ⟨m + 1, hn⟩ h0 ihm

/-! ## The three output blocks -/

/-- At every point the indicator block is the indicator of the whole arrays' products at the block's place. -/
theorem fires_at (t : Fin cfg1.N) (a : Fin 32) (k h' : Fin 128) :
    (outsAt1 V c t.val t.isLt).1 (ix4 0 a k h')
      = fire (prodArr (V c main_v4 : Vec Ideal S4x128x2048 .f32) (V c main_v5 : Vec Ideal S4x128x2048 .f32) (bOf t) (qpos (qiOf t) a) k (feat (dhOf t) h')) := by
  have key : k1_pay8 (iblk1 V c 0 t) (iblk1 V c 1 t) (ix4 0 a k h') = fire (prodArr (V c main_v4 : Vec Ideal S4x128x2048 .f32) (V c main_v5 : Vec Ideal S4x128x2048 .f32) (bOf t) (qpos (qiOf t) a) k (feat (dhOf t) h')) :=
    fire_block (V c main_v4 : Vec Ideal S4x128x2048 .f32) (V c main_v5 : Vec Ideal S4x128x2048 .f32) (bOf t) (qiOf t) (dhOf t) (iblk1 V c 0 t) (iblk1 V c 1 t) (blockQ V c t) (blockK V c t) a k h'
  by_cases h0 : t.val % 16 = 0
  · rw [outsAt1_A V c t h0, afterA_fire]
    exact key
  · by_cases h1 : t.val % 16 = 15
    · rw [outsAt1_C V c t h0 h1, afterC_fire]
      exact key
    · rw [outsAt1_B V c t h0 h1, afterB_fire]
      exact key

/-- At the last feature tile the score block is the specification's score at the block's place. -/
theorem score_at (t : Fin cfg1.N) (h15 : t.val % 16 = 15) (a : Fin 32) (k : Fin 128) (n : Fin 12) :
    (outsAt1 V c t.val t.isLt).2.1 (ix4 0 a k n)
      = scoreRaw (prodArr (V c main_v4 : Vec Ideal S4x128x2048 .f32) (V c main_v5 : Vec Ideal S4x128x2048 .f32)) (fun h n => (V c main_arg5 : Vec Ideal S2048x12 .f32) (ix2 h n)) (fun n => (V c main_v6 : Vec Ideal S1x12 .f32) (ix2 0 n)) (bOf t) (qpos (qiOf t) a) k n := by
  have h0 : ¬t.val % 16 = 0 := by omega
  have hd : (dhOf t).val = 15 := h15
  have hs := (scratch_at V c t).1
  rw [outsAt1_C V c t h0 h15, afterC_acc, hd] at hs
  rw [outsAt1_C V c t h0 h15, afterC_score]
  exact score_final (V c main_v4 : Vec Ideal S4x128x2048 .f32) (V c main_v5 : Vec Ideal S4x128x2048 .f32) (V c main_arg5 : Vec Ideal S2048x12 .f32) (V c main_v6 : Vec Ideal S1x12 .f32) (bOf t) (qiOf t)
    (k1_pay1 (k1_pay6 (iblk1 V c 0 t) (iblk1 V c 1 t)) (iblk1 V c 2 t) (outsAt1 V c (t.val - 1) (Nat.lt_of_le_of_lt (Nat.sub_le _ _) t.isLt)).2.2.2.1) (iblk1 V c 3 t) (blockB V c t) hs a k n

/-- At the last feature tile the root-sum block holds, at every entry, the whole running sum of roots of the point's
    batch and query block. -/
theorem rootsum_at (t : Fin cfg1.N) (h15 : t.val % 16 = 15) (u : Fin 8) (v : Fin 128) :
    (outsAt1 V c t.val t.isLt).2.2.1 (ix4 0 0 u v) = runSum (tileRoot (V c main_v4 : Vec Ideal S4x128x2048 .f32) (V c main_v5 : Vec Ideal S4x128x2048 .f32) (bOf t) (qiOf t)) 15 := by
  have h0 : ¬t.val % 16 = 0 := by omega
  have hd : (dhOf t).val = 15 := h15
  have hs := (scratch_at V c t).2
  rw [outsAt1_C V c t h0 h15, afterC_root, hd] at hs
  rw [outsAt1_C V c t h0 h15, afterC_rootsum, copy_entry]
  exact hs u v

end Points

end Cert.KernelIdeal.Value1

end
-- ==== Proof.KIValue1Arr.lean ====
/-
  The second kernel's three result arrays as whole-array functions of the arrays the region is entered with: the
  indicator blocks of all 256 grid points tile the indicator array; the score and sum-of-roots blocks, written back at
  the last feature tile of each (batch, query block), tile theirs.
-/
import Idealize.ShloMosaic.Lib.Pipeline.Value
import Idealize.ShloMosaic.Lib.ValueIdx
import proofs.«168794_j67723044324148_2_alg».proof.Proof.KIValue1Points

noncomputable section

namespace Cert.KernelIdeal.Value1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand Cert.KernelIdeal.PayloadValue Cert.TileSums Cert.QKSpec

/-! ## The three results as functions of the whole arrays -/

section Arrays
variable (Q K : Vec Ideal S4x128x2048 .f32) (Wd : Vec Ideal S2048x12 .f32) (bd2 : Vec Ideal S1x12 .f32)

/-- The indicators of every product, `[4, 128, 128, 2048]`. -/
def firesArr : Vec Ideal S4x128x128x2048 .i32 := fun j =>
  fire (prodArr Q K ⟨(j 0).val, (j 0).isLt⟩ ⟨(j 1).val, (j 1).isLt⟩ ⟨(j 2).val, (j 2).isLt⟩ ⟨(j 3).val, (j 3).isLt⟩)

theorem firesArr_apply (b : Fin 4) (q k : Fin 128) (h : Fin 2048) :
    firesArr Q K (ix4 b q k h) = fire (prodArr Q K b q k h) := rfl

/-- The decoded score before the transposition, `[4, 128, 128, 12]`. -/
def scoreArr4 : Vec Ideal S4x128x128x12 .f32 := fun j =>
  scoreRaw (prodArr Q K) (fun h n => Wd (ix2 h n)) (fun n => bd2 (ix2 0 n))
    ⟨(j 0).val, (j 0).isLt⟩ ⟨(j 1).val, (j 1).isLt⟩ ⟨(j 2).val, (j 2).isLt⟩ ⟨(j 3).val, (j 3).isLt⟩

theorem scoreArr4_apply (b : Fin 4) (q k : Fin 128) (n : Fin 12) :
    scoreArr4 Q K Wd bd2 (ix4 b q k n) = scoreRaw (prodArr Q K) (fun h n => Wd (ix2 h n)) (fun n => bd2 (ix2 0 n)) b q k n := rfl

/-- The sums of roots of each (batch, query block) over all sixteen feature tiles, spread over an `[8, 128]` block each. -/
def rootArr : Vec Ideal S4x4x8x128 .f32 := fun j =>
  runSum (tileRoot Q K ⟨(j 0).val, (j 0).isLt⟩ ⟨(j 1).val, (j 1).isLt⟩) 15

theorem rootArr_apply (b qi : Fin 4) (u : Fin 8) (v : Fin 128) :
    rootArr Q K (ix4 b qi u v) = runSum (tileRoot Q K b qi) 15 := rfl

/-! ## One block of each -/

/-- A block of indicators that is the indicator of the products at batch `b`, query block `qi`, feature tile `dh` is the block
    of `firesArr` at those offsets. -/
theorem fires_blockAt (X : Vec Ideal S1x32x128x128 .i32) (b qi : Fin 4) (dh : Fin 16)
    (hX : ∀ (a : Fin 32) (k h' : Fin 128), X (ix4 0 a k h') = fire (prodArr Q K b (qpos qi a) k (feat dh h')))
    (j : S1x32x128x128.Idx) (i : S4x128x128x2048.Idx)
    (h0 : (i 0).val = b.val + (j 0).val) (h1 : (i 1).val = qi.val * 32 + (j 1).val) (h2 : (i 2).val = (j 2).val)
    (h3 : (i 3).val = dh.val * 128 + (j 3).val) : X j = firesArr Q K i := by
  obtain ⟨u, a, k, h', rfl⟩ : ∃ (u : Fin 1) (a : Fin 32) (k h' : Fin 128), j = ix4 u a k h' := ⟨j 0, j 1, j 2, j 3, eq_ix4 j⟩
  obtain ⟨b', q, k', h, rfl⟩ : ∃ (b' : Fin 4) (q k' : Fin 128) (h : Fin 2048), i = ix4 b' q k' h :=
    ⟨i 0, i 1, i 2, i 3, eq_ix4 i⟩
  obtain rfl : u = 0 := Subsingleton.elim _ _
  obtain rfl : b' = b := Fin.ext (by have e : b'.val = b.val + 0 := h0; omega)
  obtain rfl : q = qpos qi a := Fin.ext h1
  obtain rfl : k' = k := Fin.ext h2
  obtain rfl : h = feat dh h' := Fin.ext h3
  rw [hX, firesArr_apply]

/-- The same for a score block. -/
theorem score_blockAt (X : Vec Ideal S1x32x128x12 .f32) (b qi : Fin 4)
    (hX : ∀ (a : Fin 32) (k : Fin 128) (n : Fin 12), X (ix4 0 a k n)
      = scoreRaw (prodArr Q K) (fun h n => Wd (ix2 h n)) (fun n => bd2 (ix2 0 n)) b (qpos qi a) k n)
    (j : S1x32x128x12.Idx) (i : S4x128x128x12.Idx)
    (h0 : (i 0).val = b.val + (j 0).val) (h1 : (i 1).val = qi.val * 32 + (j 1).val) (h2 : (i 2).val = (j 2).val)
    (h3 : (i 3).val = (j 3).val) : X j = scoreArr4 Q K Wd bd2 i := by
  obtain ⟨u, a, k, n, rfl⟩ : ∃ (u : Fin 1) (a : Fin 32) (k : Fin 128) (n : Fin 12), j = ix4 u a k n := ⟨j 0, j 1, j 2, j 3, eq_ix4 j⟩
  obtain ⟨b', q, k', n', rfl⟩ : ∃ (b' : Fin 4) (q k' : Fin 128) (n' : Fin 12), i = ix4 b' q k' n' :=
    ⟨i 0, i 1, i 2, i 3, eq_ix4 i⟩
  obtain rfl : u = 0 := Subsingleton.elim _ _
  obtain rfl : b' = b := Fin.ext (by have e : b'.val = b.val + 0 := h0; omega)
  obtain rfl : q = qpos qi a := Fin.ext h1
  obtain rfl : k' = k := Fin.ext h2
  obtain rfl : n' = n := Fin.ext h3
  rw [hX, scoreArr4_apply]

/-- The same for a sum-of-roots block. -/
theorem root_blockAt (X : Vec Ideal S1x1x8x128 .f32) (b qi : Fin 4)
    (hX : ∀ (u : Fin 8) (v : Fin 128), X (ix4 0 0 u v) = runSum (tileRoot Q K b qi) 15)
    (j : S1x1x8x128.Idx) (i : S4x4x8x128.Idx)
    (h0 : (i 0).val = b.val + (j 0).val) (h1 : (i 1).val = qi.val + (j 1).val) : X j = rootArr Q K i := by
  obtain ⟨w, w', u, v, rfl⟩ : ∃ (w w' : Fin 1) (u : Fin 8) (v : Fin 128), j = ix4 w w' u v := ⟨j 0, j 1, j 2, j 3, eq_ix4 j⟩
  obtain ⟨b', qi', u', v', rfl⟩ : ∃ (b' qi' : Fin 4) (u' : Fin 8) (v' : Fin 128), i = ix4 b' qi' u' v' :=
    ⟨i 0, i 1, i 2, i 3, eq_ix4 i⟩
  obtain rfl : w = 0 := Subsingleton.elim _ _
  obtain rfl : w' = 0 := Subsingleton.elim _ _
  obtain rfl : b' = b := Fin.ext (by have e : b'.val = b.val + 0 := h0; omega)
  obtain rfl : qi' = qi := Fin.ext (by have e : qi'.val = qi.val + 0 := h1; omega)
  rw [hX, rootArr_apply]

end Arrays

/-! ## The output windows' index maps over the 256 points -/

/-- The printed index maps of the three output windows, decided over the grid. -/
theorem idx_factsOut : ∀ t : Fin cfg1.N,
      win1_4.index t (0 : Fin 4) = t.val / 64 ∧ win1_4.index t (1 : Fin 4) = t.val / 16 % 4
    ∧ win1_4.index t (2 : Fin 4) = 0 ∧ win1_4.index t (3 : Fin 4) = t.val % 16
    ∧ win1_5.index t (0 : Fin 4) = t.val / 64 ∧ win1_5.index t (1 : Fin 4) = t.val / 16 % 4
    ∧ win1_5.index t (2 : Fin 4) = 0 ∧ win1_5.index t (3 : Fin 4) = 0
    ∧ win1_6.index t (0 : Fin 4) = t.val / 64 ∧ win1_6.index t (1 : Fin 4) = t.val / 16 % 4
    ∧ win1_6.index t (2 : Fin 4) = 0 ∧ win1_6.index t (3 : Fin 4) = 0 :=
  (by decide +kernel : ∀ t : Fin grid1.N, _)

section Blocks
variable (V : (c : Dev nD) → (b : Ref sig .tc) → Buf (Elt Ideal) ((c : Thread nD τ).loc b)) (c : Dev nD)

/-! ## What a point writes back -/

/-- What point `t` writes back to the indicators is block `t` of `firesArr` of the queries and keys. -/
theorem flushedF_eq (t : Fin cfg1.N) :
    (dat1 (F := Ideal) V c).flushed 4 t = ((cfg1.win 4).blk t).view.read (Elt Ideal) (firesArr (V c main_v4) (V c main_v5)) := by
  show (cfg1.win 4).cut (grid1.coords t) ((dat1 V c).after 4 t) = _
  rw [after1_4]
  obtain ⟨e0, e1, e2, e3, -⟩ := idx_factsOut t
  funext j
  rw [View.read_apply]
  refine fires_blockAt (V c main_v4) (V c main_v5) (outsAt1 V c t.val t.isLt).1 (bOf t) (qiOf t) (dhOf t)
    (fun a k h' => fires_at V c t a k h') j (((cfg1.win 4).blk t).view.emb j) ?_ ?_ ?_ ?_
  · show win1_4.index t (0 : Fin 4) * 1 + 1 * (j 0).val = t.val / 64 + (j 0).val; omega
  · show win1_4.index t (1 : Fin 4) * 32 + 1 * (j 1).val = t.val / 16 % 4 * 32 + (j 1).val; omega
  · show win1_4.index t (2 : Fin 4) * 128 + 1 * (j 2).val = (j 2).val; omega
  · show win1_4.index t (3 : Fin 4) * 128 + 1 * (j 3).val = t.val % 16 * 128 + (j 3).val; omega

/-- What a point at the last feature tile writes back to the score is its block of `scoreArr4`. -/
theorem flushedS_eq (t : Fin cfg1.N) (h15 : t.val % 16 = 15) :
    (dat1 (F := Ideal) V c).flushed 5 t
      = ((cfg1.win 5).blk t).view.read (Elt Ideal) (scoreArr4 (V c main_v4) (V c main_v5) (V c main_arg5) (V c main_v6)) := by
  show (cfg1.win 5).cut (grid1.coords t) ((dat1 V c).after 5 t) = _
  rw [after1_5]
  obtain ⟨-, -, -, -, e0, e1, e2, e3, -⟩ := idx_factsOut t
  funext j
  rw [View.read_apply]
  refine score_blockAt (V c main_v4) (V c main_v5) (V c main_arg5) (V c main_v6) (outsAt1 V c t.val t.isLt).2.1 (bOf t) (qiOf t)
    (fun a k n => score_at V c t h15 a k n) j (((cfg1.win 5).blk t).view.emb j) ?_ ?_ ?_ ?_
  · show win1_5.index t (0 : Fin 4) * 1 + 1 * (j 0).val = t.val / 64 + (j 0).val; omega
  · show win1_5.index t (1 : Fin 4) * 32 + 1 * (j 1).val = t.val / 16 % 4 * 32 + (j 1).val; omega
  · show win1_5.index t (2 : Fin 4) * 128 + 1 * (j 2).val = (j 2).val; omega
  · show win1_5.index t (3 : Fin 4) * 12 + 1 * (j 3).val = (j 3).val; omega

/-- What a point at the last feature tile writes back to the sums of roots is its block of `rootArr`. -/
theorem flushedR_eq (t : Fin cfg1.N) (h15 : t.val % 16 = 15) :
    (dat1 (F := Ideal) V c).flushed 6 t = ((cfg1.win 6).blk t).view.read (Elt Ideal) (rootArr (V c main_v4) (V c main_v5)) := by
  show (cfg1.win 6).cut (grid1.coords t) ((dat1 V c).after 6 t) = _
  rw [after1_6]
  obtain ⟨-, -, -, -, -, -, -, -, e0, e1, e2, e3⟩ := idx_factsOut t
  funext j
  rw [View.read_apply]
  refine root_blockAt (V c main_v4) (V c main_v5) (outsAt1 V c t.val t.isLt).2.2.1 (bOf t) (qiOf t)
    (fun u v => rootsum_at V c t h15 u v) j (((cfg1.win 6).blk t).view.emb j) ?_ ?_
  · show win1_6.index t (0 : Fin 4) * 1 + 1 * (j 0).val = t.val / 64 + (j 0).val; omega
  · show win1_6.index t (1 : Fin 4) * 1 + 1 * (j 1).val = t.val / 16 % 4 + (j 1).val; omega

/-! ## The blocks' ranges, and the covers -/

/-- An index of the indicators is in point `t`'s block iff each coordinate is in the block's range on its axis. -/
theorem mem_blkF (t : Fin cfg1.N) (i : S4x128x128x2048.Idx) :
    i ∈ ((cfg1.win 4).blk t).view.set ↔ ∀ a : Fin 4, win1_4.index t a * S1x32x128x128.size a ≤ (i a).val
      ∧ (i a).val < win1_4.index t a * S1x32x128x128.size a + S1x32x128x128.size a := by
  show i ∈ ((View.whole main_v7_0).slice (win1_4.rect t)).set ↔ _
  rw [View.set_slice_whole, Rect.mem_set_unit]
  exact Iff.rfl

/-- The same for the score. -/
theorem mem_blkS (t : Fin cfg1.N) (i : S4x128x128x12.Idx) :
    i ∈ ((cfg1.win 5).blk t).view.set ↔ ∀ a : Fin 4, win1_5.index t a * S1x32x128x12.size a ≤ (i a).val
      ∧ (i a).val < win1_5.index t a * S1x32x128x12.size a + S1x32x128x12.size a := by
  show i ∈ ((View.whole main_v7_1).slice (win1_5.rect t)).set ↔ _
  rw [View.set_slice_whole, Rect.mem_set_unit]
  exact Iff.rfl

/-- The same for the sums of roots. -/
theorem mem_blkR (t : Fin cfg1.N) (i : S4x4x8x128.Idx) :
    i ∈ ((cfg1.win 6).blk t).view.set ↔ ∀ a : Fin 4, win1_6.index t a * S1x1x8x128.size a ≤ (i a).val
      ∧ (i a).val < win1_6.index t a * S1x1x8x128.size a + S1x1x8x128.size a := by
  show i ∈ ((View.whole main_v7_2).slice (win1_6.rect t)).set ↔ _
  rw [View.set_slice_whole, Rect.mem_set_unit]
  exact Iff.rfl

/-- Entry `(b, q, k, h)` of the indicators is in the block of the point of batch `b`, query block `q / 32`, feature tile `h / 128`. -/
theorem coverF (i : S4x128x128x2048.Idx) : ∃ t : Fin cfg1.N, (cfg1.win 4).flush t = true ∧ i ∈ ((cfg1.win 4).blk t).view.set := by
  have hi0 : (i 0).val < 4 := (i 0).isLt
  have hi1 : (i 1).val < 128 := (i 1).isLt
  have hi2 : (i 2).val < 128 := (i 2).isLt
  have hi3 : (i 3).val < 2048 := (i 3).isLt
  have hN : cfg1.N = 256 := N_1
  obtain ⟨t, ht⟩ : ∃ t : Fin cfg1.N, t.val = ((i 0).val * 4 + (i 1).val / 32) * 16 + (i 3).val / 128 :=
    ⟨⟨((i 0).val * 4 + (i 1).val / 32) * 16 + (i 3).val / 128, by omega⟩, rfl⟩
  obtain ⟨e0, e1, e2, e3, -⟩ := idx_factsOut t
  refine ⟨t, flush1_4 t, ?_⟩
  rw [mem_blkF]
  intro a
  match a with
  | ⟨0, _⟩ => show win1_4.index t (0 : Fin 4) * 1 ≤ (i 0).val ∧ (i 0).val < win1_4.index t (0 : Fin 4) * 1 + 1; omega
  | ⟨1, _⟩ => show win1_4.index t (1 : Fin 4) * 32 ≤ (i 1).val ∧ (i 1).val < win1_4.index t (1 : Fin 4) * 32 + 32; omega
  | ⟨2, _⟩ => show win1_4.index t (2 : Fin 4) * 128 ≤ (i 2).val ∧ (i 2).val < win1_4.index t (2 : Fin 4) * 128 + 128; omega
  | ⟨3, _⟩ => show win1_4.index t (3 : Fin 4) * 128 ≤ (i 3).val ∧ (i 3).val < win1_4.index t (3 : Fin 4) * 128 + 128; omega

/-- Entry `(b, q, k, n)` of the score is in the block of the last-tile point of batch `b`, query block `q / 32`. -/
theorem coverS (i : S4x128x128x12.Idx) : ∃ t : Fin cfg1.N, (cfg1.win 5).flush t = true ∧ i ∈ ((cfg1.win 5).blk t).view.set := by
  have hi0 : (i 0).val < 4 := (i 0).isLt
  have hi1 : (i 1).val < 128 := (i 1).isLt
  have hi2 : (i 2).val < 128 := (i 2).isLt
  have hi3 : (i 3).val < 12 := (i 3).isLt
  have hN : cfg1.N = 256 := N_1
  obtain ⟨t, ht⟩ : ∃ t : Fin cfg1.N, t.val = ((i 0).val * 4 + (i 1).val / 32) * 16 + 15 :=
    ⟨⟨((i 0).val * 4 + (i 1).val / 32) * 16 + 15, by omega⟩, rfl⟩
  obtain ⟨-, -, -, -, e0, e1, e2, e3, -⟩ := idx_factsOut t
  refine ⟨t, (flush1_5 t).mpr (by omega), ?_⟩
  rw [mem_blkS]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 32 ≤ (i 1).val ∧ (i 1).val < win1_5.index t (1 : Fin 4) * 32 + 32; omega
  | ⟨2, _⟩ => show win1_5.index t (2 : Fin 4) * 128 ≤ (i 2).val ∧ (i 2).val < win1_5.index t (2 : Fin 4) * 128 + 128; omega
  | ⟨3, _⟩ => show win1_5.index t (3 : Fin 4) * 12 ≤ (i 3).val ∧ (i 3).val < win1_5.index t (3 : Fin 4) * 12 + 12; omega

/-- Entry `(b, qi, u, v)` of the sums of roots is in the block of the last-tile point of batch `b`, query block `qi`. -/
theorem coverR (i : S4x4x8x128.Idx) : ∃ t : Fin cfg1.N, (cfg1.win 6).flush t = true ∧ i ∈ ((cfg1.win 6).blk t).view.set := by
  have hi0 : (i 0).val < 4 := (i 0).isLt
  have hi1 : (i 1).val < 4 := (i 1).isLt
  have hi2 : (i 2).val < 8 := (i 2).isLt
  have hi3 : (i 3).val < 128 := (i 3).isLt
  have hN : cfg1.N = 256 := N_1
  obtain ⟨t, ht⟩ : ∃ t : Fin cfg1.N, t.val = ((i 0).val * 4 + (i 1).val) * 16 + 15 :=
    ⟨⟨((i 0).val * 4 + (i 1).val) * 16 + 15, by omega⟩, rfl⟩
  obtain ⟨-, -, -, -, -, -, -, -, e0, e1, e2, e3⟩ := idx_factsOut t
  refine ⟨t, (flush1_6 t).mpr (by omega), ?_⟩
  rw [mem_blkR]
  intro a
  match a with
  | ⟨0, _⟩ => show win1_6.index t (0 : Fin 4) * 1 ≤ (i 0).val ∧ (i 0).val < win1_6.index t (0 : Fin 4) * 1 + 1; omega
  | ⟨1, _⟩ => show win1_6.index t (1 : Fin 4) * 1 ≤ (i 1).val ∧ (i 1).val < win1_6.index t (1 : Fin 4) * 1 + 1; omega
  | ⟨2, _⟩ => show win1_6.index t (2 : Fin 4) * 8 ≤ (i 2).val ∧ (i 2).val < win1_6.index t (2 : Fin 4) * 8 + 8; omega
  | ⟨3, _⟩ => show win1_6.index t (3 : Fin 4) * 128 ≤ (i 3).val ∧ (i 3).val < win1_6.index t (3 : Fin 4) * 128 + 128; omega

/-! ## The arrays after the run -/

/-- The indicators after the run. -/
theorem fires_flat : (dat1 (F := Ideal) V c).arrAt 4 cfg1.N = firesArr (V c main_v4) (V c main_v5) :=
  (dat1 (F := Ideal) V c).arrAt_eq_of_cover 4 (firesArr (V c main_v4) (V c main_v5)) (fun t _ => flushedF_eq V c t) coverF

/-- The score after the run. -/
theorem score_flat : (dat1 (F := Ideal) V c).arrAt 5 cfg1.N = scoreArr4 (V c main_v4) (V c main_v5) (V c main_arg5) (V c main_v6) :=
  (dat1 (F := Ideal) V c).arrAt_eq_of_cover 5 (scoreArr4 (V c main_v4) (V c main_v5) (V c main_arg5) (V c main_v6))
    (fun t hf => flushedS_eq V c t ((flush1_5 t).mp hf)) coverS

/-- The sums of roots after the run. -/
theorem rootsum_flat : (dat1 (F := Ideal) V c).arrAt 6 cfg1.N = rootArr (V c main_v4) (V c main_v5) :=
  (dat1 (F := Ideal) V c).arrAt_eq_of_cover 6 (rootArr (V c main_v4) (V c main_v5))
    (fun t hf => flushedR_eq V c t ((flush1_6 t).mp hf)) coverR

/-- THE INDICATORS after the run, entry by entry. -/
theorem fires_arr (b : Fin 4) (q k : Fin 128) (h : Fin 2048) :
    (dat1 (F := Ideal) V c).arrAt 4 cfg1.N (ix4 b q k h) = fire (prodArr (V c main_v4) (V c main_v5) b q k h) := by
  rw [fires_flat]; rfl

/-- THE SCORE after the run, entry by entry. -/
theorem score_arr (b : Fin 4) (q k : Fin 128) (n : Fin 12) :
    (dat1 (F := Ideal) V c).arrAt 5 cfg1.N (ix4 b q k n)
      = scoreRaw (prodArr (V c main_v4) (V c main_v5)) (fun h n => (V c main_arg5 : Vec Ideal S2048x12 .f32) (ix2 h n))
          (fun n => (V c main_v6 : Vec Ideal S1x12 .f32) (ix2 0 n)) b q k n := by
  rw [score_flat]; rfl

/-- THE SUMS OF ROOTS after the run, entry by entry. -/
theorem rootsum_arr (b qi : Fin 4) (u : Fin 8) (v : Fin 128) :
    (dat1 (F := Ideal) V c).arrAt 6 cfg1.N (ix4 b qi u v) = runSum (tileRoot (V c main_v4) (V c main_v5) b qi) 15 := by
  rw [rootsum_flat]; rfl

end Blocks

end Cert.KernelIdeal.Value1

end
-- ==== Proof.KIFinal.lean ====
/-
  The idealized kernel program's three results, on the extended reals, are the specification's arrays of its arguments.
  The run leaves every buffer at the last boundary's contents; read back through the host stretches and the two kernels:
  the score is the transposed array of scaled, biased contractions of the feature products; the scalar is the constant
  times the sum, over the 16 (batch, query block) pairs, of each pair's running sum of roots, which is the sum over all
  entries; the indicator array is entry by entry the indicator of the feature products.  The feature products are those
  of the two dense layers of the arguments.
-/
import proofs.«168794_j67723044324148_2_alg».proof.Proof.KIRun
import proofs.«168794_j67723044324148_2_alg».proof.Proof.KIValueHost
import proofs.«168794_j67723044324148_2_alg».proof.Proof.KIValue1Arr
import proofs.«168794_j67723044324148_2_alg».proof.Proof.Spec

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Hand Cert.KernelIdeal.Value1 Cert.KernelIdeal.ValueHost Cert.TileSums Cert.QKSpec

variable (m : (ℓ : Loc nD τ sig) → Buf (Elt Ideal) ℓ) (c : Dev nD)

/-- The feature products of the two kernels' intermediate arrays are those of the arguments' dense layers. -/
theorem prod_eq :
    prodArr (Hand.V3 m c main_v4) (Hand.V3 m c main_v5) = actArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hQ : (fun (b : Fin 4) (s : Fin 128) (h : Fin 2048) => (Hand.V3 m c main_v4 : Vec Ideal S4x128x2048 .f32) (ix3 b s h))
      = encArr (m ((c.tc : Thread nD τ).loc main_arg0)) (m ((c.tc : Thread nD τ).loc main_arg1)) (m ((c.tc : Thread nD τ).loc main_arg3)) := by
    funext b s h; exact queries_arr m c b s h
  have hK : (fun (b : Fin 4) (s : Fin 128) (h : Fin 2048) => (Hand.V3 m c main_v5 : Vec Ideal S4x128x2048 .f32) (ix3 b s h))
      = encArr (m ((c.tc : Thread nD τ).loc main_arg0)) (m ((c.tc : Thread nD τ).loc main_arg2)) (m ((c.tc : Thread nD τ).loc main_arg4)) := by
    funext b s h; exact keys_arr m c b s h
  unfold prodArr actArr
  rw [hQ, hK]

/-- The indicator array. -/
theorem fires_value : W5 m c (Proc.devRef .tc main_v7_0) = fireArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [fires_out m c]
  funext j
  obtain ⟨b, q, k, h, rfl⟩ : ∃ (b : Fin 4) (q k : Fin 128) (h : Fin 2048), j = ix4 b q k h := ⟨j 0, j 1, j 2, j 3, eq_ix4 j⟩
  refine (congrFun (W4_arr m c 4) (ix4 b q k h)).trans ?_
  rw [fires_arr (Hand.V3 m) c b q k h, prod_eq m c]
  rfl

/-- The score array. -/
theorem score_value : W5 m c (Proc.devRef .tc main_v12) = scoreT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  obtain ⟨b, n, q, k, rfl⟩ : ∃ (b : Fin 4) (n : Fin 12) (q k : Fin 128), j = ix4 b n q k := ⟨j 0, j 1, j 2, j 3, eq_ix4 j⟩
  rw [score_out m c b n q k]
  refine (congrFun (W4_arr m c 5) (ix4 b q k n)).trans ?_
  rw [score_arr (Hand.V3 m) c b q k n, prod_eq m c]
  have hW : (fun (h : Fin 2048) (n : Fin 12) => Hand.V3 m c main_arg5 (ix2 h n)) = fun h n => m ((c.tc : Thread nD τ).loc main_arg5) (ix2 h n) := by
    funext h n; exact congrFun (wdec_arr m c) (ix2 h n)
  have hb : (fun n : Fin 12 => Hand.V3 m c main_v6 (ix2 0 n)) = fun n => m ((c.tc : Thread nD τ).loc main_arg6) (ix1 n) :=
    funext fun n => bias_row m c n
  rw [hW, hb]
  rfl

/-- The scaled sum of roots. -/
theorem rootsum_value : W5 m c (Proc.devRef .tc main_v11) = fun _ => Ideal.ofBits .f32 0x3A83126F#32 * rootTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [rootsum_out m c]
  funext _
  refine congrArg _ ?_
  have h6 : ∀ b qi : Fin 4, partials m c (ix4 b qi 0 0) = runSum (tileRoot (Hand.V3 m c main_v4) (Hand.V3 m c main_v5) b qi) 15 := fun b qi =>
    (congrFun (W4_arr m c 6) (ix4 b qi 0 0)).trans (rootsum_arr (Hand.V3 m) c b qi 0 0)
  simp only [h6]
  rw [root_total, prod_eq m c]
  rfl

/-- THE RUN WITH ITS VALUES: every weakly fair execution of the idealized kernel program terminates, nothing faulting,
    with the three results at the specification's arrays of the arguments, and the arguments as launched. -/
theorem run_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = scoreT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v11) = (fun _ => Ideal.ofBits .f32 0x3A83126F#32 * rootTotal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_v7_0) = fireArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c _ (mem_uc main_v12 (by decide))).trans (score_value m c),
    (h c _ (mem_uc main_v11 (by decide))).trans (rootsum_value m c),
    (h c _ (mem_uc main_v7_0 (by decide))).trans (fires_value m c),
    (h c _ (mem_uc main_arg0 (by decide))).trans (W5_main_arg0 m c),
    (h c _ (mem_uc main_arg1 (by decide))).trans (W5_main_arg1 m c),
    (h c _ (mem_uc main_arg2 (by decide))).trans (W5_main_arg2 m c),
    (h c _ (mem_uc main_arg3 (by decide))).trans (W5_main_arg3 m c),
    (h c _ (mem_uc main_arg4 (by decide))).trans (W5_main_arg4 m c),
    (h c _ (mem_uc main_arg5 (by decide))).trans (W5_main_arg5 m c),
    (h c _ (mem_uc main_arg6 (by decide))).trans (W5_main_arg6 m c)⟩) (run_all m ρ)

end Cert.KernelIdeal.Final

end
-- ==== Proof.lean ====
/-
  The proof of `Cert.Claim`: a pipelined kernel pair — two dense layers with a ramp (queries and keys), then, per batch
  and block of 32 query positions and in 16 tiles of 128 features, the pairwise feature products of queries and keys with
  their indicator, their decoded score and the sum of `√(|·| + ε)` — against the same quantities computed whole by the
  host.  On the extended reals the two programs agree entry by entry: a contraction over 2048 features is the sum of its
  16 tile contractions, the product with the word of 1/8 is the quotient by the word of 8, and the sum of roots over all
  entries is the sum of the 16 per-block running sums; only commutativity and associativity of the sum are used, so the
  precondition is never opened.  The frames are the runs of the programs' segments (Proof/KRun.lean, Proof/KIRun.lean);
  the idealization rewrote nothing.
-/
import proofs.«168794_j67723044324148_2_alg».proof.Defs
import proofs.«168794_j67723044324148_2_alg».proof.Proof.Frames
import proofs.«168794_j67723044324148_2_alg».proof.Proof.KIFinal
import proofs.«168794_j67723044324148_2_alg».proof.Proof.RefSide
import proofs.«168794_j67723044324148_2_alg».proof.Proof.Gen.Kernel
import proofs.«168794_j67723044324148_2_alg».proof.Proof.Gen.KernelIdeal
import proofs.«168794_j67723044324148_2_alg».proof.Proof.Gen.ReferenceIdeal
import proofs.«168794_j67723044324148_2_alg».proof.Proof.Gen.Pre_finite_inputs
import Idealize.ShloMosaic.Adequacy
import Idealize.ShloMosaic.Init

noncomputable section

namespace Cert.Proof

open Idealize.ShloMosaic Idealize.SL.Sem

/-- Run from memories agreeing on the arguments, the idealized kernel program and the idealized reference end with the
    same three results: both are the specification's arrays of the (kernel's) arguments. -/
theorem algebraic : Cert.algebraic_KernelIdeal_ReferenceIdeal := by
  intro m ρ m' ρ' _ hagree
  refine ⟨_, _, _, Cert.KernelIdeal.Final.run_values m ρ, ?_⟩
  refine (θ_run Cert.ReferenceIdeal.defs _ _).mono (fun _ h c => ?_) (Cert.RefSide.run m' ρ')
  obtain ⟨h1, h2, h3, hargs⟩ := h c
  obtain ⟨e0, e1, e2, e3, e4, e5, e6⟩ := hagree c
  refine ⟨h1.trans ?_, h2.trans ?_, h3.trans ?_, hargs⟩
  · rw [e0, e1, e2, e3, e4, e5, e6]
  · rw [e0, e1, e2, e3, e4]; rfl
  · rw [e0, e1, e2, e3, e4]

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, algebraic⟩

end Cert.Proof

end
